-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000 : Shape := ⟨1, ![4000000]⟩
abbrev S8000000 : Shape := ⟨1, ![8000000]⟩
abbrev S_ : Shape := ⟨0, ![]⟩

class Facts : Prop where
  bcast_S_S4000000 : S_.BroadcastsInDim S4000000 (![] : Fin 0 → Fin S4000000.rank)
  reducesTo_S4000000_S_d0 : S4000000.ReducesTo [0] S_
  h_S_ : 0 < S_.numel
  bcast_S_S8000000 : S_.BroadcastsInDim S8000000 (![] : Fin 0 → Fin S8000000.rank)
  reducesTo_S8000000_S_d0 : S8000000.ReducesTo [0] S_

variable [Facts]

def fn_part1 {F : FTy → Type} [FloatOps F] (main_arg4 : FVec F S8000000 .f32) (main_arg5 : FVec F S8000000 .f32) (main_arg6 : FVec F S8000000 .f32) (main_v13 : IVec S_ 1) (main_v16 : IVec S8000000 1) : IVec S_ 1 :=
  let main_c_5 : IVec S_ 1 := constantI S_ 1 1#1
  let main_v17 : IVec S_ 1 := (fun x v => Host.reduce IntOp.andi x v reducesTo_S8000000_S_d0 h_S_) main_v16 main_c_5
  let main_v18 : IVec S_ 1 := andi main_v13 main_v17
  let main_v19 : FVec F S8000000 .f32 := Host.absf main_arg4
  let main_cst_6 : FVec F S_ .f32 := constant S_ .f32 0x7F800000#32
  let main_v20 : FVec F S8000000 .f32 := broadcastInDim S8000000 ![] bcast_S_S8000000 main_cst_6
  let main_v21 : IVec S8000000 1 := cmpf .olt main_v19 main_v20
  let main_c_7 : IVec S_ 1 := constantI S_ 1 1#1
  let main_v22 : IVec S_ 1 := (fun x v => Host.reduce IntOp.andi x v reducesTo_S8000000_S_d0 h_S_) main_v21 main_c_7
  let main_v23 : IVec S_ 1 := andi main_v18 main_v22
  let main_v24 : FVec F S8000000 .f32 := Host.absf main_arg5
  let main_cst_8 : FVec F S_ .f32 := constant S_ .f32 0x7F800000#32
  let main_v25 : FVec F S8000000 .f32 := broadcastInDim S8000000 ![] bcast_S_S8000000 main_cst_8
  let main_v26 : IVec S8000000 1 := cmpf .olt main_v24 main_v25
  let main_c_9 : IVec S_ 1 := constantI S_ 1 1#1
  let main_v27 : IVec S_ 1 := (fun x v => Host.reduce IntOp.andi x v reducesTo_S8000000_S_d0 h_S_) main_v26 main_c_9
  let main_v28 : IVec S_ 1 := andi main_v23 main_v27
  let main_v29 : FVec F S8000000 .f32 := Host.absf main_arg6
  let main_cst_10 : FVec F S_ .f32 := constant S_ .f32 0x7F800000#32
  let main_v30 : FVec F S8000000 .f32 := broadcastInDim S8000000 ![] bcast_S_S8000000 main_cst_10
  let main_v31 : IVec S8000000 1 := cmpf .olt main_v29 main_v30
  let main_c_11 : IVec S_ 1 := constantI S_ 1 1#1
  let main_v32 : IVec S_ 1 := (fun x v => Host.reduce IntOp.andi x v reducesTo_S8000000_S_d0 h_S_) main_v31 main_c_11
  let main_v33 : IVec S_ 1 := andi main_v28 main_v32
  main_v33

def fn {F : FTy → Type} [FloatOps F] (main_arg0 : FVec F S4000000 .f32) (main_arg1 : FVec F S4000000 .f32) (main_arg2 : FVec F S4000000 .f32) (main_arg3 : FVec F S8000000 .f32) (main_arg4 : FVec F S8000000 .f32) (main_arg5 : FVec F S8000000 .f32) (main_arg6 : FVec F S8000000 .f32) (main_arg7 : IVec S8000000 32) (main_arg8 : IVec S8000000 32) : IVec S_ 1 :=
  let main_v0 : FVec F S4000000 .f32 := Host.absf main_arg0
  let main_cst : FVec F S_ .f32 := constant S_ .f32 0x7F800000#32
  let main_v1 : FVec F S4000000 .f32 := broadcastInDim S4000000 ![] bcast_S_S4000000 main_cst
  let main_v2 : IVec S4000000 1 := cmpf .olt main_v0 main_v1
  let main_c : IVec S_ 1 := constantI S_ 1 1#1
  let main_v3 : IVec S_ 1 := (fun x v => Host.reduce IntOp.andi x v reducesTo_S4000000_S_d0 h_S_) main_v2 main_c
  let main_v4 : FVec F S4000000 .f32 := Host.absf main_arg1
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  let main_v14 : FVec F S8000000 .f32 := Host.absf main_arg3
  let main_cst_4 : FVec F S_ .f32 := constant S_ .f32 0x7F800000#32
  let main_v15 : FVec F S8000000 .f32 := broadcastInDim S8000000 ![] bcast_S_S8000000 main_cst_4
  let main_v16 : IVec S8000000 1 := cmpf .olt main_v14 main_v15
  fn_part1 (F := F) main_arg4 main_arg5 main_arg6 main_v13 main_v16
-- ==== Kernel.lean ====
abbrev S4000000 : Shape := ⟨1, ![4000000]⟩
abbrev S8000000 : Shape := ⟨1, ![8000000]⟩
abbrev S31250x128 : Shape := ⟨2, ![31250, 128]⟩
abbrev S3128x128 : Shape := ⟨2, ![3128, 128]⟩
abbrev S_ : Shape := ⟨0, ![]⟩
abbrev S8000000x1 : Shape := ⟨2, ![8000000, 1]⟩
abbrev S62500x128 : Shape := ⟨2, ![62500, 128]⟩
abbrev S8000000x3 : Shape := ⟨2, ![8000000, 3]⟩
abbrev S4000000x3 : Shape := ⟨2, ![4000000, 3]⟩
abbrev S4000000x1 : Shape := ⟨2, ![4000000, 1]⟩

abbrev nBuf : Space → Nat
  | .hbm => 74
  | .vmem => 28
  | .smem => 0
  | _ => 0

abbrev bufTy : (tb : Table) → Fin (tcTables nBuf tb) → BufTy
  | .hbm, ⟨0, _⟩ => ⟨S4000000, .f32⟩
  | .hbm, ⟨1, _⟩ => ⟨S4000000, .f32⟩
  | .hbm, ⟨2, _⟩ => ⟨S4000000, .f32⟩
  | .hbm, ⟨3, _⟩ => ⟨S8000000, .f32⟩
  | .hbm, ⟨4, _⟩ => ⟨S8000000, .f32⟩
  | .hbm, ⟨5, _⟩ => ⟨S8000000, .f32⟩
  | .hbm, ⟨6, _⟩ => ⟨S8000000, .f32⟩
  | .hbm, ⟨7, _⟩ => ⟨S8000000, .i32⟩
  | .hbm, ⟨8, _⟩ => ⟨S8000000, .i32⟩
  | .hbm, ⟨9, _⟩ => ⟨S31250x128, .f32⟩
  | .hbm, ⟨10, _⟩ => ⟨S31250x128, .f32⟩
  | .hbm, ⟨11, _⟩ => ⟨S31250x128, .f32⟩
  | .hbm, ⟨12, _⟩ => ⟨S4000000, .f32⟩
  | .hbm, ⟨13, _⟩ => ⟨S_, .i32⟩
  | .hbm, ⟨14, _⟩ => ⟨S8000000, .i32⟩
  | .hbm, ⟨15, _⟩ => ⟨S8000000, .i1⟩
  | .hbm, ⟨16, _⟩ => ⟨S_, .i32⟩
  | .hbm, ⟨17, _⟩ => ⟨S8000000, .i32⟩
  | .hbm, ⟨18, _⟩ => ⟨S8000000, .i32⟩
  | .hbm, ⟨19, _⟩ => ⟨S8000000, .i32⟩
  | .hbm, ⟨20, _⟩ => ⟨S8000000x1, .i32⟩
  | .hbm, ⟨21, _⟩ => ⟨S8000000, .f32⟩
  | .hbm, ⟨22, _⟩ => ⟨S_, .i32⟩
  | .hbm, ⟨23, _⟩ => ⟨S8000000, .i32⟩
  | .hbm, ⟨24, _⟩ => ⟨S8000000, .i1⟩
  | .hbm, ⟨25, _⟩ => ⟨S_, .i32⟩
  | .hbm, ⟨26, _⟩ => ⟨S8000000, .i32⟩
  | .hbm, ⟨27, _⟩ => ⟨S8000000, .i32⟩
  | .hbm, ⟨28, _⟩ => ⟨S8000000, .i32⟩
  | .hbm, ⟨29, _⟩ => ⟨S8000000x1, .i32⟩
  | .hbm, ⟨30, _⟩ => ⟨S8000000, .f32⟩
  | .hbm, ⟨31, _⟩ => ⟨S8000000, .f32⟩
  | .hbm, ⟨32, _⟩ => ⟨S_, .f32⟩
  | .hbm, ⟨33, _⟩ => ⟨S8000000, .f32⟩
  | .hbm, ⟨34, _⟩ => ⟨S8000000, .f32⟩
  | .hbm, ⟨35, _⟩ => ⟨S62500x128, .f32⟩
  | .hbm, ⟨36, _⟩ => ⟨S62500x128, .f32⟩
  | .hbm, ⟨37, _⟩ => ⟨S62500x128, .f32⟩
  | .hbm, ⟨38, _⟩ => ⟨S62500x128, .f32⟩
  | .hbm, ⟨39, _⟩ => ⟨S62500x128, .f32⟩
  | .hbm, ⟨40, _⟩ => ⟨S62500x128, .f32⟩
  | .hbm, ⟨41, _⟩ => ⟨S8000000, .f32⟩
  | .hbm, ⟨42, _⟩ => ⟨S_, .f32⟩
  | .hbm, ⟨43, _⟩ => ⟨S8000000, .f32⟩
  | .hbm, ⟨44, _⟩ => ⟨S8000000x1, .f32⟩
  | .hbm, ⟨45, _⟩ => ⟨S8000000x1, .f32⟩
  | .hbm, ⟨46, _⟩ => ⟨S8000000x1, .f32⟩
  | .hbm, ⟨47, _⟩ => ⟨S8000000x3, .f32⟩
  | .hbm, ⟨48, _⟩ => ⟨S8000000, .f32⟩
  | .hbm, ⟨49, _⟩ => ⟨S8000000x1, .f32⟩
  | .hbm, ⟨50, _⟩ => ⟨S8000000x1, .f32⟩
  | .hbm, ⟨51, _⟩ => ⟨S8000000x1, .f32⟩
  | .hbm, ⟨52, _⟩ => ⟨S8000000x3, .f32⟩
  | .hbm, ⟨53, _⟩ => ⟨S_, .f32⟩
  | .hbm, ⟨54, _⟩ => ⟨S4000000x3, .f32⟩
  | .hbm, ⟨55, _⟩ => ⟨S8000000x1, .i32⟩
  | .hbm, ⟨56, _⟩ => ⟨S4000000x3, .f32⟩
  | .hbm, ⟨57, _⟩ => ⟨S_, .f32⟩
  | .hbm, ⟨58, _⟩ => ⟨S4000000x3, .f32⟩
  | .hbm, ⟨59, _⟩ => ⟨S8000000x1, .i32⟩
  | .hbm, ⟨60, _⟩ => ⟨S4000000x3, .f32⟩
  | .hbm, ⟨61, _⟩ => ⟨S4000000x3, .f32⟩
  | .hbm, ⟨62, _⟩ => ⟨S4000000x1, .f32⟩
  | .hbm, ⟨63, _⟩ => ⟨S4000000, .f32⟩
  | .hbm, ⟨64, _⟩ => ⟨S4000000x1, .f32⟩
  | .hbm, ⟨65, _⟩ => ⟨S4000000, .f32⟩
  | .hbm, ⟨66, _⟩ => ⟨S4000000x1, .f32⟩
  | .hbm, ⟨67, _⟩ => ⟨S4000000, .f32⟩
  | .hbm, ⟨68, _⟩ => ⟨S31250x128, .f32⟩
  | .hbm, ⟨69, _⟩ => ⟨S31250x128, .f32⟩
  | .hbm, ⟨70, _⟩ => ⟨S31250x128, .f32⟩
  | .hbm, ⟨71, _⟩ => ⟨S31250x128, .f32⟩
  | .hbm, ⟨72, _⟩ => ⟨S31250x128, .f32⟩
  | .hbm, ⟨73, _⟩ => ⟨S4000000, .f32⟩
  | .local _ .vmem, ⟨0, _⟩ => ⟨S3128x128, .f32⟩
  | .local _ .vmem, ⟨1, _⟩ => ⟨S3128x128, .f32⟩
  | .local _ .vmem, ⟨2, _⟩ => ⟨S3128x128, .f32⟩
  | .local _ .vmem, ⟨3, _⟩ => ⟨S3128x128, .f32⟩
  | .local _ .vmem, ⟨4, _⟩ => ⟨S3128x128, .f32⟩
  | .local _ .vmem, ⟨5, _⟩ => ⟨S3128x128, .f32⟩
  | .local _ .vmem, ⟨6, _⟩ => ⟨S3128x128, .f32⟩
  | .local _ .vmem, ⟨7, _⟩ => ⟨S3128x128, .f32⟩
  | .local _ .vmem, ⟨8, _⟩ => ⟨S3128x128, .f32⟩
  | .local _ .vmem, ⟨9, _⟩ => ⟨S3128x128, .f32⟩
  | .local _ .vmem, ⟨10, _⟩ => ⟨S3128x128, .f32⟩
  | .local _ .vmem, ⟨11, _⟩ => ⟨S3128x128, .f32⟩
  | .local _ .vmem, ⟨12, _⟩ => ⟨S3128x128, .f32⟩
  | .local _ .vmem, ⟨13, _⟩ => ⟨S3128x128, .f32⟩
  | .local _ .vmem, ⟨14, _⟩ => ⟨S3128x128, .f32⟩
  | .local _ .vmem, ⟨15, _⟩ => ⟨S3128x128, .f32⟩
  | .local _ .vmem, ⟨16, _⟩ => ⟨S3128x128, .f32⟩
  | .local _ .vmem, ⟨17, _⟩ => ⟨S3128x128, .f32⟩
  | .local _ .vmem, ⟨18, _⟩ => ⟨S3128x128, .f32⟩
  | .local _ .vmem, ⟨19, _⟩ => ⟨S3128x128, .f32⟩
  | .local _ .vmem, ⟨20, _⟩ => ⟨S3128x128, .f32⟩
  | .local _ .vmem, ⟨21, _⟩ => ⟨S3128x128, .f32⟩
  | .local _ .vmem, ⟨22, _⟩ => ⟨S3128x128, .f32⟩
  | .local _ .vmem, ⟨23, _⟩ => ⟨S3128x128, .f32⟩
  | .local _ .vmem, ⟨24, _⟩ => ⟨S3128x128, .f32⟩
  | .local _ .vmem, ⟨25, _⟩ => ⟨S3128x128, .f32⟩
  | .local _ .vmem, ⟨26, _⟩ => ⟨S3128x128, .f32⟩
  | .local _ .vmem, ⟨27, _⟩ => ⟨S3128x128, .f32⟩
  | _, _ => ⟨S4000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3128x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S3128x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S4000000_S31250x128 : S4000000.ShapeCasts S31250x128
  inb_S3128x128_S3128x128_0_0 : ∀ a, (![0, 0] : Fin 2 → Nat) a + S3128x128.size a ≤ S3128x128.size a
  h_S3128x128 : 0 < S3128x128.numel
  shapeCasts_S3128x128_S3128x128 : S3128x128.ShapeCasts S3128x128
  shapeCasts_S31250x128_S4000000 : S31250x128.ShapeCasts S4000000
  bcast_S_S8000000 : S_.BroadcastsInDim S8000000 (![] : Fin 0 → Fin S8000000.rank)
  bcast_S8000000_S8000000x1_0 : S8000000.BroadcastsInDim S8000000x1 (![0] : Fin 1 → Fin S8000000x1.rank)
  shapeCasts_S8000000_S62500x128 : S8000000.ShapeCasts S62500x128
  shapeCasts_S62500x128_S8000000 : S62500x128.ShapeCasts S8000000
  concatenates_S8000000x1_S8000000x1_S8000000x1_S8000000x3_d1 : Shape.Concatenates [S8000000x1, S8000000x1, S8000000x1] S8000000x3 1
  bcast_S_S4000000x3 : S_.BroadcastsInDim S4000000x3 (![] : Fin 0 → Fin S4000000x3.rank)
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  gather_S4000000_S8000000x1_S8000000_n_0_n_n_0_1_1_wf : GatherDims.WF S4000000 S8000000x1 S8000000 [] [0] [] [0] [] 1 ![1]
  scatter_S4000000x3_S8000000x1_S8000000x3_1_0_0_1_wf : ScatterDims.WF S4000000x3 S8000000x1 S8000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3128x128.size a < S31250x128.size a
  hwx0_0 : ∀ i : grid0.Coords, EltTy.bits .f32 = 32 ∨ (Rect.unit (s := S31250x128) (fun a => cc0_transform_0 i a * S3128x128.size a) (fun a => (Pipeline.Clip.of (cc0_transform_0 i a) (S3128x128.size a) (S31250x128.size a)).extent (S3128x128.size a)) fun a => Pipeline.Clip.inb (Pipeline.Clip.ok_of (hstart0_0 i a))).WholeWords (EltTy.packing .f32)
  hwxs0_0 : ∀ i : grid0.Coords, EltTy.bits .f32 = 32 ∨ (Rect.unit (s := S3128x128) (fun _ => 0) (fun a => (Pipeline.Clip.of (cc0_transform_0 i a) (S3128x128.size a) (S31250x128.size a)).extent (S3128x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3128x128.size a < S31250x128.size a
  hwx0_1 : ∀ i : grid0.Coords, EltTy.bits .f32 = 32 ∨ (Rect.unit (s := S31250x128) (fun a => cc0_transform_1 i a * S3128x128.size a) (fun a => (Pipeline.Clip.of (cc0_transform_1 i a) (S3128x128.size a) (S31250x128.size a)).extent (S3128x128.size a)) fun a => Pipeline.Clip.inb (Pipeline.Clip.ok_of (hstart0_1 i a))).WholeWords (EltTy.packing .f32)
  hwxs0_1 : ∀ i : grid0.Coords, EltTy.bits .f32 = 32 ∨ (Rect.unit (s := S3128x128) (fun _ => 0) (fun a => (Pipeline.Clip.of (cc0_transform_1 i a) (S3128x128.size a) (S31250x128.size a)).extent (S3128x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S3128x128.size a < S31250x128.size a
  hwx0_2 : ∀ i : grid0.Coords, EltTy.bits .f32 = 32 ∨ (Rect.unit (s := S31250x128) (fun a => cc0_transform_2 i a * S3128x128.size a) (fun a => (Pipeline.Clip.of (cc0_transform_2 i a) (S3128x128.size a) (S31250x128.size a)).extent (S3128x128.size a)) fun a => Pipeline.Clip.inb (Pipeline.Clip.ok_of (hstart0_2 i a))).WholeWords (EltTy.packing .f32)
  hwxs0_2 : ∀ i : grid0.Coords, EltTy.bits .f32 = 32 ∨ (Rect.unit (s := S3128x128) (fun _ => 0) (fun a => (Pipeline.Clip.of (cc0_transform_2 i a) (S3128x128.size a) (S31250x128.size a)).extent (S3128x128.size a)) fun a => (Nat.zero_add _).trans_le (Pipeline.Clip.extent_le (Pipeline.Clip.ok_of (hstart0_2 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S3128x128.size a < S62500x128.size a
  hwx1_0 : ∀ i : grid1.Coords, EltTy.bits .f32 = 32 ∨ (Rect.unit (s := S62500x128) (fun a => cc1_transform_0 i a * S3128x128.size a) (fun a => (Pipeline.Clip.of (cc1_transform_0 i a) (S3128x128.size a) (S62500x128.size a)).extent (S3128x128.size a)) fun a => Pipeline.Clip.inb (Pipeline.Clip.ok_of (hstart1_0 i a))).WholeWords (EltTy.packing .f32)
  hwxs1_0 : ∀ i : grid1.Coords, EltTy.bits .f32 = 32 ∨ (Rect.unit (s := S3128x128) (fun _ => 0) (fun a => (Pipeline.Clip.of (cc1_transform_0 i a) (S3128x128.size a) (S62500x128.size a)).extent (S3128x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S3128x128.size a < S62500x128.size a
  hwx1_1 : ∀ i : grid1.Coords, EltTy.bits .f32 = 32 ∨ (Rect.unit (s := S62500x128) (fun a => cc1_transform_1 i a * S3128x128.size a) (fun a => (Pipeline.Clip.of (cc1_transform_1 i a) (S3128x128.size a) (S62500x128.size a)).extent (S3128x128.size a)) fun a => Pipeline.Clip.inb (Pipeline.Clip.ok_of (hstart1_1 i a))).WholeWords (EltTy.packing .f32)
  hwxs1_1 : ∀ i : grid1.Coords, EltTy.bits .f32 = 32 ∨ (Rect.unit (s := S3128x128) (fun _ => 0) (fun a => (Pipeline.Clip.of (cc1_transform_1 i a) (S3128x128.size a) (S62500x128.size a)).extent (S3128x128.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S3128x128.size a < S62500x128.size a
  hwx1_2 : ∀ i : grid1.Coords, EltTy.bits .f32 = 32 ∨ (Rect.unit (s := S62500x128) (fun a => cc1_transform_2 i a * S3128x128.size a) (fun a => (Pipeline.Clip.of (cc1_transform_2 i a) (S3128x128.size a) (S62500x128.size a)).extent (S3128x128.size a)) fun a => Pipeline.Clip.inb (Pipeline.Clip.ok_of (hstart1_2 i a))).WholeWords (EltTy.packing .f32)
  hwxs1_2 : ∀ i : grid1.Coords, EltTy.bits .f32 = 32 ∨ (Rect.unit (s := S3128x128) (fun _ => 0) (fun a => (Pipeline.Clip.of (cc1_transform_2 i a) (S3128x128.size a) (S62500x128.size a)).extent (S3128x128.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S3128x128.size a < S62500x128.size a
  hwx1_3 : ∀ i : grid1.Coords, EltTy.bits .f32 = 32 ∨ (Rect.unit (s := S62500x128) (fun a => cc1_transform_3 i a * S3128x128.size a) (fun a => (Pipeline.Clip.of (cc1_transform_3 i a) (S3128x128.size a) (S62500x128.size a)).extent (S3128x128.size a)) fun a => Pipeline.Clip.inb (Pipeline.Clip.ok_of (hstart1_3 i a))).WholeWords (EltTy.packing .f32)
  hwxs1_3 : ∀ i : grid1.Coords, EltTy.bits .f32 = 32 ∨ (Rect.unit (s := S3128x128) (fun _ => 0) (fun a => (Pipeline.Clip.of (cc1_transform_3 i a) (S3128x128.size a) (S62500x128.size a)).extent (S3128x128.size a)) fun a => (Nat.zero_add _).trans_le (Pipeline.Clip.extent_le (Pipeline.Clip.ok_of (hstart1_3 i a)))).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hstart1_4 : ∀ (i : grid1.Coords) a, cc1_transform_4 i a * S3128x128.size a < S62500x128.size a
  hwx1_4 : ∀ i : grid1.Coords, EltTy.bits .f32 = 32 ∨ (Rect.unit (s := S62500x128) (fun a => cc1_transform_4 i a * S3128x128.size a) (fun a => (Pipeline.Clip.of (cc1_transform_4 i a) (S3128x128.size a) (S62500x128.size a)).extent (S3128x128.size a)) fun a => Pipeline.Clip.inb (Pipeline.Clip.ok_of (hstart1_4 i a))).WholeWords (EltTy.packing .f32)
  hwxs1_4 : ∀ i : grid1.Coords, EltTy.bits .f32 = 32 ∨ (Rect.unit (s := S3128x128) (fun _ => 0) (fun a => (Pipeline.Clip.of (cc1_transform_4 i a) (S3128x128.size a) (S62500x128.size a)).extent (S3128x128.size a)) fun a => (Nat.zero_add _).trans_le (Pipeline.Clip.extent_le (Pipeline.Clip.ok_of (hstart1_4 i a)))).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hstart1_5 : ∀ (i : grid1.Coords) a, cc1_transform_5 i a * S3128x128.size a < S62500x128.size a
  hwx1_5 : ∀ i : grid1.Coords, EltTy.bits .f32 = 32 ∨ (Rect.unit (s := S62500x128) (fun a => cc1_transform_5 i a * S3128x128.size a) (fun a => (Pipeline.Clip.of (cc1_transform_5 i a) (S3128x128.size a) (S62500x128.size a)).extent (S3128x128.size a)) fun a => Pipeline.Clip.inb (Pipeline.Clip.ok_of (hstart1_5 i a))).WholeWords (EltTy.packing .f32)
  hwxs1_5 : ∀ i : grid1.Coords, EltTy.bits .f32 = 32 ∨ (Rect.unit (s := S3128x128) (fun _ => 0) (fun a => (Pipeline.Clip.of (cc1_transform_5 i a) (S3128x128.size a) (S62500x128.size a)).extent (S3128x128.size a)) fun a => (Nat.zero_add _).trans_le (Pipeline.Clip.extent_le (Pipeline.Clip.ok_of (hstart1_5 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S3128x128.size a < S31250x128.size a
  hwx2_0 : ∀ i : grid2.Coords, EltTy.bits .f32 = 32 ∨ (Rect.unit (s := S31250x128) (fun a => cc2_transform_0 i a * S3128x128.size a) (fun a => (Pipeline.Clip.of (cc2_transform_0 i a) (S3128x128.size a) (S31250x128.size a)).extent (S3128x128.size a)) fun a => Pipeline.Clip.inb (Pipeline.Clip.ok_of (hstart2_0 i a))).WholeWords (EltTy.packing .f32)
  hwxs2_0 : ∀ i : grid2.Coords, EltTy.bits .f32 = 32 ∨ (Rect.unit (s := S3128x128) (fun _ => 0) (fun a => (Pipeline.Clip.of (cc2_transform_0 i a) (S3128x128.size a) (S31250x128.size a)).extent (S3128x128.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S3128x128.size a < S31250x128.size a
  hwx2_1 : ∀ i : grid2.Coords, EltTy.bits .f32 = 32 ∨ (Rect.unit (s := S31250x128) (fun a => cc2_transform_1 i a * S3128x128.size a) (fun a => (Pipeline.Clip.of (cc2_transform_1 i a) (S3128x128.size a) (S31250x128.size a)).extent (S3128x128.size a)) fun a => Pipeline.Clip.inb (Pipeline.Clip.ok_of (hstart2_1 i a))).WholeWords (EltTy.packing .f32)
  hwxs2_1 : ∀ i : grid2.Coords, EltTy.bits .f32 = 32 ∨ (Rect.unit (s := S3128x128) (fun _ => 0) (fun a => (Pipeline.Clip.of (cc2_transform_1 i a) (S3128x128.size a) (S31250x128.size a)).extent (S3128x128.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hstart2_2 : ∀ (i : grid2.Coords) a, cc2_transform_2 i a * S3128x128.size a < S31250x128.size a
  hwx2_2 : ∀ i : grid2.Coords, EltTy.bits .f32 = 32 ∨ (Rect.unit (s := S31250x128) (fun a => cc2_transform_2 i a * S3128x128.size a) (fun a => (Pipeline.Clip.of (cc2_transform_2 i a) (S3128x128.size a) (S31250x128.size a)).extent (S3128x128.size a)) fun a => Pipeline.Clip.inb (Pipeline.Clip.ok_of (hstart2_2 i a))).WholeWords (EltTy.packing .f32)
  hwxs2_2 : ∀ i : grid2.Coords, EltTy.bits .f32 = 32 ∨ (Rect.unit (s := S3128x128) (fun _ => 0) (fun a => (Pipeline.Clip.of (cc2_transform_2 i a) (S3128x128.size a) (S31250x128.size a)).extent (S3128x128.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hstart2_3 : ∀ (i : grid2.Coords) a, cc2_transform_3 i a * S3128x128.size a < S31250x128.size a
  hwx2_3 : ∀ i : grid2.Coords, EltTy.bits .f32 = 32 ∨ (Rect.unit (s := S31250x128) (fun a => cc2_transform_3 i a * S3128x128.size a) (fun a => (Pipeline.Clip.of (cc2_transform_3 i a) (S3128x128.size a) (S31250x128.size a)).extent (S3128x128.size a)) fun a => Pipeline.Clip.inb (Pipeline.Clip.ok_of (hstart2_3 i a))).WholeWords (EltTy.packing .f32)
  hwxs2_3 : ∀ i : grid2.Coords, EltTy.bits .f32 = 32 ∨ (Rect.unit (s := S3128x128) (fun _ => 0) (fun a => (Pipeline.Clip.of (cc2_transform_3 i a) (S3128x128.size a) (S31250x128.size a)).extent (S3128x128.size a)) fun a => (Nat.zero_add _).trans_le (Pipeline.Clip.extent_le (Pipeline.Clip.ok_of (hstart2_3 i a)))).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hstart2_4 : ∀ (i : grid2.Coords) a, cc2_transform_4 i a * S3128x128.size a < S31250x128.size a
  hwx2_4 : ∀ i : grid2.Coords, EltTy.bits .f32 = 32 ∨ (Rect.unit (s := S31250x128) (fun a => cc2_transform_4 i a * S3128x128.size a) (fun a => (Pipeline.Clip.of (cc2_transform_4 i a) (S3128x128.size a) (S31250x128.size a)).extent (S3128x128.size a)) fun a => Pipeline.Clip.inb (Pipeline.Clip.ok_of (hstart2_4 i a))).WholeWords (EltTy.packing .f32)
  hwxs2_4 : ∀ i : grid2.Coords, EltTy.bits .f32 = 32 ∨ (Rect.unit (s := S3128x128) (fun _ => 0) (fun a => (Pipeline.Clip.of (cc2_transform_4 i a) (S3128x128.size a) (S31250x128.size a)).extent (S3128x128.size a)) fun a => (Nat.zero_add _).trans_le (Pipeline.Clip.extent_le (Pipeline.Clip.ok_of (hstart2_4 i a)))).WholeWords (EltTy.packing .f32)

variable [Facts₀]

def gather_S4000000_S8000000x1_S8000000_n_0_n_n_0_1_1 : GatherDims S4000000 S8000000x1 S8000000 where
  offsetDims := []
  collapsedSliceDims := [0]
  operandBatchingDims := []
  startIndicesBatchingDims := []
  startIndexMap := [0]
  indexVectorDim := 1
  sliceSizes := ![1]
  wf := gather_S4000000_S8000000x1_S8000000_n_0_n_n_0_1_1_wf
def scatter_S4000000x3_S8000000x1_S8000000x3_1_0_0_1 : ScatterDims S4000000x3 S8000000x1 S8000000x3 where
  updateWindowDims := [1]
  insertedWindowDims := [0]
  scatterDimsToOperandDims := [0]
  indexVectorDim := 1
  wf := scatter_S4000000x3_S8000000x1_S8000000x3_1_0_0_1_wf

abbrev win0_0 : Pipeline.Window sig grid0 :=
  Pipeline.Window.ofSpecClip (Memref.whole main_v0) S3128x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S3128x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S3128x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpecClip (Memref.whole main_v21) S3128x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v22) S3128x128.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v23) S3128x128.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v24) S3128x128.size cc1_transform_3 reads1_3 false false 2 stage1_3 sem1_3
    hrank1 hreads1_3 hstart1_3 nbuf1_3 (Memref.isWhole_whole _) hwx1_3 hwxs1_3 hstage1_3

abbrev win1_4 : Pipeline.Window sig grid1 :=
  Pipeline.Window.ofSpecClip (Memref.whole main_v25) S3128x128.size cc1_transform_4 reads1_4 false false 2 stage1_4 sem1_4
    hrank1 hreads1_4 hstart1_4 nbuf1_4 (Memref.isWhole_whole _) hwx1_4 hwxs1_4 hstage1_4

abbrev win1_5 : Pipeline.Window sig grid1 :=
  Pipeline.Window.ofSpecClip (Memref.whole main_v26) S3128x128.size cc1_transform_5 reads1_5 true false 2 stage1_5 sem1_5
    hrank1 hreads1_5 hstart1_5 nbuf1_5 (Memref.isWhole_whole _) hwx1_5 hwxs1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpecClip (Memref.whole main_v51) S3128x128.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v52) S3128x128.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v53) S3128x128.size cc2_transform_2 reads2_2 false false 2 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v54) S3128x128.size cc2_transform_3 reads2_3 false false 2 stage2_3 sem2_3
    hrank2 hreads2_3 hstart2_3 nbuf2_3 (Memref.isWhole_whole _) hwx2_3 hwxs2_3 hstage2_3

abbrev win2_4 : Pipeline.Window sig grid2 :=
  Pipeline.Window.ofSpecClip (Memref.whole main_v55) S3128x128.size cc2_transform_4 reads2_4 true false 2 stage2_4 sem2_4
    hrank2 hreads2_4 hstart2_4 nbuf2_4 (Memref.isWhole_whole _) hwx2_4 hwxs2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4000000 : Shape := ⟨1, ![4000000]⟩
abbrev S8000000 : Shape := ⟨1, ![8000000]⟩
abbrev S_ : Shape := ⟨0, ![]⟩
abbrev S8000000x1 : Shape := ⟨2, ![8000000, 1]⟩

abbrev nBuf : Space → Nat
  | .hbm => 85
  | .vmem => 0
  | .smem => 0
  | _ => 0

abbrev bufTy : (tb : Table) → Fin (tcTables nBuf tb) → BufTy
  | .hbm, ⟨0, _⟩ => ⟨S4000000, .f32⟩
  | .hbm, ⟨1, _⟩ => ⟨S4000000, .f32⟩
  | .hbm, ⟨2, _⟩ => ⟨S4000000, .f32⟩
  | .hbm, ⟨3, _⟩ => ⟨S8000000, .f32⟩
  | .hbm, ⟨4, _⟩ => ⟨S8000000, .f32⟩
  | .hbm, ⟨5, _⟩ => ⟨S8000000, .f32⟩
  | .hbm, ⟨6, _⟩ => ⟨S8000000, .f32⟩
  | .hbm, ⟨7, _⟩ => ⟨S8000000, .i32⟩
  | .hbm, ⟨8, _⟩ => ⟨S8000000, .i32⟩
  | .hbm, ⟨9, _⟩ => ⟨S_, .f32⟩
  | .hbm, ⟨10, _⟩ => ⟨S4000000, .f32⟩
  | .hbm, ⟨11, _⟩ => ⟨S4000000, .f32⟩
  | .hbm, ⟨12, _⟩ => ⟨S4000000, .f32⟩
  | .hbm, ⟨13, _⟩ => ⟨S_, .i32⟩
  | .hbm, ⟨14, _⟩ => ⟨S8000000, .i32⟩
  | .hbm, ⟨15, _⟩ => ⟨S8000000, .i1⟩
  | .hbm, ⟨16, _⟩ => ⟨S_, .i32⟩
  | .hbm, ⟨17, _⟩ => ⟨S8000000, .i32⟩
  | .hbm, ⟨18, _⟩ => ⟨S8000000, .i32⟩
  | .hbm, ⟨19, _⟩ => ⟨S8000000, .i32⟩
  | .hbm, ⟨20, _⟩ => ⟨S8000000x1, .i32⟩
  | .hbm, ⟨21, _⟩ => ⟨S8000000, .f32⟩
  | .hbm, ⟨22, _⟩ => ⟨S_, .i32⟩
  | .hbm, ⟨23, _⟩ => ⟨S8000000, .i32⟩
  | .hbm, ⟨24, _⟩ => ⟨S8000000, .i1⟩
  | .hbm, ⟨25, _⟩ => ⟨S_, .i32⟩
  | .hbm, ⟨26, _⟩ => ⟨S8000000, .i32⟩
  | .hbm, ⟨27, _⟩ => ⟨S8000000, .i32⟩
  | .hbm, ⟨28, _⟩ => ⟨S8000000, .i32⟩
  | .hbm, ⟨29, _⟩ => ⟨S8000000x1, .i32⟩
  | .hbm, ⟨30, _⟩ => ⟨S8000000, .f32⟩
  | .hbm, ⟨31, _⟩ => ⟨S8000000, .f32⟩
  | .hbm, ⟨32, _⟩ => ⟨S_, .f32⟩
  | .hbm, ⟨33, _⟩ => ⟨S8000000, .f32⟩
  | .hbm, ⟨34, _⟩ => ⟨S8000000, .f32⟩
  | .hbm, ⟨35, _⟩ => ⟨S_, .f32⟩
  | .hbm, ⟨36, _⟩ => ⟨S8000000, .f32⟩
  | .hbm, ⟨37, _⟩ => ⟨S8000000, .f32⟩
  | .hbm, ⟨38, _⟩ => ⟨S8000000, .f32⟩
  | .hbm, ⟨39, _⟩ => ⟨S_, .f32⟩
  | .hbm, ⟨40, _⟩ => ⟨S8000000, .f32⟩
  | .hbm, ⟨41, _⟩ => ⟨S8000000, .f32⟩
  | .hbm, ⟨42, _⟩ => ⟨S8000000, .f32⟩
  | .hbm, ⟨43, _⟩ => ⟨S8000000, .f32⟩
  | .hbm, ⟨44, _⟩ => ⟨S_, .f32⟩
  | .hbm, ⟨45, _⟩ => ⟨S8000000, .f32⟩
  | .hbm, ⟨46, _⟩ => ⟨S8000000, .f32⟩
  | .hbm, ⟨47, _⟩ => ⟨S8000000, .f32⟩
  | .hbm, ⟨48, _⟩ => ⟨S8000000, .f32⟩
  | .hbm, ⟨49, _⟩ => ⟨S8000000, .f32⟩
  | .hbm, ⟨50, _⟩ => ⟨S_, .f32⟩
  | .hbm, ⟨51, _⟩ => ⟨S4000000, .f32⟩
  | .hbm, ⟨52, _⟩ => ⟨S8000000x1, .i32⟩
  | .hbm, ⟨53, _⟩ => ⟨S4000000, .f32⟩
  | .hbm, ⟨54, _⟩ => ⟨S_, .f32⟩
  | .hbm, ⟨55, _⟩ => ⟨S4000000, .f32⟩
  | .hbm, ⟨56, _⟩ => ⟨S8000000x1, .i32⟩
  | .hbm, ⟨57, _⟩ => ⟨S4000000, .f32⟩
  | .hbm, ⟨58, _⟩ => ⟨S4000000, .f32⟩
  | .hbm, ⟨59, _⟩ => ⟨S_, .f32⟩
  | .hbm, ⟨60, _⟩ => ⟨S8000000, .f32⟩
  | .hbm, ⟨61, _⟩ => ⟨S_, .f32⟩
  | .hbm, ⟨62, _⟩ => ⟨S4000000, .f32⟩
  | .hbm, ⟨63, _⟩ => ⟨S8000000x1, .i32⟩
  | .hbm, ⟨64, _⟩ => ⟨S4000000, .f32⟩
  | .hbm, ⟨65, _⟩ => ⟨S_, .f32⟩
  | .hbm, ⟨66, _⟩ => ⟨S4000000, .f32⟩
  | .hbm, ⟨67, _⟩ => ⟨S8000000x1, .i32⟩
  | .hbm, ⟨68, _⟩ => ⟨S4000000, .f32⟩
  | .hbm, ⟨69, _⟩ => ⟨S4000000, .f32⟩
  | .hbm, ⟨70, _⟩ => ⟨S_, .f32⟩
  | .hbm, ⟨71, _⟩ => ⟨S4000000, .f32⟩
  | .hbm, ⟨72, _⟩ => ⟨S4000000, .f32⟩
  | .hbm, ⟨73, _⟩ => ⟨S4000000, .f32⟩
  | .hbm, ⟨74, _⟩ => ⟨S_, .f32⟩
  | .hbm, ⟨75, _⟩ => ⟨S4000000, .f32⟩
  | .hbm, ⟨76, _⟩ => ⟨S8000000x1, .i32⟩
  | .hbm, ⟨77, _⟩ => ⟨S4000000, .f32⟩
  | .hbm, ⟨78, _⟩ => ⟨S_, .f32⟩
  | .hbm, ⟨79, _⟩ => ⟨S4000000, .f32⟩
  | .hbm, ⟨80, _⟩ => ⟨S8000000x1, .i32⟩
  | .hbm, ⟨81, _⟩ => ⟨S4000000, .f32⟩
  | .hbm, ⟨82, _⟩ => ⟨S4000000, .f32⟩
  | .hbm, ⟨83, _⟩ => ⟨S4000000, .f32⟩
  | .hbm, ⟨84, _⟩ => ⟨S4000000, .f32⟩
  | _, _ => ⟨S4000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_14 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S_S8000000 : S_.BroadcastsInDim S8000000 (![] : Fin 0 → Fin S8000000.rank)
  bcast_S8000000_S8000000x1_0 : S8000000.BroadcastsInDim S8000000x1 (![0] : Fin 1 → Fin S8000000x1.rank)
  gather_S4000000_S8000000x1_S8000000_n_0_n_n_0_1_1_wf : GatherDims.WF S4000000 S8000000x1 S8000000 [] [0] [] [0] [] 1 ![1]
  scatter_S4000000_S8000000x1_S8000000_n_0_0_1_wf : ScatterDims.WF S4000000 S8000000x1 S8000000 [] [0] [0] 1

variable [Facts₀]

def gather_S4000000_S8000000x1_S8000000_n_0_n_n_0_1_1 : GatherDims S4000000 S8000000x1 S8000000 where
  offsetDims := []
  collapsedSliceDims := [0]
  operandBatchingDims := []
  startIndicesBatchingDims := []
  startIndexMap := [0]
  indexVectorDim := 1
  sliceSizes := ![1]
  wf := gather_S4000000_S8000000x1_S8000000_n_0_n_n_0_1_1_wf
def scatter_S4000000_S8000000x1_S8000000_n_0_0_1 : ScatterDims S4000000 S8000000x1 S8000000 where
  updateWindowDims := []
  insertedWindowDims := [0]
  scatterDimsToOperandDims := [0]
  indexVectorDim := 1
  wf := scatter_S4000000_S8000000x1_S8000000_n_0_0_1_wf

class Facts : Prop extends Facts₀ where

variable [Facts]
-- ==== Proof.Pointwise.lean ====
/-
  The three elementwise laws of the conduit network, over arrays of any one shape.

  * the overburden pressure at a node: a constant times the ice thickness, minus the water pressure;
  * the right-hand side of the conduit evolution at a link: melt opening (a constant times the water flux times the
    hydraulic gradient) plus gap opening (the sliding velocity times the step height) minus creep closure (a constant
    times the cube of the effective pressure times the conduit area);
  * the node balance: the summed link terms divided by the number of links at the node (at least one), plus the net
    flux, minus the meltwater input.

  Each is built from the lane-wise float operations only, so it commutes with any re-indexing of its arguments: a block
  of the result is the same law of the blocks, and a reshaped result the same law of the reshaped arguments.
-/
import Idealize.ShloMosaic.PureOps.Ideal

noncomputable section

namespace Cert.Conduit

open Idealize.ShloMosaic

variable {F : FTy → Type} [FloatOps F]

/-- Overburden pressure: `c · h − p`, lane by lane. -/
def overburden (s : Shape) (h p : FVec F s .f32) : FVec F s .f32 :=
  subf (mulf (broadcast s (Scalar.ofBits .f32 0x460C8F14#32)) h) p

/-- The link right-hand side: `(c₁ · q) · g + v · c₂ − (c₃ · ((e · e) · e)) · a`, lane by lane, for effective pressure `e`,
    water flux `q`, hydraulic gradient `g`, sliding velocity `v` and conduit area `a`. -/
def linkRhs (s : Shape) (e q g v a : FVec F s .f32) : FVec F s .f32 :=
  subf (addf (mulf (mulf (broadcast s (Scalar.ofBits .f32 0x315FB32A#32)) q) g)
      (mulf v (broadcast s (Scalar.ofBits .f32 0x3DCCCCCD#32))))
    (mulf (mulf (broadcast s (Scalar.ofBits .f32 0x17098C84#32)) (mulf (mulf e e) e)) a)

/-- The node balance: `l / max(n, 1) + f − w`, lane by lane, for the link sum `l`, the link count `n`, the net flux `f`
    and the meltwater input `w`. -/
def combine (s : Shape) (l n f w : FVec F s .f32) : FVec F s .f32 :=
  subf (addf (divf l (maximumf n (broadcast s (Scalar.ofBits .f32 0x3F800000#32)))) f) w

end Cert.Conduit

end
-- ==== Proof.Kernel.Body.lean ====
/-
  The three kernel bodies, each run once on whole staging buffers.

  Every body loads its input buffers whole, applies one lane-wise law and stores the result whole into its output
  buffer (which it also loads first, a value nothing reads). So on input buffers holding `x₀, x₁, …` and an output
  buffer holding anything, the body terminates leaving the inputs as they were and the output buffer holding the law
  of the inputs: the overburden pressure, the link right-hand side, the node balance (Pointwise.lean), at the
  block's shape.
-/
import proofs.«175139_j15341623181950_2_alg».proof.Proof.Kernel.LaunchP
import proofs.«175139_j15341623181950_2_alg».proof.Proof.Gen.Kernel.Skeleton
import proofs.«175139_j15341623181950_2_alg».proof.Proof.Gen.Kernel.Points
import proofs.«175139_j15341623181950_2_alg».proof.Proof.Pointwise
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen Cert.Kernel.GenP Cert.Conduit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one rectangle every access of the three bodies goes through: the whole block. -/
abbrev rAll : Rect S3128x128 := Rect.unit (s := S3128x128) ![0, 0] S3128x128.size inb_S3128x128_S3128x128_0_0

theorem off_zero : (![0, 0] : Fin S3128x128.rank → Nat) = fun _ => 0 := funext fun a => by fin_cases a <;> rfl

/-- A whole-block store covers the block. -/
theorem cover_all (p0 : Vec F S3128x128 .f32) (y : S3128x128.Idx) :
    ∃ pc ∈ ([⟨rAll, p0⟩] : List (View.Piece (Elt F) S3128x128 .f32)), y ∈ pc.1.set :=
  View.cover_of_tiled [⟨rAll, p0⟩] S3128x128.size (by rfl) y

/-! ## The stored values are the lane-wise laws of the loaded blocks -/

theorem pay0_eq (x0 x1 : Vec F S3128x128 .f32) : k0_pay1 x0 x1 = overburden S3128x128 x0 x1 := by
  unfold k0_pay1 overburden
  simp only [shapeCast_self]

theorem pay1_eq (q g v e a : Vec F S3128x128 .f32) : k1_pay1 q g v e a = linkRhs S3128x128 e q g v a := by
  unfold k1_pay1 linkRhs
  simp only [shapeCast_self]

theorem pay2_eq (n l f w : Vec F S3128x128 .f32) : k2_pay1 n l f w = combine S3128x128 l n f w := by
  unfold k2_pay1 combine
  simp only [shapeCast_self]

/-! ## The overburden body -/

set_option maxHeartbeats 1000000 in
/-- The overburden body on whole buffers: thickness block `x0`, pressure block `x1`, the result buffer at anything. -/
theorem sound_overburden (c : Dev nD) (E : Set ℕ) (i : grid0.Coords)
    (arg1 : Memref sig .tc .vmem S3128x128 .f32) (harg1 : arg1.IsWhole) (arg2 : Memref sig .tc .vmem S3128x128 .f32) (harg2 : arg2.IsWhole)
    (arg3 : Memref sig .tc .vmem S3128x128 .f32) (harg3 : arg3.IsWhole)
    (x0 x1 : Vec F S3128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (overburden S3128x128 x0 x1)) -∗ K ⟨⟩))
      ⊢ wp frame (wpE (defs₀ (F := F)) Variants.none c none) E (cc0__overburden_kernel i arg1 harg1 arg2 harg2 arg3 harg3) K := by
  simp only [cc0__overburden_kernel_eq_skeleton]; unfold cc0__overburden_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover_all _)).trans ?_
  rw [View.canon_unit_zero off_zero, pay0_eq]
  show overburden S3128x128 (View.ld (View.read (Elt F) arg1.view f0) rAll) (View.ld (View.read (Elt F) arg2.view f1) rAll) = _
  rw [View.ld_unit_zero off_zero, View.ld_unit_zero off_zero]

/-! ## The link right-hand-side body -/

set_option maxHeartbeats 2000000 in
/-- The link body on whole buffers: effective pressure `x0`, water flux `x1`, hydraulic gradient `x2`, sliding velocity
    `x3`, conduit area `x4`, the result buffer at anything. -/
theorem sound_linkRhs (c : Dev nD) (E : Set ℕ) (i : grid1.Coords)
    (arg1 : Memref sig .tc .vmem S3128x128 .f32) (harg1 : arg1.IsWhole) (arg2 : Memref sig .tc .vmem S3128x128 .f32) (harg2 : arg2.IsWhole)
    (arg3 : Memref sig .tc .vmem S3128x128 .f32) (harg3 : arg3.IsWhole) (arg4 : Memref sig .tc .vmem S3128x128 .f32) (harg4 : arg4.IsWhole)
    (arg5 : Memref sig .tc .vmem S3128x128 .f32) (harg5 : arg5.IsWhole) (arg6 : Memref sig .tc .vmem S3128x128 .f32) (harg6 : arg6.IsWhole)
    (x0 x1 x2 x3 x4 : Vec F S3128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (linkRhs S3128x128 x0 x1 x2 x3 x4)) -∗ K ⟨⟩))
      ⊢ wp frame (wpE (defs₀ (F := F)) Variants.none c none) E
          (cc1__link_rhs_kernel i arg1 harg1 arg2 harg2 arg3 harg3 arg4 harg4 arg5 harg5 arg6 harg6) K := by
  simp only [cc1__link_rhs_kernel_eq_skeleton]; unfold cc1__link_rhs_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover_all _)).trans ?_
  rw [View.canon_unit_zero off_zero, pay1_eq]
  show linkRhs S3128x128 (View.ld (View.read (Elt F) arg1.view f0) rAll) (View.ld (View.read (Elt F) arg2.view f1) rAll)
    (View.ld (View.read (Elt F) arg3.view f2) rAll) (View.ld (View.read (Elt F) arg4.view f3) rAll)
    (View.ld (View.read (Elt F) arg5.view f4) rAll) = _
  simp only [View.ld_unit_zero (S := S3128x128) off_zero]

/-! ## The node-balance body -/

set_option maxHeartbeats 2000000 in
/-- The node body on whole buffers: link sum `x0`, link count `x1`, net flux `x2`, meltwater input `x3`, the result
    buffer at anything. -/
theorem sound_combine (c : Dev nD) (E : Set ℕ) (i : grid2.Coords)
    (arg1 : Memref sig .tc .vmem S3128x128 .f32) (harg1 : arg1.IsWhole) (arg2 : Memref sig .tc .vmem S3128x128 .f32) (harg2 : arg2.IsWhole)
    (arg3 : Memref sig .tc .vmem S3128x128 .f32) (harg3 : arg3.IsWhole) (arg4 : Memref sig .tc .vmem S3128x128 .f32) (harg4 : arg4.IsWhole)
    (arg5 : Memref sig .tc .vmem S3128x128 .f32) (harg5 : arg5.IsWhole)
    (x0 x1 x2 x3 : Vec F S3128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (combine S3128x128 x0 x1 x2 x3)) -∗ K ⟨⟩))
      ⊢ wp frame (wpE (defs₀ (F := F)) Variants.none c none) E
          (cc2__combine_kernel i arg1 harg1 arg2 harg2 arg3 harg3 arg4 harg4 arg5 harg5) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover_all _)).trans ?_
  rw [View.canon_unit_zero off_zero, pay2_eq]
  show combine S3128x128 (View.ld (View.read (Elt F) arg1.view f0) rAll) (View.ld (View.read (Elt F) arg2.view f1) rAll)
    (View.ld (View.read (Elt F) arg3.view f2) rAll) (View.ld (View.read (Elt F) arg4.view f3) rAll) = _
  simp only [View.ld_unit_zero (S := S3128x128) off_zero]

end Cert.Kernel.Body

end
-- ==== Proof.Kernel.Data.lean ====
/-
  The proof data of the three pipelines, at the contents `V` the region finds in the buffers, and each body's obligation.

  A block of an array of R rows is 3128 rows by 128 lanes; the last block of each array overhangs it (10 · 3128 = 31280
  rows against 31250, 20 · 3128 = 62560 against 62500), so the transfer at the last point moves only the rows inside the
  array, and a staging buffer's rows past the array's end hold words nothing names. What is stated of a buffer is
  therefore its rows inside the array: after the body at point `t` an input buffer holds its array's block there, and
  the output buffer the block of ONE whole-array function — the lane-wise law of the input ARRAYS — because a lane-wise
  law of blocks is the block of the law.
-/
import proofs.«175139_j15341623181950_2_alg».proof.Proof.Kernel.Body

set_option maxRecDepth 16384

noncomputable section

namespace Cert.Kernel.Data

open Cert.Kernel Cert.Kernel.Gen Cert.Kernel.GenP Cert.Kernel.Body Cert.Conduit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a buffer's rows past the array's end are said to hold where something must be said: the zero word. -/
abbrev pad : S3128x128.Idx → Elt F .f32 := fun _ => Scalar.ofBits .f32 0#32

/-! ## Pipeline 0: the overburden pressure -/

/-- The array region 0 leaves in its output: the overburden law of its two input arrays. -/
def out0 (c : Dev nD) : S31250x128.Idx → Elt F .f32 := overburden S31250x128 (V c main_v0) (V c main_v1)

/-- The block at point `t` (its rows inside the array) of an array of the region's shape. -/
def blk0 (t : Fin cfg0.N) (A : S31250x128.Idx → Elt F .f32) : (win0_0.xblock (grid0.coords t)).Idx → Elt F .f32 :=
  (win0_0.blk t).view.read (Elt F) A

/-- The proof data of pipeline 0 on core `c`: the arrays as the region finds them; after the body at point `t` each input's
    buffer at its block and the output's at the block of `out0`, each filled out past the array's end with a word nothing
    reads; the generator register and the scoped rest ride along; nothing is owed; full shares. -/
def dat0 (c : Dev nD) : Dat τ (Elt F) Unit ℕ (UR sig nD τ) ℕ cfg0 c where
  A w := V c (Pipeline.arrRef spec0 w)
  after w t := match w with
    | ⟨0, _⟩ => win0_0.fill (grid0.coords t) pad (blk0 t (V c main_v0))
    | ⟨1, _⟩ => win0_0.fill (grid0.coords t) pad (blk0 t (V c main_v1))
    | ⟨2, _⟩ => win0_0.fill (grid0.coords t) pad (blk0 t (out0 V c))
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body finds in an input's buffer: the block just fetched on the rows inside the array, `d` elsewhere. -/
theorem before0_0 (c : Dev nD) (t : Fin cfg0.N) (d) :
    (dat0 V c).before 0 t d = win0_0.fill (grid0.coords t) d (blk0 t (V c main_v0)) := by
  unfold Dat.before; rw [if_pos (fetch0_0 t)]; rfl
theorem before0_1 (c : Dev nD) (t : Fin cfg0.N) (d) :
    (dat0 V c).before 1 t d = win0_0.fill (grid0.coords t) d (blk0 t (V c main_v1)) := by
  unfold Dat.before; rw [if_pos (fetch0_1 t)]; rfl

/-- The law of filled-out blocks is the filled-out block of the law of the arrays. -/
theorem overburden_fill (t : Fin cfg0.N) (d0 d1 : S3128x128.Idx → Elt F .f32) (A0 A1 : S31250x128.Idx → Elt F .f32) :
    overburden S3128x128 (win0_0.fill (grid0.coords t) d0 (blk0 t A0)) (win0_0.fill (grid0.coords t) d1 (blk0 t A1))
      = win0_0.fill (grid0.coords t) (overburden S3128x128 d0 d1) (blk0 t (overburden S31250x128 A0 A1)) := by
  funext j; unfold overburden subf mulf broadcast Window.fill; split <;> rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: each buffer stated on the rows inside the array. -/
def bodyPost0 (c : Dev nD) (t : Fin cfg0.N) : sProp 𝕄 :=
  iprop((dat0 V c).Φ t.succ ∗ (dat0 V c).owesAt () t.succ
    ∗ (∃ d, owns (c : Thread nD τ) (st0_0 t) fullShare ((cfg0.win 0).fill (cfg0.grid.coords t) d ((cfg0.win 0).cut (cfg0.grid.coords t) ((dat0 V c).after 0 t))))
    ∗ (∃ d, owns (c : Thread nD τ) (st0_1 t) fullShare ((cfg0.win 1).fill (cfg0.grid.coords t) d ((cfg0.win 1).cut (cfg0.grid.coords t) ((dat0 V c).after 1 t))))
    ∗ (∃ d, owns (c : Thread nD τ) (st0_2 t) fullShare ((cfg0.win 2).fill (cfg0.grid.coords t) d ((cfg0.win 2).cut (cfg0.grid.coords t) ((dat0 V c).after 2 t)))))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0, before0_1 V c t d1]
  iapply (sound_overburden (F := F) c Set.univ _ _ _ _ _ _ _
    (win0_0.fill (grid0.coords t) d0 (blk0 t (V c main_v0)))
    (win0_0.fill (grid0.coords t) d1 (blk0 t (V c main_v1))) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t)
      (win0_0.fill (grid0.coords t) pad (blk0 t (V c main_v0)))))
    rw [Window.cut_fill]; try iexact H0
  isplitl [H1]
  · iexists d1
    change _ ⊢ owns (c : Thread nD τ) (st0_1 t) fullShare (win0_0.fill (grid0.coords t) d1 (win0_0.cut (grid0.coords t)
      (win0_0.fill (grid0.coords t) pad (blk0 t (V c main_v1)))))
    rw [Window.cut_fill]; try iexact H1
  · iexists overburden S3128x128 d0 d1
    change _ ⊢ owns (c : Thread nD τ) (st0_2 t) fullShare (win0_0.fill (grid0.coords t) (overburden S3128x128 d0 d1) (win0_0.cut (grid0.coords t)
      (win0_0.fill (grid0.coords t) pad (blk0 t (out0 V c)))))
    rw [Window.cut_fill, out0, ← overburden_fill]; try iexact H2

/-- The body obligation of pipeline 0, at every point. -/
theorem body_obligation0 (c : Dev nD) : BodyObligationLoose (dat0 V c) (defs₀ (F := F)) Variants.none () Set.univ := fun t => by
  rw [bigSep_W0, bigSep_W0]
  exact sound_body0 V c t

/-! ## Pipeline 1: the link right-hand side -/

/-- The array region 1 leaves in its output: the link law of its five input arrays. -/
def out1 (c : Dev nD) : S62500x128.Idx → Elt F .f32 := linkRhs S62500x128 (V c main_v21) (V c main_v22) (V c main_v23) (V c main_v24) (V c main_v25)

/-- The block at point `t` (its rows inside the array) of an array of the region's shape. -/
def blk1 (t : Fin cfg1.N) (A : S62500x128.Idx → Elt F .f32) : (win1_0.xblock (grid1.coords t)).Idx → Elt F .f32 :=
  (win1_0.blk t).view.read (Elt F) A

/-- The proof data of pipeline 1 on core `c`: the arrays as the region finds them; after the body at point `t` each input's
    buffer at its block and the output's at the block of `out1`, each filled out past the array's end with a word nothing
    reads; the generator register and the scoped rest ride along; nothing is owed; full shares. -/
def dat1 (c : Dev nD) : Dat τ (Elt F) Unit ℕ (UR sig nD τ) ℕ cfg1 c where
  A w := V c (Pipeline.arrRef spec1 w)
  after w t := match w with
    | ⟨0, _⟩ => win1_0.fill (grid1.coords t) pad (blk1 t (V c main_v21))
    | ⟨1, _⟩ => win1_0.fill (grid1.coords t) pad (blk1 t (V c main_v22))
    | ⟨2, _⟩ => win1_0.fill (grid1.coords t) pad (blk1 t (V c main_v23))
    | ⟨3, _⟩ => win1_0.fill (grid1.coords t) pad (blk1 t (V c main_v24))
    | ⟨4, _⟩ => win1_0.fill (grid1.coords t) pad (blk1 t (V c main_v25))
    | ⟨5, _⟩ => win1_0.fill (grid1.coords t) pad (blk1 t (out1 V c))
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body finds in an input's buffer: the block just fetched on the rows inside the array, `d` elsewhere. -/
theorem before1_0 (c : Dev nD) (t : Fin cfg1.N) (d) :
    (dat1 V c).before 0 t d = win1_0.fill (grid1.coords t) d (blk1 t (V c main_v21)) := by
  unfold Dat.before; rw [if_pos (fetch1_0 t)]; rfl
theorem before1_1 (c : Dev nD) (t : Fin cfg1.N) (d) :
    (dat1 V c).before 1 t d = win1_0.fill (grid1.coords t) d (blk1 t (V c main_v22)) := by
  unfold Dat.before; rw [if_pos (fetch1_1 t)]; rfl
theorem before1_2 (c : Dev nD) (t : Fin cfg1.N) (d) :
    (dat1 V c).before 2 t d = win1_0.fill (grid1.coords t) d (blk1 t (V c main_v23)) := by
  unfold Dat.before; rw [if_pos (fetch1_2 t)]; rfl
theorem before1_3 (c : Dev nD) (t : Fin cfg1.N) (d) :
    (dat1 V c).before 3 t d = win1_0.fill (grid1.coords t) d (blk1 t (V c main_v24)) := by
  unfold Dat.before; rw [if_pos (fetch1_3 t)]; rfl
theorem before1_4 (c : Dev nD) (t : Fin cfg1.N) (d) :
    (dat1 V c).before 4 t d = win1_0.fill (grid1.coords t) d (blk1 t (V c main_v25)) := by
  unfold Dat.before; rw [if_pos (fetch1_4 t)]; rfl

/-- The law of filled-out blocks is the filled-out block of the law of the arrays. -/
theorem linkRhs_fill (t : Fin cfg1.N) (d0 d1 d2 d3 d4 : S3128x128.Idx → Elt F .f32) (A0 A1 A2 A3 A4 : S62500x128.Idx → Elt F .f32) :
    linkRhs S3128x128 (win1_0.fill (grid1.coords t) d0 (blk1 t A0)) (win1_0.fill (grid1.coords t) d1 (blk1 t A1)) (win1_0.fill (grid1.coords t) d2 (blk1 t A2)) (win1_0.fill (grid1.coords t) d3 (blk1 t A3)) (win1_0.fill (grid1.coords t) d4 (blk1 t A4))
      = win1_0.fill (grid1.coords t) (linkRhs S3128x128 d0 d1 d2 d3 d4) (blk1 t (linkRhs S62500x128 A0 A1 A2 A3 A4)) := by
  funext j; unfold linkRhs subf addf mulf broadcast Window.fill; split <;> rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: each buffer stated on the rows inside the array. -/
def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ (∃ d, owns (c : Thread nD τ) (st1_1 t) fullShare ((cfg1.win 1).fill (cfg1.grid.coords t) d ((cfg1.win 1).cut (cfg1.grid.coords t) ((dat1 V c).after 1 t))))
    ∗ (∃ d, owns (c : Thread nD τ) (st1_2 t) fullShare ((cfg1.win 2).fill (cfg1.grid.coords t) d ((cfg1.win 2).cut (cfg1.grid.coords t) ((dat1 V c).after 2 t))))
    ∗ (∃ d, owns (c : Thread nD τ) (st1_3 t) fullShare ((cfg1.win 3).fill (cfg1.grid.coords t) d ((cfg1.win 3).cut (cfg1.grid.coords t) ((dat1 V c).after 3 t))))
    ∗ (∃ d, owns (c : Thread nD τ) (st1_4 t) fullShare ((cfg1.win 4).fill (cfg1.grid.coords t) d ((cfg1.win 4).cut (cfg1.grid.coords t) ((dat1 V c).after 4 t))))
    ∗ (∃ d, owns (c : Thread nD τ) (st1_5 t) fullShare ((cfg1.win 5).fill (cfg1.grid.coords t) d ((cfg1.win 5).cut (cfg1.grid.coords t) ((dat1 V c).after 5 t)))))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before1_0 V c t d0, before1_1 V c t d1, before1_2 V c t d2, before1_3 V c t d3, before1_4 V c t d4]
  iapply (sound_linkRhs (F := F) c Set.univ _ _ _ _ _ _ _ _ _ _ _ _ _
    (win1_0.fill (grid1.coords t) d0 (blk1 t (V c main_v21)))
    (win1_0.fill (grid1.coords t) d1 (blk1 t (V c main_v22)))
    (win1_0.fill (grid1.coords t) d2 (blk1 t (V c main_v23)))
    (win1_0.fill (grid1.coords t) d3 (blk1 t (V c main_v24)))
    (win1_0.fill (grid1.coords t) d4 (blk1 t (V c main_v25))) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    change _ ⊢ owns (c : Thread nD τ) (st1_0 t) fullShare (win1_0.fill (grid1.coords t) d0 (win1_0.cut (grid1.coords t)
      (win1_0.fill (grid1.coords t) pad (blk1 t (V c main_v21)))))
    rw [Window.cut_fill]; try iexact H0
  isplitl [H1]
  · iexists d1
    change _ ⊢ owns (c : Thread nD τ) (st1_1 t) fullShare (win1_0.fill (grid1.coords t) d1 (win1_0.cut (grid1.coords t)
      (win1_0.fill (grid1.coords t) pad (blk1 t (V c main_v22)))))
    rw [Window.cut_fill]; try iexact H1
  isplitl [H2]
  · iexists d2
    change _ ⊢ owns (c : Thread nD τ) (st1_2 t) fullShare (win1_0.fill (grid1.coords t) d2 (win1_0.cut (grid1.coords t)
      (win1_0.fill (grid1.coords t) pad (blk1 t (V c main_v23)))))
    rw [Window.cut_fill]; try iexact H2
  isplitl [H3]
  · iexists d3
    change _ ⊢ owns (c : Thread nD τ) (st1_3 t) fullShare (win1_0.fill (grid1.coords t) d3 (win1_0.cut (grid1.coords t)
      (win1_0.fill (grid1.coords t) pad (blk1 t (V c main_v24)))))
    rw [Window.cut_fill]; try iexact H3
  isplitl [H4]
  · iexists d4
    change _ ⊢ owns (c : Thread nD τ) (st1_4 t) fullShare (win1_0.fill (grid1.coords t) d4 (win1_0.cut (grid1.coords t)
      (win1_0.fill (grid1.coords t) pad (blk1 t (V c main_v25)))))
    rw [Window.cut_fill]; try iexact H4
  · iexists linkRhs S3128x128 d0 d1 d2 d3 d4
    change _ ⊢ owns (c : Thread nD τ) (st1_5 t) fullShare (win1_0.fill (grid1.coords t) (linkRhs S3128x128 d0 d1 d2 d3 d4) (win1_0.cut (grid1.coords t)
      (win1_0.fill (grid1.coords t) pad (blk1 t (out1 V c)))))
    rw [Window.cut_fill, out1, ← linkRhs_fill]; try iexact H5

/-- The body obligation of pipeline 1, at every point. -/
theorem body_obligation1 (c : Dev nD) : BodyObligationLoose (dat1 V c) (defs₀ (F := F)) Variants.none () Set.univ := fun t => by
  rw [bigSep_W1, bigSep_W1]
  exact sound_body1 V c t

/-! ## Pipeline 2: the node balance -/

/-- The array region 2 leaves in its output: the node-balance law of its four input arrays. -/
def out2 (c : Dev nD) : S31250x128.Idx → Elt F .f32 := combine S31250x128 (V c main_v51) (V c main_v52) (V c main_v53) (V c main_v54)

/-- The block at point `t` (its rows inside the array) of an array of the region's shape. -/
def blk2 (t : Fin cfg2.N) (A : S31250x128.Idx → Elt F .f32) : (win2_0.xblock (grid2.coords t)).Idx → Elt F .f32 :=
  (win2_0.blk t).view.read (Elt F) A

/-- The proof data of pipeline 2 on core `c`: the arrays as the region finds them; after the body at point `t` each input's
    buffer at its block and the output's at the block of `out2`, each filled out past the array's end with a word nothing
    reads; the generator register and the scoped rest ride along; nothing is owed; full shares. -/
def dat2 (c : Dev nD) : Dat τ (Elt F) Unit ℕ (UR sig nD τ) ℕ cfg2 c where
  A w := V c (Pipeline.arrRef spec2 w)
  after w t := match w with
    | ⟨0, _⟩ => win2_0.fill (grid2.coords t) pad (blk2 t (V c main_v51))
    | ⟨1, _⟩ => win2_0.fill (grid2.coords t) pad (blk2 t (V c main_v52))
    | ⟨2, _⟩ => win2_0.fill (grid2.coords t) pad (blk2 t (V c main_v53))
    | ⟨3, _⟩ => win2_0.fill (grid2.coords t) pad (blk2 t (V c main_v54))
    | ⟨4, _⟩ => win2_0.fill (grid2.coords t) pad (blk2 t (out2 V c))
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body finds in an input's buffer: the block just fetched on the rows inside the array, `d` elsewhere. -/
theorem before2_0 (c : Dev nD) (t : Fin cfg2.N) (d) :
    (dat2 V c).before 0 t d = win2_0.fill (grid2.coords t) d (blk2 t (V c main_v51)) := by
  unfold Dat.before; rw [if_pos (fetch2_0 t)]; rfl
theorem before2_1 (c : Dev nD) (t : Fin cfg2.N) (d) :
    (dat2 V c).before 1 t d = win2_0.fill (grid2.coords t) d (blk2 t (V c main_v52)) := by
  unfold Dat.before; rw [if_pos (fetch2_1 t)]; rfl
theorem before2_2 (c : Dev nD) (t : Fin cfg2.N) (d) :
    (dat2 V c).before 2 t d = win2_0.fill (grid2.coords t) d (blk2 t (V c main_v53)) := by
  unfold Dat.before; rw [if_pos (fetch2_2 t)]; rfl
theorem before2_3 (c : Dev nD) (t : Fin cfg2.N) (d) :
    (dat2 V c).before 3 t d = win2_0.fill (grid2.coords t) d (blk2 t (V c main_v54)) := by
  unfold Dat.before; rw [if_pos (fetch2_3 t)]; rfl

/-- The law of filled-out blocks is the filled-out block of the law of the arrays. -/
theorem combine_fill (t : Fin cfg2.N) (d0 d1 d2 d3 : S3128x128.Idx → Elt F .f32) (A0 A1 A2 A3 : S31250x128.Idx → Elt F .f32) :
    combine S3128x128 (win2_0.fill (grid2.coords t) d0 (blk2 t A0)) (win2_0.fill (grid2.coords t) d1 (blk2 t A1)) (win2_0.fill (grid2.coords t) d2 (blk2 t A2)) (win2_0.fill (grid2.coords t) d3 (blk2 t A3))
      = win2_0.fill (grid2.coords t) (combine S3128x128 d0 d1 d2 d3) (blk2 t (combine S31250x128 A0 A1 A2 A3)) := by
  funext j; unfold combine subf addf divf maximumf broadcast Window.fill; split <;> rfl

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns: each buffer stated on the rows inside the array. -/
def bodyPost2 (c : Dev nD) (t : Fin cfg2.N) : sProp 𝕄 :=
  iprop((dat2 V c).Φ t.succ ∗ (dat2 V c).owesAt () t.succ
    ∗ (∃ d, owns (c : Thread nD τ) (st2_0 t) fullShare ((cfg2.win 0).fill (cfg2.grid.coords t) d ((cfg2.win 0).cut (cfg2.grid.coords t) ((dat2 V c).after 0 t))))
    ∗ (∃ d, owns (c : Thread nD τ) (st2_1 t) fullShare ((cfg2.win 1).fill (cfg2.grid.coords t) d ((cfg2.win 1).cut (cfg2.grid.coords t) ((dat2 V c).after 1 t))))
    ∗ (∃ d, owns (c : Thread nD τ) (st2_2 t) fullShare ((cfg2.win 2).fill (cfg2.grid.coords t) d ((cfg2.win 2).cut (cfg2.grid.coords t) ((dat2 V c).after 2 t))))
    ∗ (∃ d, owns (c : Thread nD τ) (st2_3 t) fullShare ((cfg2.win 3).fill (cfg2.grid.coords t) d ((cfg2.win 3).cut (cfg2.grid.coords t) ((dat2 V c).after 3 t))))
    ∗ (∃ d, owns (c : Thread nD τ) (st2_4 t) fullShare ((cfg2.win 4).fill (cfg2.grid.coords t) d ((cfg2.win 4).cut (cfg2.grid.coords t) ((dat2 V c).after 4 t)))))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩⟩
  rw [before2_0 V c t d0, before2_1 V c t d1, before2_2 V c t d2, before2_3 V c t d3]
  iapply (sound_combine (F := F) c Set.univ _ _ _ _ _ _ _ _ _ _ _
    (win2_0.fill (grid2.coords t) d0 (blk2 t (V c main_v51)))
    (win2_0.fill (grid2.coords t) d1 (blk2 t (V c main_v52)))
    (win2_0.fill (grid2.coords t) d2 (blk2 t (V c main_v53)))
    (win2_0.fill (grid2.coords t) d3 (blk2 t (V c main_v54))) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    change _ ⊢ owns (c : Thread nD τ) (st2_0 t) fullShare (win2_0.fill (grid2.coords t) d0 (win2_0.cut (grid2.coords t)
      (win2_0.fill (grid2.coords t) pad (blk2 t (V c main_v51)))))
    rw [Window.cut_fill]; try iexact H0
  isplitl [H1]
  · iexists d1
    change _ ⊢ owns (c : Thread nD τ) (st2_1 t) fullShare (win2_0.fill (grid2.coords t) d1 (win2_0.cut (grid2.coords t)
      (win2_0.fill (grid2.coords t) pad (blk2 t (V c main_v52)))))
    rw [Window.cut_fill]; try iexact H1
  isplitl [H2]
  · iexists d2
    change _ ⊢ owns (c : Thread nD τ) (st2_2 t) fullShare (win2_0.fill (grid2.coords t) d2 (win2_0.cut (grid2.coords t)
      (win2_0.fill (grid2.coords t) pad (blk2 t (V c main_v53)))))
    rw [Window.cut_fill]; try iexact H2
  isplitl [H3]
  · iexists d3
    change _ ⊢ owns (c : Thread nD τ) (st2_3 t) fullShare (win2_0.fill (grid2.coords t) d3 (win2_0.cut (grid2.coords t)
      (win2_0.fill (grid2.coords t) pad (blk2 t (V c main_v54)))))
    rw [Window.cut_fill]; try iexact H3
  · iexists combine S3128x128 d0 d1 d2 d3
    change _ ⊢ owns (c : Thread nD τ) (st2_4 t) fullShare (win2_0.fill (grid2.coords t) (combine S3128x128 d0 d1 d2 d3) (win2_0.cut (grid2.coords t)
      (win2_0.fill (grid2.coords t) pad (blk2 t (out2 V c)))))
    rw [Window.cut_fill, out2, ← combine_fill]; try iexact H4

/-- The body obligation of pipeline 2, at every point. -/
theorem body_obligation2 (c : Dev nD) : BodyObligationLoose (dat2 V c) (defs₀ (F := F)) Variants.none () Set.univ := fun t => by
  rw [bigSep_W2, bigSep_W2]
  exact sound_body2 V c t

end Cert.Kernel.Data

end
-- ==== Proof.Kernel.Run.lean ====
/-
  The run of the whole program: host stretch, region, host stretch, region, host stretch, region, host stretch.

  The buffers' contents at each boundary are a fold from the launch memory: a host stretch applies its operations in
  order; a region leaves each of its windows' arrays at what its write-backs leave (the inputs as found, the output at
  its blocks written back in point order) and every other buffer as it found it. Every weakly fair execution
  terminates, faults nowhere, and ends with every unscoped buffer of every core at the last boundary's contents; no host
  operation and no region writes an argument array, so each ends as launched.
-/
import proofs.«175139_j15341623181950_2_alg».proof.Proof.Kernel.Data

set_option maxRecDepth 16384

noncomputable section

namespace Cert.Kernel.Run

open Cert.Kernel Cert.Kernel.Gen Cert.Kernel.GenP Cert.Kernel.Body Cert.Kernel.Data Cert.Conduit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b
/-- After the last host stretch: the end. -/
abbrev W7 : Dev nD → Valuation τ sig (Elt F) := fun c => StableHlo.after hostOps3 (W6 m ρ c)

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## No host stretch and no region writes an argument -/

/-- The references each host stretch writes. -/
abbrev hostOps0_W : List (Ref sig .tc) := [main_v0, main_v1]
abbrev hostOps1_W : List (Ref sig .tc) := [main_v3, main_c, main_v4, main_v5, main_c_0, main_v6, main_v7, main_v8, main_v9, main_v10, main_c_1, main_v11, main_v12, main_c_2, main_v13, main_v14, main_v15, main_v16, main_v17, main_v18, main_cst, main_v19, main_v20, main_v21, main_v22, main_v23, main_v24, main_v25]
abbrev hostOps2_W : List (Ref sig .tc) := [main_v27, main_cst_3, main_v28, main_v29, main_v30, main_v31, main_v32, main_v33, main_v34, main_v35, main_v36, main_v37, main_cst_4, main_v38, main_v39, main_v40, main_cst_5, main_v41, main_v42, main_v43, main_v44, main_v45, main_v46, main_v47, main_v48, main_v49, main_v50, main_v51, main_v52, main_v53, main_v54]
abbrev hostOps3_W : List (Ref sig .tc) := [main_v56]

theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_fresh : (hostOps0 : List (HloOp τ sig (Elt F))).Forall fun op => op.fresh = ∅ := by
  simp only [List.Forall]; repeat' constructor

theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor

theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h
theorem W7_of (c : Dev nD) (r : Ref sig .tc) (h : r ∉ hostOps3_W) : W7 m ρ c r = W6 m ρ c r :=
  StableHlo.after_of_writes_sub hostOps3 _ hostOps3_writes h

/-- `main_arg0` reaches the end as launched. -/
theorem W7_main_arg0 (c : Dev nD) : W7 m ρ c (Proc.devRef .tc main_arg0) = m ((c : Thread nD τ).loc main_arg0) :=
  (W7_of m ρ c main_arg0 (by decide)).trans <| (W6_of_ne m ρ c main_arg0 (by decide)).trans <| (W5_of m ρ c main_arg0 (by decide)).trans <|
  (W4_of_ne m ρ c main_arg0 (by decide)).trans <| (W3_of m ρ c main_arg0 (by decide)).trans <| (W2_of_ne m ρ c main_arg0 (by decide)).trans <|
  (W1_of m ρ c main_arg0 (by decide)).trans rfl

/-- `main_arg1` reaches the end as launched. -/
theorem W7_main_arg1 (c : Dev nD) : W7 m ρ c (Proc.devRef .tc main_arg1) = m ((c : Thread nD τ).loc main_arg1) :=
  (W7_of m ρ c main_arg1 (by decide)).trans <| (W6_of_ne m ρ c main_arg1 (by decide)).trans <| (W5_of m ρ c main_arg1 (by decide)).trans <|
  (W4_of_ne m ρ c main_arg1 (by decide)).trans <| (W3_of m ρ c main_arg1 (by decide)).trans <| (W2_of_ne m ρ c main_arg1 (by decide)).trans <|
  (W1_of m ρ c main_arg1 (by decide)).trans rfl

/-- `main_arg2` reaches the end as launched. -/
theorem W7_main_arg2 (c : Dev nD) : W7 m ρ c (Proc.devRef .tc main_arg2) = m ((c : Thread nD τ).loc main_arg2) :=
  (W7_of m ρ c main_arg2 (by decide)).trans <| (W6_of_ne m ρ c main_arg2 (by decide)).trans <| (W5_of m ρ c main_arg2 (by decide)).trans <|
  (W4_of_ne m ρ c main_arg2 (by decide)).trans <| (W3_of m ρ c main_arg2 (by decide)).trans <| (W2_of_ne m ρ c main_arg2 (by decide)).trans <|
  (W1_of m ρ c main_arg2 (by decide)).trans rfl

/-- `main_arg3` reaches the end as launched. -/
theorem W7_main_arg3 (c : Dev nD) : W7 m ρ c (Proc.devRef .tc main_arg3) = m ((c : Thread nD τ).loc main_arg3) :=
  (W7_of m ρ c main_arg3 (by decide)).trans <| (W6_of_ne m ρ c main_arg3 (by decide)).trans <| (W5_of m ρ c main_arg3 (by decide)).trans <|
  (W4_of_ne m ρ c main_arg3 (by decide)).trans <| (W3_of m ρ c main_arg3 (by decide)).trans <| (W2_of_ne m ρ c main_arg3 (by decide)).trans <|
  (W1_of m ρ c main_arg3 (by decide)).trans rfl

/-- `main_arg4` reaches the end as launched. -/
theorem W7_main_arg4 (c : Dev nD) : W7 m ρ c (Proc.devRef .tc main_arg4) = m ((c : Thread nD τ).loc main_arg4) :=
  (W7_of m ρ c main_arg4 (by decide)).trans <| (W6_of_ne m ρ c main_arg4 (by decide)).trans <| (W5_of m ρ c main_arg4 (by decide)).trans <|
  (W4_of_ne m ρ c main_arg4 (by decide)).trans <| (W3_of m ρ c main_arg4 (by decide)).trans <| (W2_of_ne m ρ c main_arg4 (by decide)).trans <|
  (W1_of m ρ c main_arg4 (by decide)).trans rfl

/-- `main_arg5` reaches the end as launched. -/
theorem W7_main_arg5 (c : Dev nD) : W7 m ρ c (Proc.devRef .tc main_arg5) = m ((c : Thread nD τ).loc main_arg5) :=
  (W7_of m ρ c main_arg5 (by decide)).trans <| (W6_of_ne m ρ c main_arg5 (by decide)).trans <| (W5_of m ρ c main_arg5 (by decide)).trans <|
  (W4_of_ne m ρ c main_arg5 (by decide)).trans <| (W3_of m ρ c main_arg5 (by decide)).trans <| (W2_of_ne m ρ c main_arg5 (by decide)).trans <|
  (W1_of m ρ c main_arg5 (by decide)).trans rfl

/-- `main_arg6` reaches the end as launched. -/
theorem W7_main_arg6 (c : Dev nD) : W7 m ρ c (Proc.devRef .tc main_arg6) = m ((c : Thread nD τ).loc main_arg6) :=
  (W7_of m ρ c main_arg6 (by decide)).trans <| (W6_of_ne m ρ c main_arg6 (by decide)).trans <| (W5_of m ρ c main_arg6 (by decide)).trans <|
  (W4_of_ne m ρ c main_arg6 (by decide)).trans <| (W3_of m ρ c main_arg6 (by decide)).trans <| (W2_of_ne m ρ c main_arg6 (by decide)).trans <|
  (W1_of m ρ c main_arg6 (by decide)).trans rfl

/-- `main_arg7` reaches the end as launched. -/
theorem W7_main_arg7 (c : Dev nD) : W7 m ρ c (Proc.devRef .tc main_arg7) = m ((c : Thread nD τ).loc main_arg7) :=
  (W7_of m ρ c main_arg7 (by decide)).trans <| (W6_of_ne m ρ c main_arg7 (by decide)).trans <| (W5_of m ρ c main_arg7 (by decide)).trans <|
  (W4_of_ne m ρ c main_arg7 (by decide)).trans <| (W3_of m ρ c main_arg7 (by decide)).trans <| (W2_of_ne m ρ c main_arg7 (by decide)).trans <|
  (W1_of m ρ c main_arg7 (by decide)).trans rfl

/-- `main_arg8` reaches the end as launched. -/
theorem W7_main_arg8 (c : Dev nD) : W7 m ρ c (Proc.devRef .tc main_arg8) = m ((c : Thread nD τ).loc main_arg8) :=
  (W7_of m ρ c main_arg8 (by decide)).trans <| (W6_of_ne m ρ c main_arg8 (by decide)).trans <| (W5_of m ρ c main_arg8 (by decide)).trans <|
  (W4_of_ne m ρ c main_arg8 (by decide)).trans <| (W3_of m ρ c main_arg8 (by decide)).trans <| (W2_of_ne m ρ c main_arg8 (by decide)).trans <|
  (W1_of m ρ c main_arg8 (by decide)).trans rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m ρ) c
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m ρ) c
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V5 m ρ) c
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 7 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

/-- The program IS the run of the segments. -/
theorem main_run (c : Dev nD) : main (F := F) c = Pipeline.Seg.run (segs m ρ) := (main_chain c).trans (by chain_rfl)

/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- THE RUN, at any float instance: from any memory with zero counters every weakly fair execution of the program on
    the TensorCores terminates, nothing faulting, and in every final state every unscoped buffer of every core holds the
    last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      change iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c)⟩) (run m ρ)

end Cert.Kernel.Run

end
-- ==== Proof.KernelIdeal.Body.lean ====
/-
  The three kernel bodies, each run once on whole staging buffers.

  Every body loads its input buffers whole, applies one lane-wise law and stores the result whole into its output
  buffer (which it also loads first, a value nothing reads). So on input buffers holding `x₀, x₁, …` and an output
  buffer holding anything, the body terminates leaving the inputs as they were and the output buffer holding the law
  of the inputs: the overburden pressure, the link right-hand side, the node balance (Pointwise.lean), at the
  block's shape.
-/
import proofs.«175139_j15341623181950_2_alg».proof.Proof.KernelIdeal.LaunchP
import proofs.«175139_j15341623181950_2_alg».proof.Proof.Gen.KernelIdeal.Skeleton
import proofs.«175139_j15341623181950_2_alg».proof.Proof.Gen.KernelIdeal.Points
import proofs.«175139_j15341623181950_2_alg».proof.Proof.Pointwise
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen Cert.KernelIdeal.GenP Cert.Conduit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one rectangle every access of the three bodies goes through: the whole block. -/
abbrev rAll : Rect S3128x128 := Rect.unit (s := S3128x128) ![0, 0] S3128x128.size inb_S3128x128_S3128x128_0_0

theorem off_zero : (![0, 0] : Fin S3128x128.rank → Nat) = fun _ => 0 := funext fun a => by fin_cases a <;> rfl

/-- A whole-block store covers the block. -/
theorem cover_all (p0 : Vec F S3128x128 .f32) (y : S3128x128.Idx) :
    ∃ pc ∈ ([⟨rAll, p0⟩] : List (View.Piece (Elt F) S3128x128 .f32)), y ∈ pc.1.set :=
  View.cover_of_tiled [⟨rAll, p0⟩] S3128x128.size (by rfl) y

/-! ## The stored values are the lane-wise laws of the loaded blocks -/

theorem pay0_eq (x0 x1 : Vec F S3128x128 .f32) : k0_pay1 x0 x1 = overburden S3128x128 x0 x1 := by
  unfold k0_pay1 overburden
  simp only [shapeCast_self]

theorem pay1_eq (q g v e a : Vec F S3128x128 .f32) : k1_pay1 q g v e a = linkRhs S3128x128 e q g v a := by
  unfold k1_pay1 linkRhs
  simp only [shapeCast_self]

theorem pay2_eq (n l f w : Vec F S3128x128 .f32) : k2_pay1 n l f w = combine S3128x128 l n f w := by
  unfold k2_pay1 combine
  simp only [shapeCast_self]

/-! ## The overburden body -/

set_option maxHeartbeats 1000000 in
/-- The overburden body on whole buffers: thickness block `x0`, pressure block `x1`, the result buffer at anything. -/
theorem sound_overburden (c : Dev nD) (E : Set ℕ) (i : grid0.Coords)
    (arg1 : Memref sig .tc .vmem S3128x128 .f32) (harg1 : arg1.IsWhole) (arg2 : Memref sig .tc .vmem S3128x128 .f32) (harg2 : arg2.IsWhole)
    (arg3 : Memref sig .tc .vmem S3128x128 .f32) (harg3 : arg3.IsWhole)
    (x0 x1 : Vec F S3128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (overburden S3128x128 x0 x1)) -∗ K ⟨⟩))
      ⊢ wp frame (wpE (defs₀ (F := F)) Variants.none c none) E (cc0__overburden_kernel i arg1 harg1 arg2 harg2 arg3 harg3) K := by
  simp only [cc0__overburden_kernel_eq_skeleton]; unfold cc0__overburden_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover_all _)).trans ?_
  rw [View.canon_unit_zero off_zero, pay0_eq]
  show overburden S3128x128 (View.ld (View.read (Elt F) arg1.view f0) rAll) (View.ld (View.read (Elt F) arg2.view f1) rAll) = _
  rw [View.ld_unit_zero off_zero, View.ld_unit_zero off_zero]

/-! ## The link right-hand-side body -/

set_option maxHeartbeats 2000000 in
/-- The link body on whole buffers: effective pressure `x0`, water flux `x1`, hydraulic gradient `x2`, sliding velocity
    `x3`, conduit area `x4`, the result buffer at anything. -/
theorem sound_linkRhs (c : Dev nD) (E : Set ℕ) (i : grid1.Coords)
    (arg1 : Memref sig .tc .vmem S3128x128 .f32) (harg1 : arg1.IsWhole) (arg2 : Memref sig .tc .vmem S3128x128 .f32) (harg2 : arg2.IsWhole)
    (arg3 : Memref sig .tc .vmem S3128x128 .f32) (harg3 : arg3.IsWhole) (arg4 : Memref sig .tc .vmem S3128x128 .f32) (harg4 : arg4.IsWhole)
    (arg5 : Memref sig .tc .vmem S3128x128 .f32) (harg5 : arg5.IsWhole) (arg6 : Memref sig .tc .vmem S3128x128 .f32) (harg6 : arg6.IsWhole)
    (x0 x1 x2 x3 x4 : Vec F S3128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (linkRhs S3128x128 x0 x1 x2 x3 x4)) -∗ K ⟨⟩))
      ⊢ wp frame (wpE (defs₀ (F := F)) Variants.none c none) E
          (cc1__link_rhs_kernel i arg1 harg1 arg2 harg2 arg3 harg3 arg4 harg4 arg5 harg5 arg6 harg6) K := by
  simp only [cc1__link_rhs_kernel_eq_skeleton]; unfold cc1__link_rhs_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (cover_all _)).trans ?_
  rw [View.canon_unit_zero off_zero, pay1_eq]
  show linkRhs S3128x128 (View.ld (View.read (Elt F) arg1.view f0) rAll) (View.ld (View.read (Elt F) arg2.view f1) rAll)
    (View.ld (View.read (Elt F) arg3.view f2) rAll) (View.ld (View.read (Elt F) arg4.view f3) rAll)
    (View.ld (View.read (Elt F) arg5.view f4) rAll) = _
  simp only [View.ld_unit_zero (S := S3128x128) off_zero]

/-! ## The node-balance body -/

set_option maxHeartbeats 2000000 in
/-- The node body on whole buffers: link sum `x0`, link count `x1`, net flux `x2`, meltwater input `x3`, the result
    buffer at anything. -/
theorem sound_combine (c : Dev nD) (E : Set ℕ) (i : grid2.Coords)
    (arg1 : Memref sig .tc .vmem S3128x128 .f32) (harg1 : arg1.IsWhole) (arg2 : Memref sig .tc .vmem S3128x128 .f32) (harg2 : arg2.IsWhole)
    (arg3 : Memref sig .tc .vmem S3128x128 .f32) (harg3 : arg3.IsWhole) (arg4 : Memref sig .tc .vmem S3128x128 .f32) (harg4 : arg4.IsWhole)
    (arg5 : Memref sig .tc .vmem S3128x128 .f32) (harg5 : arg5.IsWhole)
    (x0 x1 x2 x3 : Vec F S3128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (combine S3128x128 x0 x1 x2 x3)) -∗ K ⟨⟩))
      ⊢ wp frame (wpE (defs₀ (F := F)) Variants.none c none) E
          (cc2__combine_kernel i arg1 harg1 arg2 harg2 arg3 harg3 arg4 harg4 arg5 harg5) K := by
  simp only [cc2__combine_kernel_eq_skeleton]; unfold cc2__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover_all _)).trans ?_
  rw [View.canon_unit_zero off_zero, pay2_eq]
  show combine S3128x128 (View.ld (View.read (Elt F) arg1.view f0) rAll) (View.ld (View.read (Elt F) arg2.view f1) rAll)
    (View.ld (View.read (Elt F) arg3.view f2) rAll) (View.ld (View.read (Elt F) arg4.view f3) rAll) = _
  simp only [View.ld_unit_zero (S := S3128x128) off_zero]

end Cert.KernelIdeal.Body

end
-- ==== Proof.KernelIdeal.Data.lean ====
/-
  The proof data of the three pipelines, at the contents `V` the region finds in the buffers, and each body's obligation.

  A block of an array of R rows is 3128 rows by 128 lanes; the last block of each array overhangs it (10 · 3128 = 31280
  rows against 31250, 20 · 3128 = 62560 against 62500), so the transfer at the last point moves only the rows inside the
  array, and a staging buffer's rows past the array's end hold words nothing names. What is stated of a buffer is
  therefore its rows inside the array: after the body at point `t` an input buffer holds its array's block there, and
  the output buffer the block of ONE whole-array function — the lane-wise law of the input ARRAYS — because a lane-wise
  law of blocks is the block of the law.
-/
import proofs.«175139_j15341623181950_2_alg».proof.Proof.KernelIdeal.Body

set_option maxRecDepth 16384

noncomputable section

namespace Cert.KernelIdeal.Data

open Cert.KernelIdeal Cert.KernelIdeal.Gen Cert.KernelIdeal.GenP Cert.KernelIdeal.Body Cert.Conduit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What a buffer's rows past the array's end are said to hold where something must be said: the zero word. -/
abbrev pad : S3128x128.Idx → Elt F .f32 := fun _ => Scalar.ofBits .f32 0#32

/-! ## Pipeline 0: the overburden pressure -/

/-- The array region 0 leaves in its output: the overburden law of its two input arrays. -/
def out0 (c : Dev nD) : S31250x128.Idx → Elt F .f32 := overburden S31250x128 (V c main_v0) (V c main_v1)

/-- The block at point `t` (its rows inside the array) of an array of the region's shape. -/
def blk0 (t : Fin cfg0.N) (A : S31250x128.Idx → Elt F .f32) : (win0_0.xblock (grid0.coords t)).Idx → Elt F .f32 :=
  (win0_0.blk t).view.read (Elt F) A

/-- The proof data of pipeline 0 on core `c`: the arrays as the region finds them; after the body at point `t` each input's
    buffer at its block and the output's at the block of `out0`, each filled out past the array's end with a word nothing
    reads; the generator register and the scoped rest ride along; nothing is owed; full shares. -/
def dat0 (c : Dev nD) : Dat τ (Elt F) Unit ℕ (UR sig nD τ) ℕ cfg0 c where
  A w := V c (Pipeline.arrRef spec0 w)
  after w t := match w with
    | ⟨0, _⟩ => win0_0.fill (grid0.coords t) pad (blk0 t (V c main_v0))
    | ⟨1, _⟩ => win0_0.fill (grid0.coords t) pad (blk0 t (V c main_v1))
    | ⟨2, _⟩ => win0_0.fill (grid0.coords t) pad (blk0 t (out0 V c))
  Φ _ := Pipeline.ΦA spec0 c
  q _ := fullShare
  owed _ := 0

theorem A_eq0 (c : Dev nD) (w : Fin cfg0.W) : (dat0 V c).A w = V c (Pipeline.arrRef spec0 w) := by
  dsimp only [dat0]

/-- What the body finds in an input's buffer: the block just fetched on the rows inside the array, `d` elsewhere. -/
theorem before0_0 (c : Dev nD) (t : Fin cfg0.N) (d) :
    (dat0 V c).before 0 t d = win0_0.fill (grid0.coords t) d (blk0 t (V c main_v0)) := by
  unfold Dat.before; rw [if_pos (fetch0_0 t)]; rfl
theorem before0_1 (c : Dev nD) (t : Fin cfg0.N) (d) :
    (dat0 V c).before 1 t d = win0_0.fill (grid0.coords t) d (blk0 t (V c main_v1)) := by
  unfold Dat.before; rw [if_pos (fetch0_1 t)]; rfl

/-- The law of filled-out blocks is the filled-out block of the law of the arrays. -/
theorem overburden_fill (t : Fin cfg0.N) (d0 d1 : S3128x128.Idx → Elt F .f32) (A0 A1 : S31250x128.Idx → Elt F .f32) :
    overburden S3128x128 (win0_0.fill (grid0.coords t) d0 (blk0 t A0)) (win0_0.fill (grid0.coords t) d1 (blk0 t A1))
      = win0_0.fill (grid0.coords t) (overburden S3128x128 d0 d1) (blk0 t (overburden S31250x128 A0 A1)) := by
  funext j; unfold overburden subf mulf broadcast Window.fill; split <;> rfl

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns: each buffer stated on the rows inside the array. -/
def bodyPost0 (c : Dev nD) (t : Fin cfg0.N) : sProp 𝕄 :=
  iprop((dat0 V c).Φ t.succ ∗ (dat0 V c).owesAt () t.succ
    ∗ (∃ d, owns (c : Thread nD τ) (st0_0 t) fullShare ((cfg0.win 0).fill (cfg0.grid.coords t) d ((cfg0.win 0).cut (cfg0.grid.coords t) ((dat0 V c).after 0 t))))
    ∗ (∃ d, owns (c : Thread nD τ) (st0_1 t) fullShare ((cfg0.win 1).fill (cfg0.grid.coords t) d ((cfg0.win 1).cut (cfg0.grid.coords t) ((dat0 V c).after 1 t))))
    ∗ (∃ d, owns (c : Thread nD τ) (st0_2 t) fullShare ((cfg0.win 2).fill (cfg0.grid.coords t) d ((cfg0.win 2).cut (cfg0.grid.coords t) ((dat0 V c).after 2 t)))))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩⟩
  rw [before0_0 V c t d0, before0_1 V c t d1]
  iapply (sound_overburden (F := F) c Set.univ _ _ _ _ _ _ _
    (win0_0.fill (grid0.coords t) d0 (blk0 t (V c main_v0)))
    (win0_0.fill (grid0.coords t) d1 (blk0 t (V c main_v1))) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0
    change _ ⊢ owns (c : Thread nD τ) (st0_0 t) fullShare (win0_0.fill (grid0.coords t) d0 (win0_0.cut (grid0.coords t)
      (win0_0.fill (grid0.coords t) pad (blk0 t (V c main_v0)))))
    rw [Window.cut_fill]; try iexact H0
  isplitl [H1]
  · iexists d1
    change _ ⊢ owns (c : Thread nD τ) (st0_1 t) fullShare (win0_0.fill (grid0.coords t) d1 (win0_0.cut (grid0.coords t)
      (win0_0.fill (grid0.coords t) pad (blk0 t (V c main_v1)))))
    rw [Window.cut_fill]; try iexact H1
  · iexists overburden S3128x128 d0 d1
    change _ ⊢ owns (c : Thread nD τ) (st0_2 t) fullShare (win0_0.fill (grid0.coords t) (overburden S3128x128 d0 d1) (win0_0.cut (grid0.coords t)
      (win0_0.fill (grid0.coords t) pad (blk0 t (out0 V c)))))
    rw [Window.cut_fill, out0, ← overburden_fill]; try iexact H2

/-- The body obligation of pipeline 0, at every point. -/
theorem body_obligation0 (c : Dev nD) : BodyObligationLoose (dat0 V c) (defs₀ (F := F)) Variants.none () Set.univ := fun t => by
  rw [bigSep_W0, bigSep_W0]
  exact sound_body0 V c t

/-! ## Pipeline 1: the link right-hand side -/

/-- The array region 1 leaves in its output: the link law of its five input arrays. -/
def out1 (c : Dev nD) : S62500x128.Idx → Elt F .f32 := linkRhs S62500x128 (V c main_v21) (V c main_v22) (V c main_v23) (V c main_v24) (V c main_v25)

/-- The block at point `t` (its rows inside the array) of an array of the region's shape. -/
def blk1 (t : Fin cfg1.N) (A : S62500x128.Idx → Elt F .f32) : (win1_0.xblock (grid1.coords t)).Idx → Elt F .f32 :=
  (win1_0.blk t).view.read (Elt F) A

/-- The proof data of pipeline 1 on core `c`: the arrays as the region finds them; after the body at point `t` each input's
    buffer at its block and the output's at the block of `out1`, each filled out past the array's end with a word nothing
    reads; the generator register and the scoped rest ride along; nothing is owed; full shares. -/
def dat1 (c : Dev nD) : Dat τ (Elt F) Unit ℕ (UR sig nD τ) ℕ cfg1 c where
  A w := V c (Pipeline.arrRef spec1 w)
  after w t := match w with
    | ⟨0, _⟩ => win1_0.fill (grid1.coords t) pad (blk1 t (V c main_v21))
    | ⟨1, _⟩ => win1_0.fill (grid1.coords t) pad (blk1 t (V c main_v22))
    | ⟨2, _⟩ => win1_0.fill (grid1.coords t) pad (blk1 t (V c main_v23))
    | ⟨3, _⟩ => win1_0.fill (grid1.coords t) pad (blk1 t (V c main_v24))
    | ⟨4, _⟩ => win1_0.fill (grid1.coords t) pad (blk1 t (V c main_v25))
    | ⟨5, _⟩ => win1_0.fill (grid1.coords t) pad (blk1 t (out1 V c))
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body finds in an input's buffer: the block just fetched on the rows inside the array, `d` elsewhere. -/
theorem before1_0 (c : Dev nD) (t : Fin cfg1.N) (d) :
    (dat1 V c).before 0 t d = win1_0.fill (grid1.coords t) d (blk1 t (V c main_v21)) := by
  unfold Dat.before; rw [if_pos (fetch1_0 t)]; rfl
theorem before1_1 (c : Dev nD) (t : Fin cfg1.N) (d) :
    (dat1 V c).before 1 t d = win1_0.fill (grid1.coords t) d (blk1 t (V c main_v22)) := by
  unfold Dat.before; rw [if_pos (fetch1_1 t)]; rfl
theorem before1_2 (c : Dev nD) (t : Fin cfg1.N) (d) :
    (dat1 V c).before 2 t d = win1_0.fill (grid1.coords t) d (blk1 t (V c main_v23)) := by
  unfold Dat.before; rw [if_pos (fetch1_2 t)]; rfl
theorem before1_3 (c : Dev nD) (t : Fin cfg1.N) (d) :
    (dat1 V c).before 3 t d = win1_0.fill (grid1.coords t) d (blk1 t (V c main_v24)) := by
  unfold Dat.before; rw [if_pos (fetch1_3 t)]; rfl
theorem before1_4 (c : Dev nD) (t : Fin cfg1.N) (d) :
    (dat1 V c).before 4 t d = win1_0.fill (grid1.coords t) d (blk1 t (V c main_v25)) := by
  unfold Dat.before; rw [if_pos (fetch1_4 t)]; rfl

/-- The law of filled-out blocks is the filled-out block of the law of the arrays. -/
theorem linkRhs_fill (t : Fin cfg1.N) (d0 d1 d2 d3 d4 : S3128x128.Idx → Elt F .f32) (A0 A1 A2 A3 A4 : S62500x128.Idx → Elt F .f32) :
    linkRhs S3128x128 (win1_0.fill (grid1.coords t) d0 (blk1 t A0)) (win1_0.fill (grid1.coords t) d1 (blk1 t A1)) (win1_0.fill (grid1.coords t) d2 (blk1 t A2)) (win1_0.fill (grid1.coords t) d3 (blk1 t A3)) (win1_0.fill (grid1.coords t) d4 (blk1 t A4))
      = win1_0.fill (grid1.coords t) (linkRhs S3128x128 d0 d1 d2 d3 d4) (blk1 t (linkRhs S62500x128 A0 A1 A2 A3 A4)) := by
  funext j; unfold linkRhs subf addf mulf broadcast Window.fill; split <;> rfl

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: each buffer stated on the rows inside the array. -/
def bodyPost1 (c : Dev nD) (t : Fin cfg1.N) : sProp 𝕄 :=
  iprop((dat1 V c).Φ t.succ ∗ (dat1 V c).owesAt () t.succ
    ∗ (∃ d, owns (c : Thread nD τ) (st1_0 t) fullShare ((cfg1.win 0).fill (cfg1.grid.coords t) d ((cfg1.win 0).cut (cfg1.grid.coords t) ((dat1 V c).after 0 t))))
    ∗ (∃ d, owns (c : Thread nD τ) (st1_1 t) fullShare ((cfg1.win 1).fill (cfg1.grid.coords t) d ((cfg1.win 1).cut (cfg1.grid.coords t) ((dat1 V c).after 1 t))))
    ∗ (∃ d, owns (c : Thread nD τ) (st1_2 t) fullShare ((cfg1.win 2).fill (cfg1.grid.coords t) d ((cfg1.win 2).cut (cfg1.grid.coords t) ((dat1 V c).after 2 t))))
    ∗ (∃ d, owns (c : Thread nD τ) (st1_3 t) fullShare ((cfg1.win 3).fill (cfg1.grid.coords t) d ((cfg1.win 3).cut (cfg1.grid.coords t) ((dat1 V c).after 3 t))))
    ∗ (∃ d, owns (c : Thread nD τ) (st1_4 t) fullShare ((cfg1.win 4).fill (cfg1.grid.coords t) d ((cfg1.win 4).cut (cfg1.grid.coords t) ((dat1 V c).after 4 t))))
    ∗ (∃ d, owns (c : Thread nD τ) (st1_5 t) fullShare ((cfg1.win 5).fill (cfg1.grid.coords t) d ((cfg1.win 5).cut (cfg1.grid.coords t) ((dat1 V c).after 5 t)))))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before1_0 V c t d0, before1_1 V c t d1, before1_2 V c t d2, before1_3 V c t d3, before1_4 V c t d4]
  iapply (sound_linkRhs (F := F) c Set.univ _ _ _ _ _ _ _ _ _ _ _ _ _
    (win1_0.fill (grid1.coords t) d0 (blk1 t (V c main_v21)))
    (win1_0.fill (grid1.coords t) d1 (blk1 t (V c main_v22)))
    (win1_0.fill (grid1.coords t) d2 (blk1 t (V c main_v23)))
    (win1_0.fill (grid1.coords t) d3 (blk1 t (V c main_v24)))
    (win1_0.fill (grid1.coords t) d4 (blk1 t (V c main_v25))) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    change _ ⊢ owns (c : Thread nD τ) (st1_0 t) fullShare (win1_0.fill (grid1.coords t) d0 (win1_0.cut (grid1.coords t)
      (win1_0.fill (grid1.coords t) pad (blk1 t (V c main_v21)))))
    rw [Window.cut_fill]; try iexact H0
  isplitl [H1]
  · iexists d1
    change _ ⊢ owns (c : Thread nD τ) (st1_1 t) fullShare (win1_0.fill (grid1.coords t) d1 (win1_0.cut (grid1.coords t)
      (win1_0.fill (grid1.coords t) pad (blk1 t (V c main_v22)))))
    rw [Window.cut_fill]; try iexact H1
  isplitl [H2]
  · iexists d2
    change _ ⊢ owns (c : Thread nD τ) (st1_2 t) fullShare (win1_0.fill (grid1.coords t) d2 (win1_0.cut (grid1.coords t)
      (win1_0.fill (grid1.coords t) pad (blk1 t (V c main_v23)))))
    rw [Window.cut_fill]; try iexact H2
  isplitl [H3]
  · iexists d3
    change _ ⊢ owns (c : Thread nD τ) (st1_3 t) fullShare (win1_0.fill (grid1.coords t) d3 (win1_0.cut (grid1.coords t)
      (win1_0.fill (grid1.coords t) pad (blk1 t (V c main_v24)))))
    rw [Window.cut_fill]; try iexact H3
  isplitl [H4]
  · iexists d4
    change _ ⊢ owns (c : Thread nD τ) (st1_4 t) fullShare (win1_0.fill (grid1.coords t) d4 (win1_0.cut (grid1.coords t)
      (win1_0.fill (grid1.coords t) pad (blk1 t (V c main_v25)))))
    rw [Window.cut_fill]; try iexact H4
  · iexists linkRhs S3128x128 d0 d1 d2 d3 d4
    change _ ⊢ owns (c : Thread nD τ) (st1_5 t) fullShare (win1_0.fill (grid1.coords t) (linkRhs S3128x128 d0 d1 d2 d3 d4) (win1_0.cut (grid1.coords t)
      (win1_0.fill (grid1.coords t) pad (blk1 t (out1 V c)))))
    rw [Window.cut_fill, out1, ← linkRhs_fill]; try iexact H5

/-- The body obligation of pipeline 1, at every point. -/
theorem body_obligation1 (c : Dev nD) : BodyObligationLoose (dat1 V c) (defs₀ (F := F)) Variants.none () Set.univ := fun t => by
  rw [bigSep_W1, bigSep_W1]
  exact sound_body1 V c t

/-! ## Pipeline 2: the node balance -/

/-- The array region 2 leaves in its output: the node-balance law of its four input arrays. -/
def out2 (c : Dev nD) : S31250x128.Idx → Elt F .f32 := combine S31250x128 (V c main_v51) (V c main_v52) (V c main_v53) (V c main_v54)

/-- The block at point `t` (its rows inside the array) of an array of the region's shape. -/
def blk2 (t : Fin cfg2.N) (A : S31250x128.Idx → Elt F .f32) : (win2_0.xblock (grid2.coords t)).Idx → Elt F .f32 :=
  (win2_0.blk t).view.read (Elt F) A

/-- The proof data of pipeline 2 on core `c`: the arrays as the region finds them; after the body at point `t` each input's
    buffer at its block and the output's at the block of `out2`, each filled out past the array's end with a word nothing
    reads; the generator register and the scoped rest ride along; nothing is owed; full shares. -/
def dat2 (c : Dev nD) : Dat τ (Elt F) Unit ℕ (UR sig nD τ) ℕ cfg2 c where
  A w := V c (Pipeline.arrRef spec2 w)
  after w t := match w with
    | ⟨0, _⟩ => win2_0.fill (grid2.coords t) pad (blk2 t (V c main_v51))
    | ⟨1, _⟩ => win2_0.fill (grid2.coords t) pad (blk2 t (V c main_v52))
    | ⟨2, _⟩ => win2_0.fill (grid2.coords t) pad (blk2 t (V c main_v53))
    | ⟨3, _⟩ => win2_0.fill (grid2.coords t) pad (blk2 t (V c main_v54))
    | ⟨4, _⟩ => win2_0.fill (grid2.coords t) pad (blk2 t (out2 V c))
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body finds in an input's buffer: the block just fetched on the rows inside the array, `d` elsewhere. -/
theorem before2_0 (c : Dev nD) (t : Fin cfg2.N) (d) :
    (dat2 V c).before 0 t d = win2_0.fill (grid2.coords t) d (blk2 t (V c main_v51)) := by
  unfold Dat.before; rw [if_pos (fetch2_0 t)]; rfl
theorem before2_1 (c : Dev nD) (t : Fin cfg2.N) (d) :
    (dat2 V c).before 1 t d = win2_0.fill (grid2.coords t) d (blk2 t (V c main_v52)) := by
  unfold Dat.before; rw [if_pos (fetch2_1 t)]; rfl
theorem before2_2 (c : Dev nD) (t : Fin cfg2.N) (d) :
    (dat2 V c).before 2 t d = win2_0.fill (grid2.coords t) d (blk2 t (V c main_v53)) := by
  unfold Dat.before; rw [if_pos (fetch2_2 t)]; rfl
theorem before2_3 (c : Dev nD) (t : Fin cfg2.N) (d) :
    (dat2 V c).before 3 t d = win2_0.fill (grid2.coords t) d (blk2 t (V c main_v54)) := by
  unfold Dat.before; rw [if_pos (fetch2_3 t)]; rfl

/-- The law of filled-out blocks is the filled-out block of the law of the arrays. -/
theorem combine_fill (t : Fin cfg2.N) (d0 d1 d2 d3 : S3128x128.Idx → Elt F .f32) (A0 A1 A2 A3 : S31250x128.Idx → Elt F .f32) :
    combine S3128x128 (win2_0.fill (grid2.coords t) d0 (blk2 t A0)) (win2_0.fill (grid2.coords t) d1 (blk2 t A1)) (win2_0.fill (grid2.coords t) d2 (blk2 t A2)) (win2_0.fill (grid2.coords t) d3 (blk2 t A3))
      = win2_0.fill (grid2.coords t) (combine S3128x128 d0 d1 d2 d3) (blk2 t (combine S31250x128 A0 A1 A2 A3)) := by
  funext j; unfold combine subf addf divf maximumf broadcast Window.fill; split <;> rfl

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns: each buffer stated on the rows inside the array. -/
def bodyPost2 (c : Dev nD) (t : Fin cfg2.N) : sProp 𝕄 :=
  iprop((dat2 V c).Φ t.succ ∗ (dat2 V c).owesAt () t.succ
    ∗ (∃ d, owns (c : Thread nD τ) (st2_0 t) fullShare ((cfg2.win 0).fill (cfg2.grid.coords t) d ((cfg2.win 0).cut (cfg2.grid.coords t) ((dat2 V c).after 0 t))))
    ∗ (∃ d, owns (c : Thread nD τ) (st2_1 t) fullShare ((cfg2.win 1).fill (cfg2.grid.coords t) d ((cfg2.win 1).cut (cfg2.grid.coords t) ((dat2 V c).after 1 t))))
    ∗ (∃ d, owns (c : Thread nD τ) (st2_2 t) fullShare ((cfg2.win 2).fill (cfg2.grid.coords t) d ((cfg2.win 2).cut (cfg2.grid.coords t) ((dat2 V c).after 2 t))))
    ∗ (∃ d, owns (c : Thread nD τ) (st2_3 t) fullShare ((cfg2.win 3).fill (cfg2.grid.coords t) d ((cfg2.win 3).cut (cfg2.grid.coords t) ((dat2 V c).after 3 t))))
    ∗ (∃ d, owns (c : Thread nD τ) (st2_4 t) fullShare ((cfg2.win 4).fill (cfg2.grid.coords t) d ((cfg2.win 4).cut (cfg2.grid.coords t) ((dat2 V c).after 4 t)))))

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩⟩
  rw [before2_0 V c t d0, before2_1 V c t d1, before2_2 V c t d2, before2_3 V c t d3]
  iapply (sound_combine (F := F) c Set.univ _ _ _ _ _ _ _ _ _ _ _
    (win2_0.fill (grid2.coords t) d0 (blk2 t (V c main_v51)))
    (win2_0.fill (grid2.coords t) d1 (blk2 t (V c main_v52)))
    (win2_0.fill (grid2.coords t) d2 (blk2 t (V c main_v53)))
    (win2_0.fill (grid2.coords t) d3 (blk2 t (V c main_v54))) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists d0
    change _ ⊢ owns (c : Thread nD τ) (st2_0 t) fullShare (win2_0.fill (grid2.coords t) d0 (win2_0.cut (grid2.coords t)
      (win2_0.fill (grid2.coords t) pad (blk2 t (V c main_v51)))))
    rw [Window.cut_fill]; try iexact H0
  isplitl [H1]
  · iexists d1
    change _ ⊢ owns (c : Thread nD τ) (st2_1 t) fullShare (win2_0.fill (grid2.coords t) d1 (win2_0.cut (grid2.coords t)
      (win2_0.fill (grid2.coords t) pad (blk2 t (V c main_v52)))))
    rw [Window.cut_fill]; try iexact H1
  isplitl [H2]
  · iexists d2
    change _ ⊢ owns (c : Thread nD τ) (st2_2 t) fullShare (win2_0.fill (grid2.coords t) d2 (win2_0.cut (grid2.coords t)
      (win2_0.fill (grid2.coords t) pad (blk2 t (V c main_v53)))))
    rw [Window.cut_fill]; try iexact H2
  isplitl [H3]
  · iexists d3
    change _ ⊢ owns (c : Thread nD τ) (st2_3 t) fullShare (win2_0.fill (grid2.coords t) d3 (win2_0.cut (grid2.coords t)
      (win2_0.fill (grid2.coords t) pad (blk2 t (V c main_v54)))))
    rw [Window.cut_fill]; try iexact H3
  · iexists combine S3128x128 d0 d1 d2 d3
    change _ ⊢ owns (c : Thread nD τ) (st2_4 t) fullShare (win2_0.fill (grid2.coords t) (combine S3128x128 d0 d1 d2 d3) (win2_0.cut (grid2.coords t)
      (win2_0.fill (grid2.coords t) pad (blk2 t (out2 V c)))))
    rw [Window.cut_fill, out2, ← combine_fill]; try iexact H4

/-- The body obligation of pipeline 2, at every point. -/
theorem body_obligation2 (c : Dev nD) : BodyObligationLoose (dat2 V c) (defs₀ (F := F)) Variants.none () Set.univ := fun t => by
  rw [bigSep_W2, bigSep_W2]
  exact sound_body2 V c t

end Cert.KernelIdeal.Data

end
-- ==== Proof.KernelIdeal.Run.lean ====
/-
  The run of the whole program: host stretch, region, host stretch, region, host stretch, region, host stretch.

  The buffers' contents at each boundary are a fold from the launch memory: a host stretch applies its operations in
  order; a region leaves each of its windows' arrays at what its write-backs leave (the inputs as found, the output at
  its blocks written back in point order) and every other buffer as it found it. Every weakly fair execution
  terminates, faults nowhere, and ends with every unscoped buffer of every core at the last boundary's contents; no host
  operation and no region writes an argument array, so each ends as launched.
-/
import proofs.«175139_j15341623181950_2_alg».proof.Proof.KernelIdeal.Data

set_option maxRecDepth 16384

noncomputable section

namespace Cert.KernelIdeal.Run

open Cert.KernelIdeal Cert.KernelIdeal.Gen Cert.KernelIdeal.GenP Cert.KernelIdeal.Body Cert.KernelIdeal.Data Cert.Conduit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
abbrev V6 : (c : Dev nD) → (b : Ref sig .tc) → Buf (Elt F) ((c : Thread nD τ).loc b) := fun c b => W6 m ρ c b
/-- After the last host stretch: the end. -/
abbrev W7 : Dev nD → Valuation τ sig (Elt F) := fun c => StableHlo.after hostOps3 (W6 m ρ c)

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## No host stretch and no region writes an argument -/

/-- The references each host stretch writes. -/
abbrev hostOps0_W : List (Ref sig .tc) := [main_v0, main_v1]
abbrev hostOps1_W : List (Ref sig .tc) := [main_v3, main_c, main_v4, main_v5, main_c_0, main_v6, main_v7, main_v8, main_v9, main_v10, main_c_1, main_v11, main_v12, main_c_2, main_v13, main_v14, main_v15, main_v16, main_v17, main_v18, main_cst, main_v19, main_v20, main_v21, main_v22, main_v23, main_v24, main_v25]
abbrev hostOps2_W : List (Ref sig .tc) := [main_v27, main_cst_3, main_v28, main_v29, main_v30, main_v31, main_v32, main_v33, main_v34, main_v35, main_v36, main_v37, main_cst_4, main_v38, main_v39, main_v40, main_cst_5, main_v41, main_v42, main_v43, main_v44, main_v45, main_v46, main_v47, main_v48, main_v49, main_v50, main_v51, main_v52, main_v53, main_v54]
abbrev hostOps3_W : List (Ref sig .tc) := [main_v56]

theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps0_fresh : (hostOps0 : List (HloOp τ sig (Elt F))).Forall fun op => op.fresh = ∅ := by
  simp only [List.Forall]; repeat' constructor

theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps1_fresh : (hostOps1 : List (HloOp τ sig (Elt F))).Forall fun op => op.fresh = ∅ := by
  simp only [List.Forall]; repeat' constructor

theorem hostOps2_writes : (hostOps2 : List (HloOp τ sig (Elt F))).Forall fun op => op.writes ⊆ (hostOps2_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps2_fresh : (hostOps2 : List (HloOp τ sig (Elt F))).Forall fun op => op.fresh = ∅ := by
  simp only [List.Forall]; repeat' constructor

theorem hostOps3_writes : (hostOps3 : List (HloOp τ sig (Elt F))).Forall fun op => op.writes ⊆ (hostOps3_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
theorem hostOps3_fresh : (hostOps3 : List (HloOp τ sig (Elt F))).Forall fun op => op.fresh = ∅ := by
  simp only [List.Forall]; repeat' constructor

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h
theorem W7_of (c : Dev nD) (r : Ref sig .tc) (h : r ∉ hostOps3_W) : W7 m ρ c r = W6 m ρ c r :=
  StableHlo.after_of_writes_sub hostOps3 _ hostOps3_writes h

/-- `main_arg0` reaches the end as launched. -/
theorem W7_main_arg0 (c : Dev nD) : W7 m ρ c (Proc.devRef .tc main_arg0) = m ((c : Thread nD τ).loc main_arg0) :=
  (W7_of m ρ c main_arg0 (by decide)).trans <| (W6_of_ne m ρ c main_arg0 (by decide)).trans <| (W5_of m ρ c main_arg0 (by decide)).trans <|
  (W4_of_ne m ρ c main_arg0 (by decide)).trans <| (W3_of m ρ c main_arg0 (by decide)).trans <| (W2_of_ne m ρ c main_arg0 (by decide)).trans <|
  (W1_of m ρ c main_arg0 (by decide)).trans rfl

/-- `main_arg1` reaches the end as launched. -/
theorem W7_main_arg1 (c : Dev nD) : W7 m ρ c (Proc.devRef .tc main_arg1) = m ((c : Thread nD τ).loc main_arg1) :=
  (W7_of m ρ c main_arg1 (by decide)).trans <| (W6_of_ne m ρ c main_arg1 (by decide)).trans <| (W5_of m ρ c main_arg1 (by decide)).trans <|
  (W4_of_ne m ρ c main_arg1 (by decide)).trans <| (W3_of m ρ c main_arg1 (by decide)).trans <| (W2_of_ne m ρ c main_arg1 (by decide)).trans <|
  (W1_of m ρ c main_arg1 (by decide)).trans rfl

/-- `main_arg2` reaches the end as launched. -/
theorem W7_main_arg2 (c : Dev nD) : W7 m ρ c (Proc.devRef .tc main_arg2) = m ((c : Thread nD τ).loc main_arg2) :=
  (W7_of m ρ c main_arg2 (by decide)).trans <| (W6_of_ne m ρ c main_arg2 (by decide)).trans <| (W5_of m ρ c main_arg2 (by decide)).trans <|
  (W4_of_ne m ρ c main_arg2 (by decide)).trans <| (W3_of m ρ c main_arg2 (by decide)).trans <| (W2_of_ne m ρ c main_arg2 (by decide)).trans <|
  (W1_of m ρ c main_arg2 (by decide)).trans rfl

/-- `main_arg3` reaches the end as launched. -/
theorem W7_main_arg3 (c : Dev nD) : W7 m ρ c (Proc.devRef .tc main_arg3) = m ((c : Thread nD τ).loc main_arg3) :=
  (W7_of m ρ c main_arg3 (by decide)).trans <| (W6_of_ne m ρ c main_arg3 (by decide)).trans <| (W5_of m ρ c main_arg3 (by decide)).trans <|
  (W4_of_ne m ρ c main_arg3 (by decide)).trans <| (W3_of m ρ c main_arg3 (by decide)).trans <| (W2_of_ne m ρ c main_arg3 (by decide)).trans <|
  (W1_of m ρ c main_arg3 (by decide)).trans rfl

/-- `main_arg4` reaches the end as launched. -/
theorem W7_main_arg4 (c : Dev nD) : W7 m ρ c (Proc.devRef .tc main_arg4) = m ((c : Thread nD τ).loc main_arg4) :=
  (W7_of m ρ c main_arg4 (by decide)).trans <| (W6_of_ne m ρ c main_arg4 (by decide)).trans <| (W5_of m ρ c main_arg4 (by decide)).trans <|
  (W4_of_ne m ρ c main_arg4 (by decide)).trans <| (W3_of m ρ c main_arg4 (by decide)).trans <| (W2_of_ne m ρ c main_arg4 (by decide)).trans <|
  (W1_of m ρ c main_arg4 (by decide)).trans rfl

/-- `main_arg5` reaches the end as launched. -/
theorem W7_main_arg5 (c : Dev nD) : W7 m ρ c (Proc.devRef .tc main_arg5) = m ((c : Thread nD τ).loc main_arg5) :=
  (W7_of m ρ c main_arg5 (by decide)).trans <| (W6_of_ne m ρ c main_arg5 (by decide)).trans <| (W5_of m ρ c main_arg5 (by decide)).trans <|
  (W4_of_ne m ρ c main_arg5 (by decide)).trans <| (W3_of m ρ c main_arg5 (by decide)).trans <| (W2_of_ne m ρ c main_arg5 (by decide)).trans <|
  (W1_of m ρ c main_arg5 (by decide)).trans rfl

/-- `main_arg6` reaches the end as launched. -/
theorem W7_main_arg6 (c : Dev nD) : W7 m ρ c (Proc.devRef .tc main_arg6) = m ((c : Thread nD τ).loc main_arg6) :=
  (W7_of m ρ c main_arg6 (by decide)).trans <| (W6_of_ne m ρ c main_arg6 (by decide)).trans <| (W5_of m ρ c main_arg6 (by decide)).trans <|
  (W4_of_ne m ρ c main_arg6 (by decide)).trans <| (W3_of m ρ c main_arg6 (by decide)).trans <| (W2_of_ne m ρ c main_arg6 (by decide)).trans <|
  (W1_of m ρ c main_arg6 (by decide)).trans rfl

/-- `main_arg7` reaches the end as launched. -/
theorem W7_main_arg7 (c : Dev nD) : W7 m ρ c (Proc.devRef .tc main_arg7) = m ((c : Thread nD τ).loc main_arg7) :=
  (W7_of m ρ c main_arg7 (by decide)).trans <| (W6_of_ne m ρ c main_arg7 (by decide)).trans <| (W5_of m ρ c main_arg7 (by decide)).trans <|
  (W4_of_ne m ρ c main_arg7 (by decide)).trans <| (W3_of m ρ c main_arg7 (by decide)).trans <| (W2_of_ne m ρ c main_arg7 (by decide)).trans <|
  (W1_of m ρ c main_arg7 (by decide)).trans rfl

/-- `main_arg8` reaches the end as launched. -/
theorem W7_main_arg8 (c : Dev nD) : W7 m ρ c (Proc.devRef .tc main_arg8) = m ((c : Thread nD τ).loc main_arg8) :=
  (W7_of m ρ c main_arg8 (by decide)).trans <| (W6_of_ne m ρ c main_arg8 (by decide)).trans <| (W5_of m ρ c main_arg8 (by decide)).trans <|
  (W4_of_ne m ρ c main_arg8 (by decide)).trans <| (W3_of m ρ c main_arg8 (by decide)).trans <| (W2_of_ne m ρ c main_arg8 (by decide)).trans <|
  (W1_of m ρ c main_arg8 (by decide)).trans rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `W1`, left at `W2`. Its arrays are split
    out of the unscoped buffers and put back at the exit contents; the generator register goes into the invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := body_obligation0 (V1 m ρ) c
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (V3 m ρ) c
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at the exit contents; the generator register goes into the invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V5 m ρ) c
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 7 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]

/-- The program IS the run of the segments. -/
theorem main_run (c : Dev nD) : main (F := F) c = Pipeline.Seg.run (segs m ρ) := (main_chain c).trans (by chain_rfl)

/-- The last thread state without the dues: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

set_option backward.isDefEq.respectTransparency.types false in
/-- THE RUN, at any float instance: from any memory with zero counters every weakly fair execution of the program on
    the TensorCores terminates, nothing faulting, and in every final state every unscoped buffer of every core holds the
    last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      change iprop(StableHlo.held (c : Thread nD τ) (Pipeline.ucRefs τ sig) (W7 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c)⟩) (run m ρ)

end Cert.KernelIdeal.Run

end
-- ==== Proof.KernelIdeal.Cover.lean ====
/-
  The blocks of an output window tile its array.

  An array of R rows by 128 lanes is written back in blocks of 3128 rows by 128 lanes, block `t` starting at row
  `3128 · t` and spanning every lane; the last block would run past row R and is cut at the array's end. Row `r` of
  the array therefore lies in block `r / 3128`: `3128 · (r / 3128) ≤ r < 3128 · (r / 3128) + 3128`, and `r < R` keeps
  it below the cut of the last block. Each write-back writes the rows of ONE whole-array function read through its
  block, so after the last write-back the array holds that function, block by block, at every index.
-/
import proofs.«175139_j15341623181950_2_alg».proof.Proof.KernelIdeal.Data

set_option maxRecDepth 16384

noncomputable section

namespace Cert.KernelIdeal.Cover

open Cert.KernelIdeal Cert.KernelIdeal.Gen Cert.KernelIdeal.GenP Cert.KernelIdeal.Body Cert.KernelIdeal.Data Cert.Conduit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (V : (c : Dev nD) → (b : Ref sig .tc) → Buf (Elt F) ((c : Thread nD τ).loc b))

/-! ## Pipeline 0 -/

/-- The output window's index map, cuts and block sizes, decided over the grid: block `t` starts at row `3128 · t`,
    lane 0; it has 128 lanes and 3128 rows, but for the last, cut to the rows left in the array. -/
theorem facts0 : ∀ t : Fin cfg0.N, win0_2.index t 0 = t.val ∧ win0_2.index t 1 = 0
    ∧ win0_2.xsize (grid0.coords t) 0 = min 3128 (31250 - t.val * 3128) ∧ win0_2.xsize (grid0.coords t) 1 = 128
    ∧ win0_2.size 0 = 3128 ∧ win0_2.size 1 = 128 :=
  (by decide +kernel : ∀ t : Fin grid0.N, _)

/-- What point `t` writes back is block `t` of the whole-array law (every window of the pipeline has the one index map
    and the one cut, so the output's block is the block the proof data is stated through). -/
theorem flushed0 (c : Dev nD) (t : Fin cfg0.N) :
    (dat0 V c).flushed 2 t = ((cfg0.win 2).blk t).view.read (Elt F) (out0 V c) := by
  change win0_0.cut (grid0.coords t) (win0_0.fill (grid0.coords t) pad (blk0 t (out0 V c))) = _
  rw [Window.cut_fill]
  rfl

/-- An index of the array is in point `t`'s block iff each coordinate is in the block's range, cut, on its axis. -/
theorem mem_blk0 (t : Fin cfg0.N) (i : S31250x128.Idx) :
    i ∈ ((cfg0.win 2).blk t).view.set ↔ ∀ a : Fin 2, win0_2.index t a * win0_2.size a ≤ (i a).val
      ∧ (i a).val < win0_2.index t a * win0_2.size a + win0_2.xsize (grid0.coords t) a := by
  show i ∈ ((View.whole main_v2).slice (win0_2.rect t)).set ↔ _
  rw [View.set_slice_whole, Rect.mem_set_unit]
  exact Iff.rfl

/-- Every index of the array is in the block of the point its row names. -/
theorem cover0 (i : S31250x128.Idx) :
    ∃ t : Fin cfg0.N, (cfg0.win 2).flush t = true ∧ i ∈ ((cfg0.win 2).blk t).view.set := by
  have hi0 : (i 0).val < 31250 := (i 0).isLt
  have hi1 : (i 1).val < 128 := (i 1).isLt
  have hN : cfg0.N = 10 := N_0
  have hq := Nat.div_mul_le_self (i 0).val 3128
  have hr := Nat.lt_div_mul_add (a := (i 0).val) (b := 3128) (by omega)
  refine ⟨⟨(i 0).val / 3128, by omega⟩, flush0_2 _, ?_⟩
  rw [mem_blk0]
  obtain ⟨e0, e1, e2, e3, e4, e5⟩ := facts0 ⟨(i 0).val / 3128, by omega⟩
  intro a
  match a with
  | ⟨0, _⟩ =>
    show win0_2.index _ 0 * win0_2.size 0 ≤ (i 0).val ∧ (i 0).val < win0_2.index _ 0 * win0_2.size 0 + win0_2.xsize _ 0
    rw [e0, e2, e4]; dsimp only; omega
  | ⟨1, _⟩ =>
    show win0_2.index _ 1 * win0_2.size 1 ≤ (i 1).val ∧ (i 1).val < win0_2.index _ 1 * win0_2.size 1 + win0_2.xsize _ 1
    rw [e1, e3, e5]; omega

/-- After the last write-back the output array of pipeline 0 holds the overburden law of the input arrays. -/
theorem arrAt_out0 (c : Dev nD) : (dat0 V c).arrAt 2 cfg0.N = out0 V c :=
  (dat0 V c).arrAt_eq_of_cover 2 (out0 V c) (fun t _ => flushed0 V c t) cover0

/-! ## Pipeline 1 -/

/-- The output window's index map, cuts and block sizes, decided over the grid: block `t` starts at row `3128 · t`,
    lane 0; it has 128 lanes and 3128 rows, but for the last, cut to the rows left in the array. -/
theorem facts1 : ∀ t : Fin cfg1.N, win1_5.index t 0 = t.val ∧ win1_5.index t 1 = 0
    ∧ win1_5.xsize (grid1.coords t) 0 = min 3128 (62500 - t.val * 3128) ∧ win1_5.xsize (grid1.coords t) 1 = 128
    ∧ win1_5.size 0 = 3128 ∧ win1_5.size 1 = 128 :=
  (by decide +kernel : ∀ t : Fin grid1.N, _)

/-- What point `t` writes back is block `t` of the whole-array law (every window of the pipeline has the one index map
    and the one cut, so the output's block is the block the proof data is stated through). -/
theorem flushed1 (c : Dev nD) (t : Fin cfg1.N) :
    (dat1 V c).flushed 5 t = ((cfg1.win 5).blk t).view.read (Elt F) (out1 V c) := by
  change win1_0.cut (grid1.coords t) (win1_0.fill (grid1.coords t) pad (blk1 t (out1 V c))) = _
  rw [Window.cut_fill]
  rfl

/-- An index of the array is in point `t`'s block iff each coordinate is in the block's range, cut, on its axis. -/
theorem mem_blk1 (t : Fin cfg1.N) (i : S62500x128.Idx) :
    i ∈ ((cfg1.win 5).blk t).view.set ↔ ∀ a : Fin 2, win1_5.index t a * win1_5.size a ≤ (i a).val
      ∧ (i a).val < win1_5.index t a * win1_5.size a + win1_5.xsize (grid1.coords t) a := by
  show i ∈ ((View.whole main_v26).slice (win1_5.rect t)).set ↔ _
  rw [View.set_slice_whole, Rect.mem_set_unit]
  exact Iff.rfl

/-- Every index of the array is in the block of the point its row names. -/
theorem cover1 (i : S62500x128.Idx) :
    ∃ t : Fin cfg1.N, (cfg1.win 5).flush t = true ∧ i ∈ ((cfg1.win 5).blk t).view.set := by
  have hi0 : (i 0).val < 62500 := (i 0).isLt
  have hi1 : (i 1).val < 128 := (i 1).isLt
  have hN : cfg1.N = 20 := N_1
  have hq := Nat.div_mul_le_self (i 0).val 3128
  have hr := Nat.lt_div_mul_add (a := (i 0).val) (b := 3128) (by omega)
  refine ⟨⟨(i 0).val / 3128, by omega⟩, flush1_5 _, ?_⟩
  rw [mem_blk1]
  obtain ⟨e0, e1, e2, e3, e4, e5⟩ := facts1 ⟨(i 0).val / 3128, by omega⟩
  intro a
  match a with
  | ⟨0, _⟩ =>
    show win1_5.index _ 0 * win1_5.size 0 ≤ (i 0).val ∧ (i 0).val < win1_5.index _ 0 * win1_5.size 0 + win1_5.xsize _ 0
    rw [e0, e2, e4]; dsimp only; omega
  | ⟨1, _⟩ =>
    show win1_5.index _ 1 * win1_5.size 1 ≤ (i 1).val ∧ (i 1).val < win1_5.index _ 1 * win1_5.size 1 + win1_5.xsize _ 1
    rw [e1, e3, e5]; omega

/-- After the last write-back the output array of pipeline 1 holds the link law of the input arrays. -/
theorem arrAt_out1 (c : Dev nD) : (dat1 V c).arrAt 5 cfg1.N = out1 V c :=
  (dat1 V c).arrAt_eq_of_cover 5 (out1 V c) (fun t _ => flushed1 V c t) cover1

/-! ## Pipeline 2 -/

/-- The output window's index map, cuts and block sizes, decided over the grid: block `t` starts at row `3128 · t`,
    lane 0; it has 128 lanes and 3128 rows, but for the last, cut to the rows left in the array. -/
theorem facts2 : ∀ t : Fin cfg2.N, win2_4.index t 0 = t.val ∧ win2_4.index t 1 = 0
    ∧ win2_4.xsize (grid2.coords t) 0 = min 3128 (31250 - t.val * 3128) ∧ win2_4.xsize (grid2.coords t) 1 = 128
    ∧ win2_4.size 0 = 3128 ∧ win2_4.size 1 = 128 :=
  (by decide +kernel : ∀ t : Fin grid2.N, _)

/-- What point `t` writes back is block `t` of the whole-array law (every window of the pipeline has the one index map
    and the one cut, so the output's block is the block the proof data is stated through). -/
theorem flushed2 (c : Dev nD) (t : Fin cfg2.N) :
    (dat2 V c).flushed 4 t = ((cfg2.win 4).blk t).view.read (Elt F) (out2 V c) := by
  change win2_0.cut (grid2.coords t) (win2_0.fill (grid2.coords t) pad (blk2 t (out2 V c))) = _
  rw [Window.cut_fill]
  rfl

/-- An index of the array is in point `t`'s block iff each coordinate is in the block's range, cut, on its axis. -/
theorem mem_blk2 (t : Fin cfg2.N) (i : S31250x128.Idx) :
    i ∈ ((cfg2.win 4).blk t).view.set ↔ ∀ a : Fin 2, win2_4.index t a * win2_4.size a ≤ (i a).val
      ∧ (i a).val < win2_4.index t a * win2_4.size a + win2_4.xsize (grid2.coords t) a := by
  show i ∈ ((View.whole main_v55).slice (win2_4.rect t)).set ↔ _
  rw [View.set_slice_whole, Rect.mem_set_unit]
  exact Iff.rfl

/-- Every index of the array is in the block of the point its row names. -/
theorem cover2 (i : S31250x128.Idx) :
    ∃ t : Fin cfg2.N, (cfg2.win 4).flush t = true ∧ i ∈ ((cfg2.win 4).blk t).view.set := by
  have hi0 : (i 0).val < 31250 := (i 0).isLt
  have hi1 : (i 1).val < 128 := (i 1).isLt
  have hN : cfg2.N = 10 := N_2
  have hq := Nat.div_mul_le_self (i 0).val 3128
  have hr := Nat.lt_div_mul_add (a := (i 0).val) (b := 3128) (by omega)
  refine ⟨⟨(i 0).val / 3128, by omega⟩, flush2_4 _, ?_⟩
  rw [mem_blk2]
  obtain ⟨e0, e1, e2, e3, e4, e5⟩ := facts2 ⟨(i 0).val / 3128, by omega⟩
  intro a
  match a with
  | ⟨0, _⟩ =>
    show win2_4.index _ 0 * win2_4.size 0 ≤ (i 0).val ∧ (i 0).val < win2_4.index _ 0 * win2_4.size 0 + win2_4.xsize _ 0
    rw [e0, e2, e4]; dsimp only; omega
  | ⟨1, _⟩ =>
    show win2_4.index _ 1 * win2_4.size 1 ≤ (i 1).val ∧ (i 1).val < win2_4.index _ 1 * win2_4.size 1 + win2_4.xsize _ 1
    rw [e1, e3, e5]; omega

/-- After the last write-back the output array of pipeline 2 holds the node-balance law of the input arrays. -/
theorem arrAt_out2 (c : Dev nD) : (dat2 V c).arrAt 4 cfg2.N = out2 V c :=
  (dat2 V c).arrAt_eq_of_cover 4 (out2 V c) (fun t _ => flushed2 V c t) cover2

end Cert.KernelIdeal.Cover

end
-- ==== Proof.HostStageDefs.lean ====
/-
  The host-side stages of the conduit network, as functions of arrays.

  Nodes and links are flat arrays; the lane-wise kernels see them as rows of 128 lanes (the same elements in
  row-major order). Between the kernels the host computes

  * the effective pressure at a link: half the sum of the overburden pressure at the link's head node and at its
    tail node (a negative node index counts from the end);
  * three sums over the links at each node, taken together: the link right-hand side, the constant one, and the
    water flux (with its sign reversed on the tail side) are laid side by side as three columns, scattered with
    addition by rows at the head indices and at the tail indices, the two results added, and the three columns cut
    back out.
-/
import proofs.«175139_j15341623181950_2_alg».proof.Proof.Gen.KernelIdeal
import proofs.«175139_j15341623181950_2_alg».proof.Proof.Pointwise

noncomputable section

namespace Cert.ConduitHost

open Idealize.ShloMosaic Cert.KernelIdeal Cert.KernelIdeal.Gen

variable {F : FTy → Type} [FloatOps F]

/-! ## Flat arrays as rows of 128 lanes, and back -/

/-- A node array as 31250 rows of 128 lanes. -/
def nodeRows (x : FVec F S4000000 .f32) : FVec F S31250x128 .f32 :=
  shapeCast S31250x128 x shapeCasts_S4000000_S31250x128

/-- Rows of 128 lanes as a flat node array. -/
def nodeFlat (x : FVec F S31250x128 .f32) : FVec F S4000000 .f32 :=
  shapeCast S4000000 x shapeCasts_S31250x128_S4000000

/-- A link array as 62500 rows of 128 lanes. -/
def linkRows (x : FVec F S8000000 .f32) : FVec F S62500x128 .f32 :=
  shapeCast S62500x128 x shapeCasts_S8000000_S62500x128

/-- Rows of 128 lanes as a flat link array. -/
def linkFlat (x : FVec F S62500x128 .f32) : FVec F S8000000 .f32 :=
  shapeCast S8000000 x shapeCasts_S62500x128_S8000000

/-! ## The effective pressure at the links -/

/-- Node indices as a column of start indices: a negative index has the number of nodes added. -/
def wrapIdx (a : IVec S8000000 32) : IVec S8000000x1 32 :=
  broadcastInDim S8000000x1 ![0] bcast_S8000000_S8000000x1_0
    (select (cmpi .slt a (broadcastInDim S8000000 ![] bcast_S_S8000000 (constantI S_ 32 0#32)))
      (addi a (broadcastInDim S8000000 ![] bcast_S_S8000000 (constantI S_ 32 4000000#32))) a)

/-- Half the sum of a node array read at the links' head nodes and at their tail nodes. -/
def linkMean (ov : FVec F S4000000 .f32) (hd tl : IVec S8000000 32) : FVec F S8000000 .f32 :=
  mulf (broadcastInDim S8000000 ![] bcast_S_S8000000 (constant S_ .f32 0x3F000000#32))
    (addf (Host.gather gather_S4000000_S8000000x1_S8000000_n_0_n_n_0_1_1 ov (wrapIdx hd))
      (Host.gather gather_S4000000_S8000000x1_S8000000_n_0_n_n_0_1_1 ov (wrapIdx tl)))

/-! ## The three sums at the nodes -/

/-- A link array as one column. -/
def asColumn (x : FVec F S8000000 .f32) : FVec F S8000000x1 .f32 :=
  broadcastInDim S8000000x1 ![0] bcast_S8000000_S8000000x1_0 x

/-- Node indices as a column of scatter indices (no wrap: an index outside the nodes lands nowhere). -/
def idxColumn (a : IVec S8000000 32) : IVec S8000000x1 32 :=
  broadcastInDim S8000000x1 ![0] bcast_S8000000_S8000000x1_0 a

/-- The constant one at every link. -/
def linkOnes : FVec F S8000000 .f32 :=
  broadcastInDim S8000000 ![] bcast_S_S8000000 (constant S_ .f32 0x3F800000#32)

/-- Three link arrays side by side, as three columns. -/
def threeColumns (a b c : FVec F S8000000 .f32) : FVec F S8000000x3 .f32 :=
  concatenate S8000000x3 1 [⟨S8000000x1, asColumn a⟩, ⟨S8000000x1, asColumn b⟩, ⟨S8000000x1, asColumn c⟩]
    concatenates_S8000000x1_S8000000x1_S8000000x1_S8000000x3_d1

/-- Rows of three columns summed into the nodes named by a column of indices, from zero. -/
def scatterRows (idx : IVec S8000000 32) (u : FVec F S8000000x3 .f32) : FVec F S4000000x3 .f32 :=
  Host.scatterAdd scatter_S4000000x3_S8000000x1_S8000000x3_1_0_0_1
    (broadcastInDim S4000000x3 ![] bcast_S_S4000000x3 (constant S_ .f32 0x00000000#32)) (idxColumn idx) u

/-- The three sums at the nodes, as three columns: head side (rhs, one, flux) plus tail side (rhs, one, −flux). -/
def nodeSums (rhs q : FVec F S8000000 .f32) (hd tl : IVec S8000000 32) : FVec F S4000000x3 .f32 :=
  addf (scatterRows hd (threeColumns rhs linkOnes q)) (scatterRows tl (threeColumns rhs linkOnes (Host.negf q)))

/-- Column 0 of the node sums: the summed link right-hand sides. -/
def sumColumn0 (x : FVec F S4000000x3 .f32) : FVec F S4000000 .f32 :=
  shapeCast S4000000 (extractStridedSlice S4000000x1 ![0, 0] x slices_S4000000x3_S4000000x1_0_0) shapeCasts_S4000000x1_S4000000

/-- Column 1 of the node sums: the number of links at the node. -/
def sumColumn1 (x : FVec F S4000000x3 .f32) : FVec F S4000000 .f32 :=
  shapeCast S4000000 (extractStridedSlice S4000000x1 ![0, 1] x slices_S4000000x3_S4000000x1_0_1) shapeCasts_S4000000x1_S4000000

/-- Column 2 of the node sums: the net flux. -/
def sumColumn2 (x : FVec F S4000000x3 .f32) : FVec F S4000000 .f32 :=
  shapeCast S4000000 (extractStridedSlice S4000000x1 ![0, 2] x slices_S4000000x3_S4000000x1_0_2) shapeCasts_S4000000x1_S4000000

end Cert.ConduitHost

end
-- ==== Proof.HostStages.lean ====
/-
  What each stretch of host operations of the kernel program leaves in the arrays the next lane-wise kernel reads,
  from any starting contents: each array is the corresponding stage (HostStageDefs) of the starting contents.
-/
import proofs.«175139_j15341623181950_2_alg».proof.Proof.KernelIdeal.LaunchP
import proofs.«175139_j15341623181950_2_alg».proof.Proof.HostStageDefs
import Idealize.ShloMosaic.Lib.StableHlo.Run
import Idealize.ShloMosaic.Lib.Tactic

noncomputable section

namespace Cert.ConduitHost

open Idealize.ShloMosaic Idealize.ShloMosaic.StableHlo Cert.KernelIdeal Cert.KernelIdeal.Gen Cert.KernelIdeal.GenP

variable {F : FTy → Type} [FloatOps F]

/-- A three-operand operation's result, with each operand's contents at its own array. -/
theorem nary3_result {sig : RefSig} {τ : Topo} {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-! ## Before the first kernel -/

theorem after0_v0 (W : Valuation τ sig (Elt F)) :
    StableHlo.after (hostOps0 (F := F)) W (Proc.devRef .tc main_v0) = nodeRows (W (Proc.devRef .tc main_arg0)) := by
  after_results; rfl

theorem after0_v1 (W : Valuation τ sig (Elt F)) :
    StableHlo.after (hostOps0 (F := F)) W (Proc.devRef .tc main_v1) = nodeRows (W (Proc.devRef .tc main_arg1)) := by
  after_results; rfl

/-- The same lemma in the form a simplifier pass can use. -/
theorem nary3_result' {sig : RefSig} {τ : Topo} {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- The results of a line of host operations in one simplifier pass, a three-operand operation's operands included. -/
macro "after_results3" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

/-! ## Between the first kernel and the second: the effective pressure, and the link arrays as rows -/

theorem after1_v21 (W : Valuation τ sig (Elt F)) :
    StableHlo.after (hostOps1 (F := F)) W (Proc.devRef .tc main_v21)
      = linkRows (linkMean (nodeFlat (W (Proc.devRef .tc main_v2))) (W (Proc.devRef .tc main_arg7)) (W (Proc.devRef .tc main_arg8))) := by
  after_results_simp; rfl

theorem after1_v22 (W : Valuation τ sig (Elt F)) :
    StableHlo.after (hostOps1 (F := F)) W (Proc.devRef .tc main_v22) = linkRows (W (Proc.devRef .tc main_arg6)) := by
  after_results; rfl

theorem after1_v23 (W : Valuation τ sig (Elt F)) :
    StableHlo.after (hostOps1 (F := F)) W (Proc.devRef .tc main_v23) = linkRows (W (Proc.devRef .tc main_arg5)) := by
  after_results; rfl

theorem after1_v24 (W : Valuation τ sig (Elt F)) :
    StableHlo.after (hostOps1 (F := F)) W (Proc.devRef .tc main_v24) = linkRows (W (Proc.devRef .tc main_arg3)) := by
  after_results; rfl

theorem after1_v25 (W : Valuation τ sig (Elt F)) :
    StableHlo.after (hostOps1 (F := F)) W (Proc.devRef .tc main_v25) = linkRows (W (Proc.devRef .tc main_arg4)) := by
  after_results; rfl

/-! ## Between the second kernel and the third: the three sums at the nodes, as rows -/

theorem after2_v51 (W : Valuation τ sig (Elt F)) :
    StableHlo.after (hostOps2 (F := F)) W (Proc.devRef .tc main_v51)
      = nodeRows (sumColumn0 (nodeSums (linkFlat (W (Proc.devRef .tc main_v26))) (W (Proc.devRef .tc main_arg6))
          (W (Proc.devRef .tc main_arg7)) (W (Proc.devRef .tc main_arg8)))) := by
  after_results3; rfl

theorem after2_v52 (W : Valuation τ sig (Elt F)) :
    StableHlo.after (hostOps2 (F := F)) W (Proc.devRef .tc main_v52)
      = nodeRows (sumColumn1 (nodeSums (linkFlat (W (Proc.devRef .tc main_v26))) (W (Proc.devRef .tc main_arg6))
          (W (Proc.devRef .tc main_arg7)) (W (Proc.devRef .tc main_arg8)))) := by
  after_results3; rfl

theorem after2_v53 (W : Valuation τ sig (Elt F)) :
    StableHlo.after (hostOps2 (F := F)) W (Proc.devRef .tc main_v53)
      = nodeRows (sumColumn2 (nodeSums (linkFlat (W (Proc.devRef .tc main_v26))) (W (Proc.devRef .tc main_arg6))
          (W (Proc.devRef .tc main_arg7)) (W (Proc.devRef .tc main_arg8)))) := by
  after_results3; rfl

theorem after2_v54 (W : Valuation τ sig (Elt F)) :
    StableHlo.after (hostOps2 (F := F)) W (Proc.devRef .tc main_v54) = nodeRows (W (Proc.devRef .tc main_arg2)) := by
  after_results3; rfl

/-! ## After the last kernel -/

theorem after3_v56 (W : Valuation τ sig (Elt F)) :
    StableHlo.after (hostOps3 (F := F)) W (Proc.devRef .tc main_v56) = nodeFlat (W (Proc.devRef .tc main_v55)) := by
  after_results; rfl

end Cert.ConduitHost

end
-- ==== Proof.KernelFunction.lean ====
/-
  The kernel program as one function of its nine argument arrays: the three lane-wise laws on rows of 128 lanes,
  joined by the host stages; and the same function written on the flat arrays.

  A reshape only renames indices, so a lane-wise law of reshaped arrays is the reshaped law of the arrays, and a
  reshape there and back is the identity: all reshapes cancel, and what is left is the three laws on flat arrays
  around the effective pressure at the links and the three sums at the nodes.
-/
import proofs.«175139_j15341623181950_2_alg».proof.Proof.HostStageDefs
import Idealize.ShloMosaic.Lib.Pipeline.Value

noncomputable section

namespace Cert.ConduitHost

open Idealize.ShloMosaic Cert.KernelIdeal Cert.KernelIdeal.Gen

variable {F : FTy → Type} [FloatOps F]

/-! ## On rows of 128 lanes, as the program computes it -/

/-- The first kernel's result: the overburden pressure of the node arrays as rows. -/
def overburdenRows (a0 a1 : FVec F S4000000 .f32) : FVec F S31250x128 .f32 :=
  Cert.Conduit.overburden S31250x128 (nodeRows a0) (nodeRows a1)

/-- The second kernel's result from the first kernel's: the link right-hand side, as rows. -/
def linkRhsRows (ov : FVec F S31250x128 .f32) (a3 a4 a5 a6 : FVec F S8000000 .f32) (a7 a8 : IVec S8000000 32) :
    FVec F S62500x128 .f32 :=
  Cert.Conduit.linkRhs S62500x128 (linkRows (linkMean (nodeFlat ov) a7 a8)) (linkRows a6) (linkRows a5) (linkRows a3)
    (linkRows a4)

/-- The third kernel's result from the second kernel's: the node balance, as rows. -/
def combineRows (rhs : FVec F S62500x128 .f32) (a2 : FVec F S4000000 .f32) (a6 : FVec F S8000000 .f32)
    (a7 a8 : IVec S8000000 32) : FVec F S31250x128 .f32 :=
  Cert.Conduit.combine S31250x128 (nodeRows (sumColumn0 (nodeSums (linkFlat rhs) a6 a7 a8)))
    (nodeRows (sumColumn1 (nodeSums (linkFlat rhs) a6 a7 a8))) (nodeRows (sumColumn2 (nodeSums (linkFlat rhs) a6 a7 a8)))
    (nodeRows a2)

/-- THE KERNEL PROGRAM'S RESULT as a function of its arguments. -/
def kernelFn (a0 a1 a2 : FVec F S4000000 .f32) (a3 a4 a5 a6 : FVec F S8000000 .f32) (a7 a8 : IVec S8000000 32) :
    FVec F S4000000 .f32 :=
  nodeFlat (combineRows (linkRhsRows (overburdenRows a0 a1) a3 a4 a5 a6 a7 a8) a2 a6 a7 a8)

/-! ## On flat arrays -/

/-- The link right-hand side on flat arrays. -/
def linkRhsFlat (a0 a1 : FVec F S4000000 .f32) (a3 a4 a5 a6 : FVec F S8000000 .f32) (a7 a8 : IVec S8000000 32) :
    FVec F S8000000 .f32 :=
  Cert.Conduit.linkRhs S8000000 (linkMean (Cert.Conduit.overburden S4000000 a0 a1) a7 a8) a6 a5 a3 a4

/-- The node balance on flat arrays, from the three columns of node sums. -/
def kernelFlat (a0 a1 a2 : FVec F S4000000 .f32) (a3 a4 a5 a6 : FVec F S8000000 .f32) (a7 a8 : IVec S8000000 32) :
    FVec F S4000000 .f32 :=
  Cert.Conduit.combine S4000000 (sumColumn0 (nodeSums (linkRhsFlat a0 a1 a3 a4 a5 a6 a7 a8) a6 a7 a8))
    (sumColumn1 (nodeSums (linkRhsFlat a0 a1 a3 a4 a5 a6 a7 a8) a6 a7 a8))
    (sumColumn2 (nodeSums (linkRhsFlat a0 a1 a3 a4 a5 a6 a7 a8) a6 a7 a8)) a2

theorem nodeFlat_nodeRows (x : FVec F S4000000 .f32) : nodeFlat (nodeRows x) = x :=
  shapeCast_shapeCast x _ _

theorem linkFlat_linkRows (x : FVec F S8000000 .f32) : linkFlat (linkRows x) = x :=
  shapeCast_shapeCast x _ _

/-- The overburden of rows is the rows of the overburden. -/
theorem overburdenRows_eq (a0 a1 : FVec F S4000000 .f32) :
    overburdenRows a0 a1 = nodeRows (Cert.Conduit.overburden S4000000 a0 a1) := rfl

/-- The link right-hand side of rows is the rows of the link right-hand side. -/
theorem linkRhs_linkRows (e q g v a : FVec F S8000000 .f32) :
    Cert.Conduit.linkRhs S62500x128 (linkRows e) (linkRows q) (linkRows g) (linkRows v) (linkRows a)
      = linkRows (Cert.Conduit.linkRhs S8000000 e q g v a) := rfl

/-- The node balance of rows is the rows of the node balance. -/
theorem combine_nodeRows (l n f w : FVec F S4000000 .f32) :
    Cert.Conduit.combine S31250x128 (nodeRows l) (nodeRows n) (nodeRows f) (nodeRows w)
      = nodeRows (Cert.Conduit.combine S4000000 l n f w) := rfl

/-- All reshapes cancel: the kernel program's function is the flat one. -/
theorem kernelFn_eq_flat (a0 a1 a2 : FVec F S4000000 .f32) (a3 a4 a5 a6 : FVec F S8000000 .f32) (a7 a8 : IVec S8000000 32) :
    kernelFn a0 a1 a2 a3 a4 a5 a6 a7 a8 = kernelFlat a0 a1 a2 a3 a4 a5 a6 a7 a8 := by
  unfold kernelFn combineRows linkRhsRows
  rw [overburdenRows_eq, nodeFlat_nodeRows, linkRhs_linkRows, linkFlat_linkRows, combine_nodeRows, nodeFlat_nodeRows]
  rfl

end Cert.ConduitHost

end
-- ==== Proof.KernelIdeal.Whole.lean ====
/-
  The idealized kernel's result as ONE function of the launch arguments.

  Following the boundary contents through the program: the first region leaves the overburden law of the reshaped
  thickness and pressure; the host gathers it at the links' two ends and averages; the second region leaves the link law of
  that and the reshaped link arrays; the host sums it, a column of ones and the signed water flux into the nodes; the third
  region leaves the node balance of those sums and the reshaped meltwater input; the last reshape flattens it. An
  argument's buffer is never written, so wherever a stretch reads one it reads the launch contents.
-/
import proofs.«175139_j15341623181950_2_alg».proof.Proof.KernelIdeal.Run
import proofs.«175139_j15341623181950_2_alg».proof.Proof.KernelIdeal.Cover
import proofs.«175139_j15341623181950_2_alg».proof.Proof.HostStages
import proofs.«175139_j15341623181950_2_alg».proof.Proof.KernelFunction

set_option maxRecDepth 16384

noncomputable section

namespace Cert.KernelIdeal.Whole

open Cert.KernelIdeal Cert.KernelIdeal.Gen Cert.KernelIdeal.GenP Cert.KernelIdeal.Data Cert.KernelIdeal.Run Cert.KernelIdeal.Cover
open Cert.Conduit Cert.ConduitHost
open Idealize.ShloMosaic Idealize.ShloMosaic.TcCoe Idealize.SL.Sem

variable {F : FTy → Type} [FloatOps F]
variable (m : (ℓ : Loc nD τ sig) → Buf (Elt F) ℓ) (ρ : Dev nD → PrngReg)

/-- An argument's buffer when region 1 is entered holds its launch contents. -/
theorem W2_arg (c : Dev nD) (a : Ref sig .tc) (h0 : a ∉ hostOps0_W) (h2 : ∀ w, Pipeline.arrRef spec0 w ≠ a) :
    W2 m ρ c (Proc.devRef .tc a) = m ((c : Thread nD τ).loc a) :=
  (W2_of_ne m ρ c a h2).trans ((W1_of m ρ c a h0).trans rfl)

/-- An argument's buffer when region 2 is entered holds its launch contents. -/
theorem W4_arg (c : Dev nD) (a : Ref sig .tc) (h0 : a ∉ hostOps0_W) (h2 : ∀ w, Pipeline.arrRef spec0 w ≠ a)
    (h1 : a ∉ hostOps1_W) (h4 : ∀ w, Pipeline.arrRef spec1 w ≠ a) :
    W4 m ρ c (Proc.devRef .tc a) = m ((c : Thread nD τ).loc a) :=
  (W4_of_ne m ρ c a h4).trans ((W3_of m ρ c a h1).trans (W2_arg m ρ c a h0 h2))

/-- Region 0 leaves the overburden of the reshaped thickness and pressure. -/
theorem W2_v2 (c : Dev nD) : W2 m ρ c (Proc.devRef .tc main_v2)
    = overburdenRows (m ((c : Thread nD τ).loc main_arg0)) (m ((c : Thread nD τ).loc main_arg1)) := by
  refine (W2_arr m ρ c 2).trans ?_
  rw [arrAt_out0 (V1 m ρ) c]
  show overburden S31250x128 (StableHlo.after hostOps0 (W0 m ρ c) (Proc.devRef .tc main_v0))
    (StableHlo.after hostOps0 (W0 m ρ c) (Proc.devRef .tc main_v1)) = _
  rw [after0_v0, after0_v1]
  rfl

/-- Region 1 leaves the link law of the averaged overburden and the reshaped link arrays. -/
theorem W4_v26 (c : Dev nD) : W4 m ρ c (Proc.devRef .tc main_v26)
    = linkRhsRows (overburdenRows (m ((c : Thread nD τ).loc main_arg0)) (m ((c : Thread nD τ).loc main_arg1)))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (W4_arr m ρ c 5).trans ?_
  rw [arrAt_out1 (V3 m ρ) c]
  show linkRhs S62500x128 (StableHlo.after hostOps1 (W2 m ρ c) (Proc.devRef .tc main_v21))
    (StableHlo.after hostOps1 (W2 m ρ c) (Proc.devRef .tc main_v22)) (StableHlo.after hostOps1 (W2 m ρ c) (Proc.devRef .tc main_v23))
    (StableHlo.after hostOps1 (W2 m ρ c) (Proc.devRef .tc main_v24)) (StableHlo.after hostOps1 (W2 m ρ c) (Proc.devRef .tc main_v25)) = _
  rw [after1_v21, after1_v22, after1_v23, after1_v24, after1_v25, W2_v2,
    W2_arg m ρ c main_arg3 (by decide) (by decide), W2_arg m ρ c main_arg4 (by decide) (by decide),
    W2_arg m ρ c main_arg5 (by decide) (by decide), W2_arg m ρ c main_arg6 (by decide) (by decide),
    W2_arg m ρ c main_arg7 (by decide) (by decide), W2_arg m ρ c main_arg8 (by decide) (by decide)]
  rfl

/-- Region 2 leaves the node balance of the three node sums and the reshaped meltwater input. -/
theorem W6_v55 (c : Dev nD) : W6 m ρ c (Proc.devRef .tc main_v55)
    = combineRows (linkRhsRows (overburdenRows (m ((c : Thread nD τ).loc main_arg0)) (m ((c : Thread nD τ).loc main_arg1)))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)))
        (m ((c : Thread nD τ).loc main_arg2)) (m ((c : Thread nD τ).loc main_arg6)) (m ((c : Thread nD τ).loc main_arg7))
        (m ((c : Thread nD τ).loc main_arg8)) := by
  refine (W6_arr m ρ c 4).trans ?_
  rw [arrAt_out2 (V5 m ρ) c]
  show combine S31250x128 (StableHlo.after hostOps2 (W4 m ρ c) (Proc.devRef .tc main_v51))
    (StableHlo.after hostOps2 (W4 m ρ c) (Proc.devRef .tc main_v52)) (StableHlo.after hostOps2 (W4 m ρ c) (Proc.devRef .tc main_v53))
    (StableHlo.after hostOps2 (W4 m ρ c) (Proc.devRef .tc main_v54)) = _
  rw [after2_v51, after2_v52, after2_v53, after2_v54, W4_v26,
    W4_arg m ρ c main_arg2 (by decide) (by decide) (by decide) (by decide),
    W4_arg m ρ c main_arg6 (by decide) (by decide) (by decide) (by decide),
    W4_arg m ρ c main_arg7 (by decide) (by decide) (by decide) (by decide),
    W4_arg m ρ c main_arg8 (by decide) (by decide) (by decide) (by decide)]
  rfl

/-- THE RESULT: at the end the result buffer holds the kernel's whole function of the launch arguments. -/
theorem W7_v56 (c : Dev nD) : W7 m ρ c (Proc.devRef .tc main_v56)
    = kernelFn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  show StableHlo.after hostOps3 (W6 m ρ c) (Proc.devRef .tc main_v56) = _
  rw [after3_v56, W6_v55]
  rfl

/-- The run with the result named: every execution ends with the result buffer at the kernel's whole function of the
    launch arguments and every argument as launched. -/
theorem run_value : θ_run defs (onTc (τ := τ) (main (F := F))) ⟨m, fun _ => 0, ρ⟩ (fun r => ∀ c : Dev nD,
      r.2.mem ((c.tc : Thread nD τ).loc main_v56)
        = kernelFn (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v56 (by decide))).trans (W7_v56 m ρ c),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c)⟩) (run m ρ)

end Cert.KernelIdeal.Whole

end
-- ==== Proof.FiniteFlux.lean ====
/-
  The water flux is finite under the precondition.

  The precondition says of each float argument array that every entry's absolute value is below +∞ (one comparison
  per entry, all of them true: a conjunction over the array, and the conjunction of the seven arrays' results). An
  extended real whose absolute value max(x, −x) is below +∞ is neither infinity: it is a real number. Only the water
  flux's part is read here; it is the one the sign change across a sum needs.
-/
import proofs.«175139_j15341623181950_2_alg».proof.Defs
import proofs.«175139_j15341623181950_2_alg».proof.Proof.Gen.Pre_finite_inputs
import Idealize.ShloMosaic.Lib.ReduceAll
import Idealize.ShloMosaic.Lib.ValueIdx

noncomputable section

namespace Cert.ConduitFinite

open Idealize.ShloMosaic Idealize.ShloMosaic.ValueIdx Idealize.SL.Sem Cert.Pre_finite_inputs Cert.Pre_finite_inputs.Gen

/-- An extended real whose absolute value compares below the pattern of +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by
    simp [Ideal.ofBits, Ideal.ieee]
  rw [htop] at h
  induction x using EReal.rec with
  | bot => simp [Ideal.cmp] at h
  | coe r => exact ⟨r, rfl⟩
  | top => simp [Ideal.cmp] at h

/-- If the finiteness predicate of the nine arguments is true, every entry of the water flux (argument 6) is a
    real number: the predicate is a conjunction whose last conjunct is "every entry of argument 6 is finite". -/
theorem flux_real_of_finite_inputs (a0 a1 a2 : FVec Ideal S4000000 .f32) (a3 a4 a5 a6 : FVec Ideal S8000000 .f32)
    (a7 a8 : IVec S8000000 32) (h : fn (F := Ideal) a0 a1 a2 a3 a4 a5 a6 a7 a8 = fun _ => 1#1) (i : S8000000.Idx) :
    ∃ r : ℝ, a6 i = (r : EReal) := by
  -- the scalar shape has one index
  haveI : Subsingleton S_.Idx := ⟨fun a b => funext fun d => d.elim0⟩
  have h0 := congrFun h ix0
  dsimp only [fn, fn_part1] at h0
  have h1 := (IntOp.andi_eq_one.1 h0).2
  have h2 := Host.reduce_andi_all _ _ _ _ ix0 h1 i
  exact real_of_abs_lt_top (a6 i) h2

/-- Under the kernel program's precondition the water flux in the launch memory is real at every entry, on every
    device. -/
theorem flux_real (m : (ℓ : Loc Cert.KernelIdeal.nD Cert.KernelIdeal.τ Cert.KernelIdeal.sig) → Buf (Elt Ideal) ℓ)
    (h : Cert.Pre_KernelIdeal m) (c : Dev Cert.KernelIdeal.nD)
    (i : Cert.KernelIdeal.S8000000.Idx) :
    ∃ r : ℝ, m ((c.tc : Thread Cert.KernelIdeal.nD Cert.KernelIdeal.τ).loc Cert.KernelIdeal.main_arg6) i = (r : EReal) :=
  flux_real_of_finite_inputs _ _ _ _ _ _ _ _ _ (h c) i

end Cert.ConduitFinite

end
-- ==== Proof.LibColumns.lean ====
/-
  Rows and columns: two facts about arrays whose columns are laid side by side.

  All arrays are rank 2. An update array of `E` rows is scattered into an array of `N` rows by a column `I` of
  row indices (one signed integer per update row, `I (e, 0)`): update element `(e, g)` is added at `(I e, g)`,
  and dropped when `I e` is not a row of the target. A gather reads the other way: result element `(e, g)` is
  the operand at `(J e, g)`, with `J e` brought into `[0, N − 1]`. Both act on each column on its own. Hence:

  * scattering (with addition, on the extended reals) two arrays laid side by side and then cutting the result
    back into its two column ranges gives the two scatters of the two arrays;
  * gathering rows of two arrays laid side by side and then cutting gives the two gathers.

  The dimension numbers are the records `rowScatter` and `rowGather` below, whose side conditions are a
  parameter: any record with the same lists is one of them by `rfl`.
-/
import Idealize.ShloMosaic.PureOps.Ideal
import Idealize.ShloMosaic.PureOps.ShapeOps
import Idealize.ShloMosaic.PureOps.Dims
import Idealize.ShloMosaic.PureOps.Contract
import Idealize.ShloMosaic.Lib.ValueIdx
import Idealize.ShloMosaic.Lib.Pipeline.Value

noncomputable section

open scoped BigOperators

namespace Cert.LibColumns

open Idealize.ShloMosaic Idealize.ShloMosaic.ValueIdx

/-! ## Scattering rows -/

/-- The dimension numbers of a row scatter: updates `[E, C]` go into an operand `[N, C]` at the rows named by
    scatter indices `[E, 1]` — the updates' axis 1 is the window axis, the operand's axis 0 is inserted and is the
    one the index names, the index vector lies along axis 1 of the indices. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (I : IVec ⟨2, ![E, 1]⟩ w)

/-- On the row axis the window of update `(e, g)` starts at the signed value of the index `I (e, 0)`. -/
theorem rowScatter_start_row (e : Fin E) (g : Fin C) :
    (rowScatter N E C wf).start (ix2 e g) I 0 = (I (ix2 e (0 : Fin 1))).toInt := by
  unfold ScatterDims.start
  rw [dif_pos (show (0 : Fin 2) ∈ (rowScatter N E C wf).scatterDimsToOperandDims from List.mem_singleton.mpr rfl)]
  congr 2
  funext b
  refine Fin.ext ?_
  match b with
  | ⟨0, _⟩ => rfl
  | ⟨1, _⟩ => rfl

/-- On the column axis every window starts at 0. -/
theorem rowScatter_start_col (e : Fin E) (g : Fin C) :
    (rowScatter N E C wf).start (ix2 e g) I 1 = 0 := by
  unfold ScatterDims.start
  rw [dif_neg (show (1 : Fin 2) ∉ ([0] : List (Fin 2)) by simp)]

/-- The row axis is inserted: the window coordinate there is 0. -/
theorem rowScatter_window_row (e : Fin E) (g : Fin C) :
    (rowScatter N E C wf).window (ix2 e g) 0 = 0 := by
  unfold ScatterDims.window
  rw [dif_neg (show (0 : Fin 2) ∉ Shape.kept ⟨2, ![N, C]⟩ [0] by simp [Shape.kept])]

/-- On the column axis the window coordinate of update `(e, g)` is `g`. -/
theorem rowScatter_window_col (e : Fin E) (g : Fin C) :
    (rowScatter N E C wf).window (ix2 e g) 1 = g.val := by
  unfold ScatterDims.window
  rw [dif_pos (show (1 : Fin 2) ∈ Shape.kept ⟨2, ![N, C]⟩ [0] by simp [Shape.kept])]
  rfl

/-- Update `(e, g)` lands on `(n, f)` exactly when its index is `n` and `g = f`. -/
theorem rowScatter_resultIdx?_eq_some_iff (e : Fin E) (g : Fin C) (n : Fin N) (f : Fin C) :
    (rowScatter N E C wf).resultIdx? (ix2 e g) I = some (ix2 n f)
      ↔ (I (ix2 e (0 : Fin 1))).toInt = (n.val : Int) ∧ g = f := by
  have hs0 := rowScatter_start_row wf I e g
  have hs1 := rowScatter_start_col wf I e g
  have hw0 := rowScatter_window_row wf e g
  have hw1 := rowScatter_window_col wf e g
  unfold ScatterDims.resultIdx?
  by_cases h : ∀ a : Fin 2, 0 ≤ (rowScatter N E C wf).start (ix2 e g) I a + ((rowScatter N E C wf).window (ix2 e g) a : Int)
      ∧ (rowScatter N E C wf).start (ix2 e g) I a + ((rowScatter N E C wf).window (ix2 e g) a : Int)
        < ((⟨2, ![N, C]⟩ : Shape).size a : Int)
  · rw [dif_pos h]
    have h0 := h 0
    rw [hs0, hw0] at h0
    constructor
    · intro hh
      have hh' := Option.some.inj hh
      have e0 := congrArg (fun k => (k 0).val) hh'
      have e1 := congrArg (fun k => (k 1).val) hh'
      simp only [hs0, hw0, hs1, hw1] at e0 e1
      refine ⟨?_, Fin.ext ?_⟩
      · have : ((I (ix2 e (0 : Fin 1))).toInt + ((0 : Nat) : Int)).toNat = n.val := e0
        omega
      · have : ((0 : Int) + (g.val : Int)).toNat = f.val := e1
        omega
    · rintro ⟨ht, rfl⟩
      congr 1
      funext a
      refine Fin.ext ?_
      match a with
      | ⟨0, _⟩ =>
        show ((rowScatter N E C wf).start (ix2 e g) I 0 + ((rowScatter N E C wf).window (ix2 e g) 0 : Int)).toNat = n.val
        rw [hs0, hw0]; omega
      | ⟨1, _⟩ =>
        show ((rowScatter N E C wf).start (ix2 e g) I 1 + ((rowScatter N E C wf).window (ix2 e g) 1 : Int)).toNat = g.val
        rw [hs1, hw1]; omega
  · rw [dif_neg h]
    constructor
    · intro hh; exact absurd hh (by simp)
    · rintro ⟨ht, rfl⟩
      exfalso
      apply h
      intro a
      match a with
      | ⟨0, _⟩ =>
        show 0 ≤ (rowScatter N E C wf).start (ix2 e g) I 0 + ((rowScatter N E C wf).window (ix2 e g) 0 : Int)
          ∧ (rowScatter N E C wf).start (ix2 e g) I 0 + ((rowScatter N E C wf).window (ix2 e g) 0 : Int) < (N : Int)
        rw [hs0, hw0]; have := n.isLt; omega
      | ⟨1, _⟩ =>
        show 0 ≤ (rowScatter N E C wf).start (ix2 e g) I 1 + ((rowScatter N E C wf).window (ix2 e g) 1 : Int)
          ∧ (rowScatter N E C wf).start (ix2 e g) I 1 + ((rowScatter N E C wf).window (ix2 e g) 1 : Int) < (C : Int)
        rw [hs1, hw1]; have := g.isLt; omega

/-- THE ROW SCATTER-ADD AT `(n, f)`: the operand's element plus the sum, over the update rows `e` whose index is
    `n`, of the update's element `(e, f)`. -/
theorem hostScatterAdd_rows_apply (X : (⟨2, ![N, C]⟩ : Shape).Idx → EReal) (U : (⟨2, ![E, C]⟩ : Shape).Idx → EReal)
    (n : Fin N) (f : Fin C) :
    Ideal.hostScatterAdd (rowScatter N E C wf) X I U (ix2 n f)
      = X (ix2 n f) + ∑ e : Fin E, if (I (ix2 e (0 : Fin 1))).toInt = (n.val : Int) then U (ix2 e f) else 0 := by
  unfold Ideal.hostScatterAdd
  congr 1
  rw [Finset.sum_filter, sum_idx2]
  refine Finset.sum_congr rfl fun e _ => ?_
  simp only [rowScatter_resultIdx?_eq_some_iff]
  by_cases ht : (I (ix2 e (0 : Fin 1))).toInt = (n.val : Int)
  · simp [ht]
  · simp [ht]

/-- The same for the host operation at the ideal instance, at any float format. -/
theorem scatterAdd_rows_apply {φ : FTy} (X : FVec Ideal ⟨2, ![N, C]⟩ φ) (U : FVec Ideal ⟨2, ![E, C]⟩ φ)
    (n : Fin N) (f : Fin C) :
    Host.scatterAdd (rowScatter N E C wf) X I U (ix2 n f)
      = X (ix2 n f) + ∑ e : Fin E, if (I (ix2 e (0 : Fin 1))).toInt = (n.val : Int) then U (ix2 e f) else 0 :=
  hostScatterAdd_rows_apply wf I X U n f

end Scatter

/-! ## A scatter-add of two arrays side by side, cut back into its column ranges -/

section ScatterColumns
variable {N E C D T w : Nat} {φ : FTy}

/-- The first `C` columns of the scatter-add of `[A | B]` (columns `C` and `D` wide) into `X` are the scatter-add
    of `A` into the first `C` columns of `X`: the sum for `(n, f)`, `f < C`, runs over the update rows whose
    index is `n` and reads column `f` of `[A | B]`, which is column `f` of `A`. -/
theorem slice_scatterAdd_concat_left
    (wfT : ScatterDims.WF ⟨2, ![N, T]⟩ ⟨2, ![E, 1]⟩ ⟨2, ![E, T]⟩ [1] [0] [0] 1)
    (wfC : ScatterDims.WF ⟨2, ![N, C]⟩ ⟨2, ![E, 1]⟩ ⟨2, ![E, C]⟩ [1] [0] [0] 1)
    (hc : Shape.Concatenates [(⟨2, ![E, C]⟩ : Shape), ⟨2, ![E, D]⟩] ⟨2, ![E, T]⟩ 1)
    (hs : (⟨2, ![N, T]⟩ : Shape).Slices ![0, 0] ⟨2, ![N, C]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, C]⟩ ![0, 0]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E C wfC) (extractStridedSlice ⟨2, ![N, C]⟩ ![0, 0] X hs) I A := by
  funext i
  obtain ⟨n, f, rfl⟩ : ∃ (n : Fin N) (f : Fin C), i = ix2 n f := ⟨i 0, i 1, eq_ix2 i⟩
  have hCT : C ≤ T := by have := hs.2 1; simpa using this
  have hf : f.val < T := lt_of_lt_of_le f.isLt hCT
  have hk : ∀ a : Fin 2, ((ix2 n (⟨f.val, hf⟩ : Fin T) : (⟨2, ![N, T]⟩ : Shape).Idx) a).val
      = (![0, 0] : Fin 2 → Nat) a + ((ix2 n f : (⟨2, ![N, C]⟩ : Shape).Idx) (a.cast hs.1.symm)).val := fun a => by
    match a with
    | ⟨0, _⟩ => exact (Nat.zero_add _).symm
    | ⟨1, _⟩ => exact (Nat.zero_add _).symm
  rw [extractStridedSlice_apply ![0, 0] _ hs (ix2 n f) (ix2 n (⟨f.val, hf⟩ : Fin T)) hk,
    scatterAdd_rows_apply, scatterAdd_rows_apply,
    extractStridedSlice_apply ![0, 0] X hs (ix2 n f) (ix2 n (⟨f.val, hf⟩ : Fin T)) hk]
  congr 1
  refine Finset.sum_congr rfl fun e _ => ?_
  rw [concatenate_pair_apply_left (t := ⟨2, ![E, T]⟩) (s₁ := ⟨2, ![E, C]⟩) (s₂ := ⟨2, ![E, D]⟩) (1 : Fin 2) A B hc
    (ix2 e (⟨f.val, hf⟩ : Fin T)) rfl (ix2 e f) (fun b => by
      match b with
      | ⟨0, _⟩ => rfl
      | ⟨1, _⟩ => rfl)]

/-- The `D` columns from column `C` on of the scatter-add of `[A | B]` into `X` are the scatter-add of `B` into
    those columns of `X`: column `C + f` of `[A | B]` is column `f` of `B`. -/
theorem slice_scatterAdd_concat_right
    (wfT : ScatterDims.WF ⟨2, ![N, T]⟩ ⟨2, ![E, 1]⟩ ⟨2, ![E, T]⟩ [1] [0] [0] 1)
    (wfD : ScatterDims.WF ⟨2, ![N, D]⟩ ⟨2, ![E, 1]⟩ ⟨2, ![E, D]⟩ [1] [0] [0] 1)
    (hc : Shape.Concatenates [(⟨2, ![E, C]⟩ : Shape), ⟨2, ![E, D]⟩] ⟨2, ![E, T]⟩ 1)
    (hs : (⟨2, ![N, T]⟩ : Shape).Slices ![0, C] ⟨2, ![N, D]⟩)
    (X : FVec Ideal ⟨2, ![N, T]⟩ φ) (I : IVec ⟨2, ![E, 1]⟩ w)
    (A : FVec Ideal ⟨2, ![E, C]⟩ φ) (B : FVec Ideal ⟨2, ![E, D]⟩ φ) :
    extractStridedSlice ⟨2, ![N, D]⟩ ![0, C]
        (Host.scatterAdd (rowScatter N E T wfT) X I
          (concatenate ⟨2, ![E, T]⟩ 1 [⟨⟨2, ![E, C]⟩, A⟩, ⟨⟨2, ![E, D]⟩, B⟩] hc)) hs
      = Host.scatterAdd (rowScatter N E D wfD) (extractStridedSlice ⟨2, ![N, D]⟩ ![0, C] X hs) I B := by
  funext i
  obtain ⟨n, f, rfl⟩ : ∃ (n : Fin N) (f : Fin D), i = ix2 n f := ⟨i 0, i 1, eq_ix2 i⟩
  have hCT : C + D ≤ T := by have := hs.2 1; simpa using this
  have hf : C + f.val < T := by have := f.isLt; omega
  have hk : ∀ a : Fin 2, ((ix2 n (⟨C + f.val, hf⟩ : Fin T) : (⟨2, ![N, T]⟩ : Shape).Idx) a).val
      = (![0, C] : Fin 2 → Nat) a + ((ix2 n f : (⟨2, ![N, D]⟩ : Shape).Idx) (a.cast hs.1.symm)).val := fun a => by
    match a with
    | ⟨0, _⟩ => exact (Nat.zero_add _).symm
    | ⟨1, _⟩ => rfl
  rw [extractStridedSlice_apply ![0, C] _ hs (ix2 n f) (ix2 n (⟨C + f.val, hf⟩ : Fin T)) hk,
    scatterAdd_rows_apply, scatterAdd_rows_apply,
    extractStridedSlice_apply ![0, C] X hs (ix2 n f) (ix2 n (⟨C + f.val, hf⟩ : Fin T)) hk]
  congr 1
  refine Finset.sum_congr rfl fun e _ => ?_
  rw [concatenate_pair_apply_right (t := ⟨2, ![E, T]⟩) (s₁ := ⟨2, ![E, C]⟩) (s₂ := ⟨2, ![E, D]⟩) (1 : Fin 2) A B hc
    (ix2 e (⟨C + f.val, hf⟩ : Fin T)) rfl rfl (ix2 e f) (fun b hb => by
      match b with
      | ⟨0, _⟩ => rfl
      | ⟨1, _⟩ => exact absurd rfl hb) (Nat.add_comm _ _)]

/-- A block cut out of a scalar spread over a whole array is the scalar spread over the block (the all-zero
    array a scatter-add starts from is of this form). -/
theorem extractStridedSlice_broadcastInDim_scalar {α : Type} {s t : Shape} (off : Fin s.rank → Nat) (hs : s.Slices off t)
    (dims : Fin (⟨0, ![]⟩ : Shape).rank → Fin s.rank) (dims' : Fin (⟨0, ![]⟩ : Shape).rank → Fin t.rank)
    (hb : (⟨0, ![]⟩ : Shape).BroadcastsInDim s dims) (hb' : (⟨0, ![]⟩ : Shape).BroadcastsInDim t dims')
    (z : (⟨0, ![]⟩ : Shape).Idx → α) :
    extractStridedSlice t off (broadcastInDim s dims hb z) hs = broadcastInDim t dims' hb' z := by
  funext j
  unfold extractStridedSlice broadcastInDim
  exact congrArg z (funext fun a => a.elim0)

end ScatterColumns

/-! ## Gathering rows -/

/-- The dimension numbers of a row gather: result `[E, C]` reads an operand `[N, C]` at the rows named by start
    indices `[E, 1]` — the result's axis 1 is the offset axis, the operand's axis 0 is collapsed and is the one the
    index names, slices are one row of `C` columns, the index vector lies along axis 1 of the indices. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}
  (wf : GatherDims.WF ⟨2, ![N, C]⟩ ⟨2, ![E, 1]⟩ ⟨2, ![E, C]⟩ [1] [0] [] [0] [] 1 ![1, C])
  (J : IVec ⟨2, ![E, 1]⟩ w)

/-- The row result row `e` reads: the start index `J (e, 0)` as a signed integer, brought into `[0, N − 1]`. -/
def gatherRow (hN : 0 < N) (e : Fin E) : Fin N :=
  ⟨min (J (ix2 e (0 : Fin 1))).toInt.toNat (N - 1), by omega⟩

/-- The operand index of result `(e, f)` is `(gatherRow e, f)`. -/
theorem rowGather_operandIdx (hN : 0 < N) (e : Fin E) (f : Fin C) :
    (rowGather N E C wf).operandIdx (ix2 e f) J = ix2 (gatherRow J hN e) f := by
  funext a
  refine Fin.ext ?_
  match a with
  | ⟨0, _⟩ =>
    show (rowGather N E C wf).start (ix2 e f) J 0 + (rowGather N E C wf).batchCoord (ix2 e f) 0
      + (rowGather N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e f) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e f) J 1 + (rowGather N E C wf).batchCoord (ix2 e f) 1
      + (rowGather N E C wf).offCoord (ix2 e f) 1 = f.val
    rw [GatherDims.batchCoord_eq_zero _ _ _ List.not_mem_nil]
    have hst : (rowGather N E C wf).start (ix2 e f) J 1 = 0 := by
      unfold GatherDims.start
      rw [dif_neg (show (1 : Fin 2) ∉ ([0] : List (Fin 2)) by simp)]
    have hoff : (rowGather N E C wf).offCoord (ix2 e f) 1 = f.val := by
      unfold GatherDims.offCoord
      rw [dif_pos ((GatherDims.mem_sKept _ _).mpr ⟨by simp, List.not_mem_nil⟩)]
      rfl
    rw [hst, hoff]; omega

/-- THE ROW GATHER AT `(e, f)`: the operand at `(gatherRow e, f)`. -/
theorem gather_rows_apply (hN : 0 < N) (x : (⟨2, ![N, C]⟩ : Shape).Idx → α) (e : Fin E) (f : Fin C) :
    Host.gather (rowGather N E C wf) x J (ix2 e f) = x (ix2 (gatherRow J hN e) f) := by
  unfold Host.gather
  rw [rowGather_operandIdx wf J hN e f]

end Gather

/-! ## A row gather of two arrays side by side, cut back into its column ranges -/

section GatherColumns
variable {α : Type} {N E C D T w : Nat}

/-- The first `C` columns of the row gather of `[P | Q]` are the row gather of `P`: both read row `gatherRow e`
    (the operands have the same number of rows, so the start index is brought into the same range). -/
theorem slice_gather_concat_left (hN : 0 < N)
    (wfT : GatherDims.WF ⟨2, ![N, T]⟩ ⟨2, ![E, 1]⟩ ⟨2, ![E, T]⟩ [1] [0] [] [0] [] 1 ![1, T])
    (wfC : GatherDims.WF ⟨2, ![N, C]⟩ ⟨2, ![E, 1]⟩ ⟨2, ![E, C]⟩ [1] [0] [] [0] [] 1 ![1, C])
    (hc : Shape.Concatenates [(⟨2, ![N, C]⟩ : Shape), ⟨2, ![N, D]⟩] ⟨2, ![N, T]⟩ 1)
    (hs : (⟨2, ![E, T]⟩ : Shape).Slices ![0, 0] ⟨2, ![E, C]⟩)
    (P : (⟨2, ![N, C]⟩ : Shape).Idx → α) (Q : (⟨2, ![N, D]⟩ : Shape).Idx → α) (J : IVec ⟨2, ![E, 1]⟩ w) :
    extractStridedSlice ⟨2, ![E, C]⟩ ![0, 0]
        (Host.gather (rowGather N E T wfT)
          (concatenate ⟨2, ![N, T]⟩ 1 [⟨⟨2, ![N, C]⟩, P⟩, ⟨⟨2, ![N, D]⟩, Q⟩] hc) J) hs
      = Host.gather (rowGather N E C wfC) P J := by
  funext i
  obtain ⟨e, f, rfl⟩ : ∃ (e : Fin E) (f : Fin C), i = ix2 e f := ⟨i 0, i 1, eq_ix2 i⟩
  have hCT : C ≤ T := by have := hs.2 1; simpa using this
  have hf : f.val < T := lt_of_lt_of_le f.isLt hCT
  rw [extractStridedSlice_apply ![0, 0] _ hs (ix2 e f) (ix2 e (⟨f.val, hf⟩ : Fin T)) (fun a => by
      match a with
      | ⟨0, _⟩ => exact (Nat.zero_add _).symm
      | ⟨1, _⟩ => exact (Nat.zero_add _).symm),
    gather_rows_apply wfT J hN, gather_rows_apply wfC J hN]
  exact concatenate_pair_apply_left (t := ⟨2, ![N, T]⟩) (s₁ := ⟨2, ![N, C]⟩) (s₂ := ⟨2, ![N, D]⟩) (1 : Fin 2) P Q hc
    (ix2 (gatherRow J hN e) (⟨f.val, hf⟩ : Fin T)) rfl (ix2 (gatherRow J hN e) f) (fun b => by
      match b with
      | ⟨0, _⟩ => rfl
      | ⟨1, _⟩ => rfl)

/-- The `D` columns from column `C` on of the row gather of `[P | Q]` are the row gather of `Q`. -/
theorem slice_gather_concat_right (hN : 0 < N)
    (wfT : GatherDims.WF ⟨2, ![N, T]⟩ ⟨2, ![E, 1]⟩ ⟨2, ![E, T]⟩ [1] [0] [] [0] [] 1 ![1, T])
    (wfD : GatherDims.WF ⟨2, ![N, D]⟩ ⟨2, ![E, 1]⟩ ⟨2, ![E, D]⟩ [1] [0] [] [0] [] 1 ![1, D])
    (hc : Shape.Concatenates [(⟨2, ![N, C]⟩ : Shape), ⟨2, ![N, D]⟩] ⟨2, ![N, T]⟩ 1)
    (hs : (⟨2, ![E, T]⟩ : Shape).Slices ![0, C] ⟨2, ![E, D]⟩)
    (P : (⟨2, ![N, C]⟩ : Shape).Idx → α) (Q : (⟨2, ![N, D]⟩ : Shape).Idx → α) (J : IVec ⟨2, ![E, 1]⟩ w) :
    extractStridedSlice ⟨2, ![E, D]⟩ ![0, C]
        (Host.gather (rowGather N E T wfT)
          (concatenate ⟨2, ![N, T]⟩ 1 [⟨⟨2, ![N, C]⟩, P⟩, ⟨⟨2, ![N, D]⟩, Q⟩] hc) J) hs
      = Host.gather (rowGather N E D wfD) Q J := by
  funext i
  obtain ⟨e, f, rfl⟩ : ∃ (e : Fin E) (f : Fin D), i = ix2 e f := ⟨i 0, i 1, eq_ix2 i⟩
  have hCT : C + D ≤ T := by have := hs.2 1; simpa using this
  have hf : C + f.val < T := by have := f.isLt; omega
  rw [extractStridedSlice_apply ![0, C] _ hs (ix2 e f) (ix2 e (⟨C + f.val, hf⟩ : Fin T)) (fun a => by
      match a with
      | ⟨0, _⟩ => exact (Nat.zero_add _).symm
      | ⟨1, _⟩ => rfl),
    gather_rows_apply wfT J hN, gather_rows_apply wfD J hN]
  exact concatenate_pair_apply_right (t := ⟨2, ![N, T]⟩) (s₁ := ⟨2, ![N, C]⟩) (s₂ := ⟨2, ![N, D]⟩) (1 : Fin 2) P Q hc
    (ix2 (gatherRow J hN e) (⟨C + f.val, hf⟩ : Fin T)) rfl rfl (ix2 (gatherRow J hN e) f) (fun b hb => by
      match b with
      | ⟨0, _⟩ => rfl
      | ⟨1, _⟩ => exact absurd rfl hb) (Nat.add_comm _ _)

end GatherColumns

/-! ## Format changes around a gather, at the ideal instance -/

section Formats
variable {s si t : Shape} {w : Nat} {φ ψ : FTy}

/-- On the extended reals a narrowing and a widening of the format are the identity, so a gather of a narrowed
    array, widened again, is the gather of the array. -/
theorem extf_gather_truncf (d : GatherDims s si t) (X : FVec Ideal s φ) (J : IVec si w)
    (h : ψ.bits < φ.bits) (h' : ψ.bits < φ.bits) :
    extf φ (Host.gather d (truncf ψ X h) J) h' = Host.gather d X J := rfl

/-- A narrowing of the format is the identity on the extended reals. -/
theorem truncf_eq (X : FVec Ideal s φ) (h : ψ.bits < φ.bits) : (truncf ψ X h : FVec Ideal s ψ) = X := rfl

/-- A widening of the format is the identity on the extended reals. -/
theorem extf_eq (X : FVec Ideal s φ) (h : φ.bits < ψ.bits) : (extf ψ X h : FVec Ideal s ψ) = X := rfl

end Formats

end Cert.LibColumns

end
-- ==== Proof.LibRealValued.lean ====
/-
  Extended reals that are real numbers. At the exact instance a float is an extended real, and the
  algebraic laws that move a factor across a sum hold only away from the infinities; this file states
  the predicate "is a real number", shows it closed under the exact operations a degree-normalised
  neighbourhood sum uses (sum, product, finite sum, minimum, real power), and proves the one law the
  sum needs: a real factor multiplied into a finite sum of reals is the sum of the scaled terms.
-/
import Idealize.ShloMosaic.PureOps.Ideal

noncomputable section

open scoped BigOperators

namespace Cert.RealValued

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, EReal.coe_zero.symm⟩

theorem IsReal.one : IsReal (1 : EReal) := ⟨1, EReal.coe_one.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of real numbers is a real number. -/
theorem IsReal.sum {J : Type*} (S : Finset J) (f : J → EReal) (h : ∀ j ∈ S, IsReal (f j)) :
    IsReal (∑ j ∈ S, f j) :=
  Finset.sum_induction f IsReal (fun _ _ => IsReal.add) IsReal.zero h

theorem IsReal.min {x y : EReal} (hx : IsReal x) (hy : IsReal y) : IsReal (min x y) := by
  rcases min_choice x y with h | h <;> rw [h] <;> assumption

/-- The exact power of two real numbers is the real power: a real number. -/
theorem IsReal.pow {x y : EReal} (hx : IsReal x) (hy : IsReal y) : IsReal (Ideal.pow x y) := by
  obtain ⟨a, rfl⟩ := hx; obtain ⟨b, rfl⟩ := hy
  exact ⟨Real.rpow a b, rfl⟩

/-- An f32 bit pattern whose exponent field is not all ones (neither an infinity nor a NaN) denotes a
    real number: the pattern's value is then a signed significand times a power of two. -/
theorem ofBits_f32_isReal (b : BitVec 32) (h : (b.extractLsb' 23 8).toNat ≠ 2 ^ 8 - 1) :
    IsReal (Ideal.ofBits .f32 b) := by
  show IsReal (Ideal.ieee 8 23 b)
  unfold Ideal.ieee
  dsimp only
  split_ifs
  all_goals first | exact IsReal.coe _ | exact absurd (by assumption) h

/-- The host's accumulating float scatter, at the exact instance, is the exact sum: each operand element
    plus the sum of the updates that land on it. -/
theorem scatterAdd_ideal {s si su : Shape} {φ : FTy} (d : ScatterDims s si su) {w : Nat} (x : FVec Ideal s φ)
    (idx : IVec si w) (upd : FVec Ideal su φ) :
    Host.scatterAdd (F := Ideal) d x idx upd = Ideal.hostScatterAdd d x idx upd := rfl

/-- A scatter-add of real updates onto a real array is real at every index: a real number plus a finite
    sum of real numbers, whatever the indices are. -/
theorem hostScatterAdd_isReal {s si su : Shape} (d : ScatterDims s si su) {w : Nat} (x : s.Idx → EReal)
    (idx : IVec si w) (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- A real number is the coercion of its real part. -/
theorem IsReal.coe_toReal {x : EReal} (h : IsReal x) : ((x.toReal : ℝ) : EReal) = x := by
  obtain ⟨a, rfl⟩ := h
  rw [EReal.toReal_coe]

/-- The coercion of the reals into the extended reals, as an additive map. -/
def coeHom : ℝ →+ EReal where
  toFun r := (r : EReal)
  map_zero' := EReal.coe_zero
  map_add' := EReal.coe_add

/-- The coercion of a finite real sum is the sum of the coercions. -/
theorem coe_sum {J : Type*} (S : Finset J) (f : J → ℝ) :
    ((∑ j ∈ S, f j : ℝ) : EReal) = ∑ j ∈ S, (f j : EReal) :=
  map_sum coeHom f S

/-- THE SCALING LAW. A real factor `c` times a finite sum of real terms `a j` (onto a zero start) is
    the sum (onto a zero start) of the terms `b j = a j * c`. Over the extended reals this needs every
    term real: distributivity fails at the infinities. -/
theorem scale_sum {J : Type*} (S : Finset J) (a b : J → EReal) (c : EReal) (hc : IsReal c)
    (ha : ∀ j ∈ S, IsReal (a j)) (hb : ∀ j ∈ S, b j = a j * c) :
    c * (0 + ∑ j ∈ S, a j) = 0 + ∑ j ∈ S, b j := by
  obtain ⟨r, rfl⟩ := hc
  have e1 : ∑ j ∈ S, a j = ∑ j ∈ S, (((a j).toReal : ℝ) : EReal) :=
    Finset.sum_congr rfl fun j hj => ((ha j hj).coe_toReal).symm
  have e2 : ∑ j ∈ S, b j = ∑ j ∈ S, ((((a j).toReal * r : ℝ)) : EReal) :=
    Finset.sum_congr rfl fun j hj => by
      rw [hb j hj, EReal.coe_mul, (ha j hj).coe_toReal]
  rw [e1, e2, zero_add, zero_add, ← coe_sum, ← coe_sum, ← EReal.coe_mul, Finset.mul_sum]
  exact congrArg Real.toEReal (Finset.sum_congr rfl fun j _ => mul_comm _ _)

end Cert.RealValued

end
-- ==== Proof.NodeSums.lean ====
/-
  Sums over the links at a node, on the extended reals.

  `seg idx u n` is the sum of `u e` over the links `e` whose node index `idx e`, read as a signed integer, is the
  node `n`. The one algebraic fact the two programs differ by: the kernel program adds, on the tail side, the sum
  of the NEGATED fluxes, where the reference SUBTRACTS the sum of the fluxes. With the sums started from zero,

      (0 + Σ_head q) + (0 + Σ_tail (−q)) = (0 + Σ_head q) − (0 + Σ_tail q)

  holds when every flux is a real number: a finite sum of reals is real, the negation of a real sum is the sum of
  the negations, and `x − y = x + (−y)`. (At an infinity the negation of a sum need not be the sum of negations.)
-/
import Idealize.ShloMosaic.PureOps.Ideal
import Idealize.ShloMosaic.Lib.ValueIdx
import proofs.«175139_j15341623181950_2_alg».proof.Proof.LibRealValued

noncomputable section

open scoped BigOperators

namespace Cert.NodeSums

open Idealize.ShloMosaic Idealize.ShloMosaic.ValueIdx

/-- The sum of `u` over the links whose index is the node `n`. -/
def seg {N E w : Nat} (idx : IVec ⟨1, ![E]⟩ w) (u : (⟨1, ![E]⟩ : Shape).Idx → EReal) (n : Fin N) : EReal :=
  ∑ e : Fin E, if (idx (ix1 e)).toInt = (n.val : Int) then u (ix1 e) else 0

/-- The sum of the negated real terms is the negation of the sum. -/
theorem seg_neg {N E w : Nat} (idx : IVec ⟨1, ![E]⟩ w) (u : (⟨1, ![E]⟩ : Shape).Idx → EReal)
    (hu : ∀ i, ∃ r : ℝ, u i = (r : EReal)) (n : Fin N) :
    seg idx (fun i => -(u i)) n = -(seg idx u n) := by
  choose r hr using hu
  unfold seg
  have e1 : ∀ e : Fin E, (if (idx (ix1 e)).toInt = (n.val : Int) then -(u (ix1 e)) else 0)
      = (((if (idx (ix1 e)).toInt = (n.val : Int) then -(r (ix1 e)) else 0 : ℝ)) : EReal) := fun e => by
    by_cases h : (idx (ix1 e)).toInt = (n.val : Int)
    · rw [if_pos h, if_pos h, hr, EReal.coe_neg]
    · rw [if_neg h, if_neg h, EReal.coe_zero]
  have e2 : ∀ e : Fin E, (if (idx (ix1 e)).toInt = (n.val : Int) then u (ix1 e) else 0)
      = (((if (idx (ix1 e)).toInt = (n.val : Int) then r (ix1 e) else 0 : ℝ)) : EReal) := fun e => by
    by_cases h : (idx (ix1 e)).toInt = (n.val : Int)
    · rw [if_pos h, if_pos h, hr]
    · rw [if_neg h, if_neg h, EReal.coe_zero]
  rw [Finset.sum_congr rfl (fun e _ => e1 e), Finset.sum_congr rfl (fun e _ => e2 e),
    ← Cert.RealValued.coe_sum, ← Cert.RealValued.coe_sum, ← EReal.coe_neg, ← Finset.sum_neg_distrib]
  refine congrArg Real.toEReal (Finset.sum_congr rfl fun e _ => ?_)
  by_cases h : (idx (ix1 e)).toInt = (n.val : Int)
  · rw [if_pos h, if_pos h]
  · rw [if_neg h, if_neg h, neg_zero]

/-- THE FLUX LAW: adding the tail sum of the negated fluxes is subtracting the tail sum of the fluxes, both sums
    started from zero, when every flux is real. -/
theorem flux_law {N E w : Nat} (hd tl : IVec ⟨1, ![E]⟩ w) (q : (⟨1, ![E]⟩ : Shape).Idx → EReal)
    (hq : ∀ i, ∃ r : ℝ, q i = (r : EReal)) (n : Fin N) (z : EReal) (hz : z = 0) :
    (z + seg hd q n) + (z + seg tl (fun i => -(q i)) n) = (z + seg hd q n) - (z + seg tl q n) := by
  rw [seg_neg tl q hq n, hz, zero_add, zero_add, zero_add, sub_eq_add_neg]

end Cert.NodeSums

end
-- ==== Proof.KernelNodeValue.lean ====
/-
  The three columns of node sums of the kernel program, read at a node, on the extended reals.

  Column `k` of the row scatter-add of three columns laid side by side is the flat sum of column `k`: at node `n` it is
  zero plus the sum over the links whose index is `n` of that column's entry. Head side and tail side are added.
-/
import proofs.«175139_j15341623181950_2_alg».proof.Proof.KernelFunction
import proofs.«175139_j15341623181950_2_alg».proof.Proof.LibColumns
import proofs.«175139_j15341623181950_2_alg».proof.Proof.NodeSums
import Idealize.ShloMosaic.Lib.Pipeline.Value

noncomputable section

open scoped BigOperators

namespace Cert.ConduitHost

open Idealize.ShloMosaic Idealize.ShloMosaic.ValueIdx Cert.KernelIdeal Cert.KernelIdeal.Gen Cert.NodeSums

section Generic
variable {F : FTy → Type} [FloatOps F]

/-- A link array as a column, at row `e`. -/
theorem asColumn_apply (x : FVec F S8000000 .f32) (e : Fin 8000000) :
    asColumn x (ix2 e (0 : Fin 1)) = x (ix1 e) := by
  unfold asColumn
  exact broadcastInDim_apply _ bcast_S8000000_S8000000x1_0 x (ix2 e (0 : Fin 1)) (ix1 e) (fun a => match a with
    | ⟨0, _⟩ => by show e.val = if (8000000 : Nat) = 1 then 0 else e.val; rw [if_neg (by decide)])

/-- Node indices as a column, at row `e`. -/
theorem idxColumn_apply (a : IVec S8000000 32) (e : Fin 8000000) :
    idxColumn a (ix2 e (0 : Fin 1)) = a (ix1 e) := by
  unfold idxColumn
  exact broadcastInDim_apply _ bcast_S8000000_S8000000x1_0 a (ix2 e (0 : Fin 1)) (ix1 e) (fun b => match b with
    | ⟨0, _⟩ => by show e.val = if (8000000 : Nat) = 1 then 0 else e.val; rw [if_neg (by decide)])

/-- Three columns side by side, read in column 0. -/
theorem threeColumns_apply0 (a b c : FVec F S8000000 .f32) (e : Fin 8000000) :
    threeColumns a b c (ix2 e (0 : Fin 3)) = a (ix1 e) := by
  unfold threeColumns
  refine (concatenate_apply_piece (t := S8000000x3) (1 : Fin 2)
    [⟨S8000000x1, asColumn a⟩, ⟨S8000000x1, asColumn b⟩, ⟨S8000000x1, asColumn c⟩]
    concatenates_S8000000x1_S8000000x1_S8000000x1_S8000000x3_d1
    (ix2 e (0 : Fin 3)) 0 (show 0 < 3 by omega) S8000000x1 (asColumn a) rfl rfl 0 rfl (ix2 e (0 : Fin 1)) (fun d hd => ?_) rfl).trans
    (asColumn_apply a e)
  match d with
  | ⟨0, _⟩ => rfl
  | ⟨1, _⟩ => exact absurd rfl hd

/-- Three columns side by side, read in column 1. -/
theorem threeColumns_apply1 (a b c : FVec F S8000000 .f32) (e : Fin 8000000) :
    threeColumns a b c (ix2 e (1 : Fin 3)) = b (ix1 e) := by
  unfold threeColumns
  refine (concatenate_apply_piece (t := S8000000x3) (1 : Fin 2)
    [⟨S8000000x1, asColumn a⟩, ⟨S8000000x1, asColumn b⟩, ⟨S8000000x1, asColumn c⟩]
    concatenates_S8000000x1_S8000000x1_S8000000x1_S8000000x3_d1
    (ix2 e (1 : Fin 3)) 1 (show 1 < 3 by omega) S8000000x1 (asColumn b) rfl rfl 1 rfl (ix2 e (0 : Fin 1)) (fun d hd => ?_) rfl).trans
    (asColumn_apply b e)
  match d with
  | ⟨0, _⟩ => rfl
  | ⟨1, _⟩ => exact absurd rfl hd

/-- Three columns side by side, read in column 2. -/
theorem threeColumns_apply2 (a b c : FVec F S8000000 .f32) (e : Fin 8000000) :
    threeColumns a b c (ix2 e (2 : Fin 3)) = c (ix1 e) := by
  unfold threeColumns
  refine (concatenate_apply_piece (t := S8000000x3) (1 : Fin 2)
    [⟨S8000000x1, asColumn a⟩, ⟨S8000000x1, asColumn b⟩, ⟨S8000000x1, asColumn c⟩]
    concatenates_S8000000x1_S8000000x1_S8000000x1_S8000000x3_d1
    (ix2 e (2 : Fin 3)) 2 (show 2 < 3 by omega) S8000000x1 (asColumn c) rfl rfl 2 rfl (ix2 e (0 : Fin 1)) (fun d hd => ?_) rfl).trans
    (asColumn_apply c e)
  match d with
  | ⟨0, _⟩ => rfl
  | ⟨1, _⟩ => exact absurd rfl hd

/-- Column `k` cut out of a three-column node array and flattened, at node `n`, is the entry `(n, k)`. -/
theorem sumColumn0_apply (x : FVec F S4000000x3 .f32) (n : Fin 4000000) :
    sumColumn0 x (ix1 n) = x (ix2 n (0 : Fin 3)) := by
  unfold sumColumn0
  rw [shapeCast_apply _ shapeCasts_S4000000x1_S4000000 (ix1 n) (ix2 n (0 : Fin 1))
    (by rw [Shape.rowMajor_val_two, Shape.rowMajor_val_one]; show n.val * 1 + 0 = n.val; omega)]
  exact extractStridedSlice_apply ![0, 0] x slices_S4000000x3_S4000000x1_0_0 (ix2 n (0 : Fin 1)) (ix2 n (0 : Fin 3))
    (fun a => match a with
      | ⟨0, _⟩ => (Nat.zero_add _).symm
      | ⟨1, _⟩ => rfl)

theorem sumColumn1_apply (x : FVec F S4000000x3 .f32) (n : Fin 4000000) :
    sumColumn1 x (ix1 n) = x (ix2 n (1 : Fin 3)) := by
  unfold sumColumn1
  rw [shapeCast_apply _ shapeCasts_S4000000x1_S4000000 (ix1 n) (ix2 n (0 : Fin 1))
    (by rw [Shape.rowMajor_val_two, Shape.rowMajor_val_one]; show n.val * 1 + 0 = n.val; omega)]
  exact extractStridedSlice_apply ![0, 1] x slices_S4000000x3_S4000000x1_0_1 (ix2 n (0 : Fin 1)) (ix2 n (1 : Fin 3))
    (fun a => match a with
      | ⟨0, _⟩ => (Nat.zero_add _).symm
      | ⟨1, _⟩ => rfl)

theorem sumColumn2_apply (x : FVec F S4000000x3 .f32) (n : Fin 4000000) :
    sumColumn2 x (ix1 n) = x (ix2 n (2 : Fin 3)) := by
  unfold sumColumn2
  rw [shapeCast_apply _ shapeCasts_S4000000x1_S4000000 (ix1 n) (ix2 n (0 : Fin 1))
    (by rw [Shape.rowMajor_val_two, Shape.rowMajor_val_one]; show n.val * 1 + 0 = n.val; omega)]
  exact extractStridedSlice_apply ![0, 2] x slices_S4000000x3_S4000000x1_0_2 (ix2 n (0 : Fin 1)) (ix2 n (2 : Fin 3))
    (fun a => match a with
      | ⟨0, _⟩ => (Nat.zero_add _).symm
      | ⟨1, _⟩ => rfl)

end Generic

/-! ## At the exact instance -/

/-- Rows of three columns summed into the nodes, read at `(n, f)`: zero plus the sum over the links whose index is
    `n` of the row's entry in column `f`. -/
theorem scatterRows_apply (idx : IVec S8000000 32) (u : FVec Ideal S8000000x3 .f32) (n : Fin 4000000) (f : Fin 3) :
    scatterRows idx u (ix2 n f)
      = Ideal.ofBits .f32 0x00000000#32
        + ∑ e : Fin 8000000, if (idx (ix1 e)).toInt = (n.val : Int) then u (ix2 e f) else 0 := by
  unfold scatterRows
  refine (Cert.LibColumns.scatterAdd_rows_apply (N := 4000000) (E := 8000000) (C := 3)
    scatter_S4000000x3_S8000000x1_S8000000x3_1_0_0_1_wf (idxColumn idx) _ u n f).trans ?_
  refine congrArg₂ (· + ·) rfl (Finset.sum_congr rfl fun e _ => ?_)
  rw [idxColumn_apply]

/-- The summed link right-hand sides at node `n`. -/
theorem nodeSums_column0 (rhs q : FVec Ideal S8000000 .f32) (hd tl : IVec S8000000 32) (n : Fin 4000000) :
    sumColumn0 (nodeSums rhs q hd tl) (ix1 n)
      = (Ideal.ofBits .f32 0x00000000#32 + seg hd rhs n) + (Ideal.ofBits .f32 0x00000000#32 + seg tl rhs n) := by
  rw [sumColumn0_apply]
  unfold nodeSums
  rw [addf_apply, scatterRows_apply, scatterRows_apply]
  unfold seg
  simp only [threeColumns_apply0]

/-- The number of links at node `n`. -/
theorem nodeSums_column1 (rhs q : FVec Ideal S8000000 .f32) (hd tl : IVec S8000000 32) (n : Fin 4000000) :
    sumColumn1 (nodeSums rhs q hd tl) (ix1 n)
      = (Ideal.ofBits .f32 0x00000000#32 + seg hd (linkOnes (F := Ideal)) n)
        + (Ideal.ofBits .f32 0x00000000#32 + seg tl (linkOnes (F := Ideal)) n) := by
  rw [sumColumn1_apply]
  unfold nodeSums
  rw [addf_apply, scatterRows_apply, scatterRows_apply]
  unfold seg
  simp only [threeColumns_apply1]

/-- The net flux at node `n`, as the kernel program sums it: head fluxes plus negated tail fluxes. -/
theorem nodeSums_column2 (rhs q : FVec Ideal S8000000 .f32) (hd tl : IVec S8000000 32) (n : Fin 4000000) :
    sumColumn2 (nodeSums rhs q hd tl) (ix1 n)
      = (Ideal.ofBits .f32 0x00000000#32 + seg hd q n)
        + (Ideal.ofBits .f32 0x00000000#32 + seg tl (fun i => -(q i)) n) := by
  rw [sumColumn2_apply]
  unfold nodeSums
  rw [addf_apply, scatterRows_apply, scatterRows_apply]
  unfold seg
  simp only [threeColumns_apply2]
  rfl

end Cert.ConduitHost

end
-- ==== Proof.LibFlatScatter.lean ====
/-
  A scatter of single entries into a flat array, read at an index.

  An update array of `E` entries is scattered into a flat array of `N` entries by a column `I` of indices (one
  signed integer per update, `I (e, 0)`): update `e` is added at entry `I e`, and dropped when `I e` is not an
  entry of the target (the scatter does not clamp). So, on the extended reals, the result at `n` is the operand
  at `n` plus the sum, over the updates whose index is `n`, of the update.

  The dimension numbers are the record `flatScatter` below, whose side conditions are a parameter: any record
  with the same lists is one of them by `rfl`.
-/
import Idealize.ShloMosaic.PureOps.Ideal
import Idealize.ShloMosaic.PureOps.Dims
import Idealize.ShloMosaic.Lib.ValueIdx

noncomputable section

open scoped BigOperators

namespace Cert.LibFlatScatter

open Idealize.ShloMosaic Idealize.ShloMosaic.ValueIdx

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of single entries: updates `[E]` go into an operand `[N]` at the entries
    named by scatter indices `[E, 1]` — the updates have no window axis, the operand's one axis is inserted and is
    the one the index names, the index vector lies along axis 1 of the indices. -/
abbrev flatScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Scatter
variable {N E w : Nat} (wf : ScatterDims.WF ⟨1, ![N]⟩ ⟨2, ![E, 1]⟩ ⟨1, ![E]⟩ [] [0] [0] 1)
  (I : IVec ⟨2, ![E, 1]⟩ w)

/-- The window of update `e` starts at the signed value of the index `I (e, 0)`. -/
theorem flatScatter_start (e : Fin E) :
    (flatScatter N E wf).start (ix1 e) I 0 = (I (ix2 e (0 : Fin 1))).toInt := by
  unfold ScatterDims.start
  rw [dif_pos (show (0 : Fin 1) ∈ (flatScatter N E wf).scatterDimsToOperandDims from List.mem_singleton.mpr rfl)]
  congr 2
  funext b
  refine Fin.ext ?_
  match b with
  | ⟨0, _⟩ => rfl
  | ⟨1, _⟩ => rfl

/-- The one axis is inserted: the window coordinate there is 0. -/
theorem flatScatter_window (e : Fin E) :
    (flatScatter N E wf).window (ix1 e) 0 = 0 := by
  unfold ScatterDims.window
  rw [dif_neg (show (0 : Fin 1) ∉ Shape.kept ⟨1, ![N]⟩ [0] by simp [Shape.kept])]

/-- Update `e` lands on `n` exactly when its index is `n`. -/
theorem flatScatter_resultIdx?_eq_some_iff (e : Fin E) (n : Fin N) :
    (flatScatter N E wf).resultIdx? (ix1 e) I = some (ix1 n)
      ↔ (I (ix2 e (0 : Fin 1))).toInt = (n.val : Int) := by
  have hs0 := flatScatter_start wf I e
  have hw0 := flatScatter_window wf e
  unfold ScatterDims.resultIdx?
  by_cases h : ∀ a : Fin 1, 0 ≤ (flatScatter N E wf).start (ix1 e) I a + ((flatScatter N E wf).window (ix1 e) a : Int)
      ∧ (flatScatter N E wf).start (ix1 e) I a + ((flatScatter N E wf).window (ix1 e) a : Int)
        < ((⟨1, ![N]⟩ : Shape).size a : Int)
  · rw [dif_pos h]
    have h0 := h 0
    rw [hs0, hw0] at h0
    constructor
    · intro hh
      have hh' := Option.some.inj hh
      have e0 := congrArg (fun k => (k 0).val) hh'
      simp only [hs0, hw0] at e0
      have : ((I (ix2 e (0 : Fin 1))).toInt + ((0 : Nat) : Int)).toNat = n.val := e0
      omega
    · intro ht
      congr 1
      funext a
      refine Fin.ext ?_
      match a with
      | ⟨0, _⟩ =>
        show ((flatScatter N E wf).start (ix1 e) I 0 + ((flatScatter N E wf).window (ix1 e) 0 : Int)).toNat = n.val
        rw [hs0, hw0]; omega
  · rw [dif_neg h]
    constructor
    · intro hh; exact absurd hh (by simp)
    · intro ht
      exfalso
      apply h
      intro a
      match a with
      | ⟨0, _⟩ =>
        show 0 ≤ (flatScatter N E wf).start (ix1 e) I 0 + ((flatScatter N E wf).window (ix1 e) 0 : Int)
          ∧ (flatScatter N E wf).start (ix1 e) I 0 + ((flatScatter N E wf).window (ix1 e) 0 : Int) < (N : Int)
        rw [hs0, hw0]; have := n.isLt; omega

/-- THE FLAT SCATTER-ADD AT `n`: the operand's entry plus the sum, over the updates `e` whose index is `n`, of
    the update's entry `e`. -/
theorem hostScatterAdd_flat_apply (X : (⟨1, ![N]⟩ : Shape).Idx → EReal) (U : (⟨1, ![E]⟩ : Shape).Idx → EReal)
    (n : Fin N) :
    Ideal.hostScatterAdd (flatScatter N E wf) X I U (ix1 n)
      = X (ix1 n) + ∑ e : Fin E, if (I (ix2 e (0 : Fin 1))).toInt = (n.val : Int) then U (ix1 e) else 0 := by
  unfold Ideal.hostScatterAdd
  congr 1
  rw [Finset.sum_filter, sum_idx1]
  refine Finset.sum_congr rfl fun e _ => ?_
  simp only [flatScatter_resultIdx?_eq_some_iff]

/-- The same for the host operation at the ideal instance, at any float format. -/
theorem scatterAdd_flat_apply {φ : FTy} (X : FVec Ideal ⟨1, ![N]⟩ φ) (U : FVec Ideal ⟨1, ![E]⟩ φ) (n : Fin N) :
    Host.scatterAdd (flatScatter N E wf) X I U (ix1 n)
      = X (ix1 n) + ∑ e : Fin E, if (I (ix2 e (0 : Fin 1))).toInt = (n.val : Int) then U (ix1 e) else 0 :=
  hostScatterAdd_flat_apply wf I X U n

end Scatter

end Cert.LibFlatScatter

end
-- ==== Proof.ReferenceValue.lean ====
/-
  The reference's result, read at a node, on the extended reals.

  Each of the reference's six segment sums is a scatter of single entries into a flat array of zeros: at node `n` it is
  zero plus the sum over the links whose index is `n`. The result at `n` is then the summed link right-hand sides
  (head side plus tail side) divided by the number of links there (at least one), plus the net flux (head sum
  minus tail sum), minus the meltwater input.
-/
import proofs.«175139_j15341623181950_2_alg».proof.Proof.Gen.ReferenceIdeal.Read
import proofs.«175139_j15341623181950_2_alg».proof.Proof.LibFlatScatter
import proofs.«175139_j15341623181950_2_alg».proof.Proof.NodeSums

noncomputable section

open scoped BigOperators

namespace Cert.ConduitReference

open Idealize.ShloMosaic Idealize.ShloMosaic.ValueIdx Cert.ReferenceIdeal Cert.ReferenceIdeal.Gen Cert.ReferenceIdeal.Read
open Cert.NodeSums

/-- The reference's scatter record is the flat scatter's. -/
theorem scatter_record : scatter_S4000000_S8000000x1_S8000000_n_0_0_1
    = Cert.LibFlatScatter.flatScatter 4000000 8000000 scatter_S4000000_S8000000x1_S8000000_n_0_0_1_wf := rfl

/-- The reference's scatter-add read at node `n`, for any column of indices. -/
theorem scatter_column_apply (z : FVec Ideal S4000000 .f32) (I : IVec S8000000x1 32) (u : FVec Ideal S8000000 .f32)
    (n : Fin 4000000) :
    Host.scatterAdd scatter_S4000000_S8000000x1_S8000000_n_0_0_1 z I u (ix1 n)
      = z (ix1 n) + ∑ e : Fin 8000000, if (I (ix2 e (0 : Fin 1))).toInt = (n.val : Int) then u (ix1 e) else 0 := by
  rw [scatter_record]
  exact Cert.LibFlatScatter.scatterAdd_flat_apply (N := 4000000) (E := 8000000)
    scatter_S4000000_S8000000x1_S8000000_n_0_0_1_wf I z u n

/-- The column of the node indices, at row `e`. -/
theorem idxColumn_apply (idx : IVec S8000000 32) (e : Fin 8000000) :
    broadcastInDim S8000000x1 ![0] bcast_S8000000_S8000000x1_0 idx (ix2 e (0 : Fin 1)) = idx (ix1 e) :=
  broadcastInDim_apply _ bcast_S8000000_S8000000x1_0 idx (ix2 e (0 : Fin 1)) (ix1 e) (fun a => match a with
    | ⟨0, _⟩ => by show e.val = if (8000000 : Nat) = 1 then 0 else e.val; rw [if_neg (by decide)])

/-- A flat scatter-add at the column of the node indices, read at node `n`: the operand there plus the sum over
    the links whose index is `n`. -/
theorem scatter_apply (z : FVec Ideal S4000000 .f32) (idx : IVec S8000000 32) (u : FVec Ideal S8000000 .f32)
    (n : Fin 4000000) :
    Host.scatterAdd scatter_S4000000_S8000000x1_S8000000_n_0_0_1 z
        (broadcastInDim S8000000x1 ![0] bcast_S8000000_S8000000x1_0 idx) u (ix1 n)
      = z (ix1 n) + seg idx u n := by
  rw [scatter_column_apply]
  unfold seg
  refine congrArg₂ (· + ·) rfl (Finset.sum_congr rfl fun e _ => ?_)
  rw [idxColumn_apply]

section Stages
variable (x0 x1 x2 : FVec Ideal S4000000 .f32) (x3 x4 x5 x6 : FVec Ideal S8000000 .f32) (x7 x8 : IVec S8000000 32)
  (n : Fin 4000000)

/-- Head-side sum of the link right-hand sides. -/
theorem v34_apply : val_main_v34 (F := Ideal) x0 x1 x3 x4 x5 x6 x7 x8 (ix1 n)
    = Ideal.ofBits .f32 0x00000000#32 + seg x7 (val_main_v31 (F := Ideal) x0 x1 x3 x4 x5 x6 x7 x8) n := by
  unfold val_main_v34 val_main_v33
  exact scatter_apply _ x7 _ n

/-- Tail-side sum of the link right-hand sides. -/
theorem v37_apply : val_main_v37 (F := Ideal) x0 x1 x3 x4 x5 x6 x7 x8 (ix1 n)
    = Ideal.ofBits .f32 0x00000000#32 + seg x8 (val_main_v31 (F := Ideal) x0 x1 x3 x4 x5 x6 x7 x8) n := by
  unfold val_main_v37 val_main_v36
  exact scatter_apply _ x8 _ n

/-- Head-side count. -/
theorem v42_apply : val_main_v42 (F := Ideal) x7 (ix1 n)
    = Ideal.ofBits .f32 0x00000000#32 + seg x7 (val_main_v39 (F := Ideal)) n := by
  unfold val_main_v42 val_main_v41
  exact scatter_apply _ x7 _ n

/-- Tail-side count. -/
theorem v45_apply : val_main_v45 (F := Ideal) x8 (ix1 n)
    = Ideal.ofBits .f32 0x00000000#32 + seg x8 (val_main_v39 (F := Ideal)) n := by
  unfold val_main_v45 val_main_v44
  exact scatter_apply _ x8 _ n

/-- Head-side flux sum. -/
theorem v52_apply : val_main_v52 (F := Ideal) x6 x7 (ix1 n)
    = Ideal.ofBits .f32 0x00000000#32 + seg x7 x6 n := by
  unfold val_main_v52 val_main_v51
  exact scatter_apply _ x7 _ n

/-- Tail-side flux sum. -/
theorem v55_apply : val_main_v55 (F := Ideal) x6 x8 (ix1 n)
    = Ideal.ofBits .f32 0x00000000#32 + seg x8 x6 n := by
  unfold val_main_v55 val_main_v54
  exact scatter_apply _ x8 _ n

/-- THE REFERENCE AT NODE `n`. -/
theorem reference_apply :
    val_main_v58 (F := Ideal) x0 x1 x2 x3 x4 x5 x6 x7 x8 (ix1 n)
      = Ideal.div
            ((Ideal.ofBits .f32 0x00000000#32 + seg x7 (val_main_v31 (F := Ideal) x0 x1 x3 x4 x5 x6 x7 x8) n)
              + (Ideal.ofBits .f32 0x00000000#32 + seg x8 (val_main_v31 (F := Ideal) x0 x1 x3 x4 x5 x6 x7 x8) n))
            (max ((Ideal.ofBits .f32 0x00000000#32 + seg x7 (val_main_v39 (F := Ideal)) n)
              + (Ideal.ofBits .f32 0x00000000#32 + seg x8 (val_main_v39 (F := Ideal)) n))
              (Ideal.ofBits .f32 0x3F800000#32))
          + ((Ideal.ofBits .f32 0x00000000#32 + seg x7 x6 n) - (Ideal.ofBits .f32 0x00000000#32 + seg x8 x6 n))
        - x2 (ix1 n) := by
  rw [val_main_v58_apply, val_main_v57_apply, val_main_v49_apply, val_main_v56_apply, val_main_v38_apply,
    val_main_v48_apply, val_main_v46_apply, v34_apply, v37_apply, v42_apply, v45_apply, v52_apply, v55_apply]
  rfl

end Stages

end Cert.ConduitReference

end
-- ==== Proof.KernelVsReference.lean ====
/-
  The kernel program's function and the reference are the same function of the nine arguments, on the extended
  reals, when the water flux is finite.

  After the reshapes cancel, both sides are, at node `n`,

      L(n) / max(C(n), 1) + flux(n) − w(n),

  with the same link right-hand side summed over the links at `n` (head side plus tail side) for `L`, the same
  count `C`, and for the net flux the head sum of the fluxes PLUS the tail sum of the negated fluxes in the kernel
  program, MINUS the tail sum of the fluxes in the reference: equal when the fluxes are real numbers.
-/
import proofs.«175139_j15341623181950_2_alg».proof.Proof.KernelNodeValue
import proofs.«175139_j15341623181950_2_alg».proof.Proof.ReferenceValue
import Idealize.ShloMosaic.PureOps.Ideal.Laws

noncomputable section

namespace Cert.ConduitBridge

open Idealize.ShloMosaic Idealize.ShloMosaic.ValueIdx Cert.NodeSums Cert.ConduitHost Cert.ConduitReference

section
variable (a0 a1 a2 : FVec Ideal Cert.KernelIdeal.S4000000 .f32) (a3 a4 a5 a6 : FVec Ideal Cert.KernelIdeal.S8000000 .f32)
  (a7 a8 : IVec Cert.KernelIdeal.S8000000 32)

/-- The reference's link right-hand side is the flat link right-hand side of the kernel program: the same
    operations in the same order on the same arrays. -/
theorem reference_linkRhs :
    Cert.ReferenceIdeal.Read.val_main_v31 (F := Ideal) a0 a1 a3 a4 a5 a6 a7 a8
      = linkRhsFlat (F := Ideal) a0 a1 a3 a4 a5 a6 a7 a8 := rfl

/-- The reference's array of ones is the kernel program's. -/
theorem reference_ones : Cert.ReferenceIdeal.Read.val_main_v39 (F := Ideal) = linkOnes (F := Ideal) := rfl

/-- THE KERNEL PROGRAM AT NODE `n`. -/
theorem kernelFlat_apply (n : Fin 4000000) :
    kernelFlat (F := Ideal) a0 a1 a2 a3 a4 a5 a6 a7 a8 (ix1 n)
      = Ideal.div
            ((Ideal.ofBits .f32 0x00000000#32 + seg a7 (linkRhsFlat (F := Ideal) a0 a1 a3 a4 a5 a6 a7 a8) n)
              + (Ideal.ofBits .f32 0x00000000#32 + seg a8 (linkRhsFlat (F := Ideal) a0 a1 a3 a4 a5 a6 a7 a8) n))
            (max ((Ideal.ofBits .f32 0x00000000#32 + seg a7 (linkOnes (F := Ideal)) n)
              + (Ideal.ofBits .f32 0x00000000#32 + seg a8 (linkOnes (F := Ideal)) n))
              (Ideal.ofBits .f32 0x3F800000#32))
          + ((Ideal.ofBits .f32 0x00000000#32 + seg a7 a6 n)
              + (Ideal.ofBits .f32 0x00000000#32 + seg a8 (fun i => -(a6 i)) n))
        - a2 (ix1 n) := by
  unfold kernelFlat Cert.Conduit.combine
  rw [subf_apply, addf_apply, divf_apply, maximumf_apply, nodeSums_column0, nodeSums_column1, nodeSums_column2]
  rfl

/-- THE BRIDGE: with a finite water flux, the kernel program's function of the arguments is the reference's. -/
theorem kernelFn_eq_reference (hq : ∀ i, ∃ r : ℝ, a6 i = (r : EReal)) :
    kernelFn (F := Ideal) a0 a1 a2 a3 a4 a5 a6 a7 a8
      = Cert.ReferenceIdeal.Read.val_main_v58 (F := Ideal) a0 a1 a2 a3 a4 a5 a6 a7 a8 := by
  funext i
  obtain ⟨n, rfl⟩ : ∃ n : Fin 4000000, i = ix1 n := ⟨i 0, eq_ix1 i⟩
  rw [kernelFn_eq_flat, kernelFlat_apply, reference_apply, reference_linkRhs, reference_ones,
    flux_law a7 a8 a6 hq n (Ideal.ofBits .f32 0x00000000#32) Ideal.ofBits_zero_f32]

end

end Cert.ConduitBridge

end
-- ==== Proof.lean ====
/-
  The certificate of the glacier conduit network's right-hand side: three tiled lane-wise kernels (the overburden
  pressure at the nodes, the conduit evolution term at the links, the node balance) among host gathers and segment sums,
  against the plain array formula.

  * The frames. Each kernel program is a host stretch, a region, a host stretch, a region, a host stretch, a region and a
    last reshape; each region's body loads whole blocks, applies one lane-wise law and stores a whole block, and the last
    block of each array overhangs it, so only the rows inside the array are stated. Every execution terminates, faults
    nowhere, and no stretch and no region writes an argument array. The reference is host operations only.
  * The idealization rewrote nothing, so there is nothing to preserve.
  * The values, on the extended reals. A lane-wise law of blocks is the block of the law of the arrays, the blocks tile
    the arrays, and a reshape to rows of 128 and back is the identity, so the idealized kernel computes, per node,
    (sum over the links at the node of the link term) / max(number of links at the node, 1) + net flux − meltwater input
    with the same link term as the reference. The two programs differ in how the sums are laid out — three columns
    summed at once against six separate sums — and in the tail-side flux, summed negated by the kernel and subtracted by
    the reference; the negative of a sum of REAL numbers is the sum of the negatives, and the water flux is finite by
    the precondition.
-/
import proofs.«175139_j15341623181950_2_alg».proof.Defs
import proofs.«175139_j15341623181950_2_alg».proof.Proof.Gen.Kernel
import proofs.«175139_j15341623181950_2_alg».proof.Proof.Gen.KernelIdeal
import proofs.«175139_j15341623181950_2_alg».proof.Proof.Gen.ReferenceIdeal
import proofs.«175139_j15341623181950_2_alg».proof.Proof.Gen.ReferenceIdeal.Run
import proofs.«175139_j15341623181950_2_alg».proof.Proof.Gen.ReferenceIdeal.Read
import proofs.«175139_j15341623181950_2_alg».proof.Proof.Gen.Pre_finite_inputs
import proofs.«175139_j15341623181950_2_alg».proof.Proof.Kernel.Run
import proofs.«175139_j15341623181950_2_alg».proof.Proof.KernelIdeal.Whole
import proofs.«175139_j15341623181950_2_alg».proof.Proof.FiniteFlux
import proofs.«175139_j15341623181950_2_alg».proof.Proof.KernelVsReference
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Run.frame (F := Bits) m ρ

/-- So does the idealized kernel program: the same run read on the extended reals. -/
theorem frame_kernelIdeal : Cert.frame_KernelIdeal := fun m ρ _ => Cert.KernelIdeal.Run.frame (F := Ideal) m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the two programs end with one result: the kernel's whole function of the arguments is the
    reference's term, the water flux being finite. -/
theorem algebraic : Cert.algebraic_KernelIdeal_ReferenceIdeal := by
  intro m ρ m' ρ' hpre hagree
  refine ⟨fun c => Cert.ConduitHost.kernelFn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Whole.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]
  exact (Cert.ConduitBridge.kernelFn_eq_reference _ _ _ _ _ _ _ _ _ (fun i => Cert.ConduitFinite.flux_real m hpre c i)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
